-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16 : Shape := ⟨2, ![4096, 16]⟩
abbrev S4096x4096 : Shape := ⟨2, ![4096, 4096]⟩
abbrev S16x16 : Shape := ⟨2, ![16, 16]⟩
abbrev S32x1 : Shape := ⟨2, ![32, 1]⟩
abbrev S16x32 : Shape := ⟨2, ![16, 32]⟩
abbrev S32 : Shape := ⟨1, ![32]⟩
abbrev S_ : Shape := ⟨0, ![]⟩

class Facts : Prop where
  bcast_S_S4096x16 : S_.BroadcastsInDim S4096x16 (![] : Fin 0 → Fin S4096x16.rank)
  reducesTo_S4096x16_S_d0_1 : S4096x16.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x16 : S_.BroadcastsInDim S16x16 (![] : Fin 0 → Fin S16x16.rank)
  reducesTo_S16x16_S_d0_1 : S16x16.ReducesTo [0, 1] S_
  bcast_S_S32x1 : S_.BroadcastsInDim S32x1 (![] : Fin 0 → Fin S32x1.rank)
  reducesTo_S32x1_S_d0_1 : S32x1.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S16x32 .f32) (main_arg5 : FVec F S32 .f32) (main_arg6 : FVec F S32 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S4096x16 .f32) (main_arg1 : FVec F S4096x4096 .f32) (main_arg2 : FVec F S16x16 .f32) (main_arg3 : FVec F S32x1 .f32) (main_arg4 : FVec F S16x32 .f32) (main_arg5 : FVec F S32 .f32) (main_arg6 : FVec F S32 .f32) : IVec S_ 1 :=
  let main_v0 : FVec F S4096x16 .f32 := Host.absf main_arg0
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_c : IVec S_ 1 := constantI S_ 1 1#1
  let main_v3 : IVec S_ 1 := (fun x v => Host.reduce IntOp.andi x v reducesTo_S4096x16_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x16 .f32 := Host.absf main_arg2
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S32x1 .f32 := Host.absf main_arg3
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg4 main_arg5 main_arg6 main_v13 main_v16
-- ==== Kernel.lean ====
abbrev S4096x16 : Shape := ⟨2, ![4096, 16]⟩
abbrev S4096x4096 : Shape := ⟨2, ![4096, 4096]⟩
abbrev S16x16 : Shape := ⟨2, ![16, 16]⟩
abbrev S32x1 : Shape := ⟨2, ![32, 1]⟩
abbrev S16x32 : Shape := ⟨2, ![16, 32]⟩
abbrev S32 : Shape := ⟨1, ![32]⟩
abbrev S16x1 : Shape := ⟨2, ![16, 1]⟩
abbrev S1x16 : Shape := ⟨2, ![1, 16]⟩
abbrev S1x32 : Shape := ⟨2, ![1, 32]⟩
abbrev S4096x32 : Shape := ⟨2, ![4096, 32]⟩
abbrev S256x16 : Shape := ⟨2, ![256, 16]⟩
abbrev S256x4096 : Shape := ⟨2, ![256, 4096]⟩
abbrev S256x32 : Shape := ⟨2, ![256, 32]⟩
abbrev S256x1 : Shape := ⟨2, ![256, 1]⟩
abbrev S1x4096 : Shape := ⟨2, ![1, 4096]⟩
abbrev S256 : Shape := ⟨1, ![256]⟩

abbrev nBuf : Space → Nat
  | .hbm => 16
  | .vmem => 23
  | .smem => 0
  | _ => 0

abbrev bufTy : (tb : Table) → Fin (tcTables nBuf tb) → BufTy
  | .hbm, ⟨0, _⟩ => ⟨S4096x16, .f32⟩
  | .hbm, ⟨1, _⟩ => ⟨S4096x4096, .f32⟩
  | .hbm, ⟨2, _⟩ => ⟨S16x16, .f32⟩
  | .hbm, ⟨3, _⟩ => ⟨S32x1, .f32⟩
  | .hbm, ⟨4, _⟩ => ⟨S16x32, .f32⟩
  | .hbm, ⟨5, _⟩ => ⟨S32, .f32⟩
  | .hbm, ⟨6, _⟩ => ⟨S32, .f32⟩
  | .hbm, ⟨7, _⟩ => ⟨S16x1, .f32⟩
  | .hbm, ⟨8, _⟩ => ⟨S1x16, .f32⟩
  | .hbm, ⟨9, _⟩ => ⟨S16x1, .f32⟩
  | .hbm, ⟨10, _⟩ => ⟨S1x16, .f32⟩
  | .hbm, ⟨11, _⟩ => ⟨S1x32, .f32⟩
  | .hbm, ⟨12, _⟩ => ⟨S1x32, .f32⟩
  | .hbm, ⟨13, _⟩ => ⟨S4096x32, .f32⟩
  | .hbm, ⟨14, _⟩ => ⟨S4096x32, .f32⟩
  | .hbm, ⟨15, _⟩ => ⟨S4096x4096, .f32⟩
  | .local _ .vmem, ⟨0, _⟩ => ⟨S4096x16, .f32⟩
  | .local _ .vmem, ⟨1, _⟩ => ⟨S256x16, .f32⟩
  | .local _ .vmem, ⟨2, _⟩ => ⟨S256x16, .f32⟩
  | .local _ .vmem, ⟨3, _⟩ => ⟨S256x4096, .f32⟩
  | .local _ .vmem, ⟨4, _⟩ => ⟨S256x4096, .f32⟩
  | .local _ .vmem, ⟨5, _⟩ => ⟨S16x16, .f32⟩
  | .local _ .vmem, ⟨6, _⟩ => ⟨S1x16, .f32⟩
  | .local _ .vmem, ⟨7, _⟩ => ⟨S1x16, .f32⟩
  | .local _ .vmem, ⟨8, _⟩ => ⟨S16x32, .f32⟩
  | .local _ .vmem, ⟨9, _⟩ => ⟨S256x32, .f32⟩
  | .local _ .vmem, ⟨10, _⟩ => ⟨S256x32, .f32⟩
  | .local _ .vmem, ⟨11, _⟩ => ⟨S256x4096, .f32⟩
  | .local _ .vmem, ⟨12, _⟩ => ⟨S256x4096, .f32⟩
  | .local _ .vmem, ⟨13, _⟩ => ⟨S4096x32, .f32⟩
  | .local _ .vmem, ⟨14, _⟩ => ⟨S256x32, .f32⟩
  | .local _ .vmem, ⟨15, _⟩ => ⟨S256x32, .f32⟩
  | .local _ .vmem, ⟨16, _⟩ => ⟨S4096x32, .f32⟩
  | .local _ .vmem, ⟨17, _⟩ => ⟨S256x32, .f32⟩
  | .local _ .vmem, ⟨18, _⟩ => ⟨S256x32, .f32⟩
  | .local _ .vmem, ⟨19, _⟩ => ⟨S1x32, .f32⟩
  | .local _ .vmem, ⟨20, _⟩ => ⟨S1x32, .f32⟩
  | .local _ .vmem, ⟨21, _⟩ => ⟨S256x4096, .f32⟩
  | .local _ .vmem, ⟨22, _⟩ => ⟨S256x4096, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4096x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S32x1_S16x1_0_0 : S32x1.Slices ![0, 0] S16x1
  shapeCasts_S16x1_S1x16 : S16x1.ShapeCasts S1x16
  slices_S32x1_S16x1_16_0 : S32x1.Slices ![16, 0] S16x1
  shapeCasts_S32_S1x32 : S32.ShapeCasts S1x32
  inb_S4096x16_S4096x16_0_0 : ∀ a, (![0, 0] : Fin 2 → Nat) a + S4096x16.size a ≤ S4096x16.size a
  h_S4096x16 : 0 < S4096x16.numel
  inb_S16x16_S16x16_0_0 : ∀ a, (![0, 0] : Fin 2 → Nat) a + S16x16.size a ≤ S16x16.size a
  h_S16x16 : 0 < S16x16.numel
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  inb_S16x32_S16x32_0_0 : ∀ a, (![0, 0] : Fin 2 → Nat) a + S16x32.size a ≤ S16x32.size a
  h_S16x32 : 0 < S16x32.numel
  inb_S256x32_S256x32_0_0 : ∀ a, (![0, 0] : Fin 2 → Nat) a + S256x32.size a ≤ S256x32.size a
  h_S256x32 : 0 < S256x32.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  reduces_S4096x32_S32 : S4096x32.Reduces [0] S32
  broadcasts_S1x32_S4096x32 : S1x32.Broadcasts S4096x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S256x32_S256x32 : S256x32.ShapeCasts S256x32
  broadcasts_S1x32_S256x32 : S1x32.Broadcasts S256x32
  dot_S4096x16_S16x16_S4096x16_1_0_0_1_n_n_wf : DotDims.WF S4096x16 S16x16 S4096x16 [1] [0] [0] [1] [] []
  dot_S256x16_S16x16_S256x16_1_0_0_1_n_n_wf : DotDims.WF S256x16 S16x16 S256x16 [1] [0] [0] [1] [] []
  dot_S256x16_S1x16_S256x1_1_1_0_0_n_n_wf : DotDims.WF S256x16 S1x16 S256x1 [1] [1] [0] [0] [] []
  dot_S1x16_S4096x16_S1x4096_1_1_0_0_n_n_wf : DotDims.WF S1x16 S4096x16 S1x4096 [1] [1] [0] [0] [] []
  dot_S256x4096_S4096x16_S256x16_1_0_0_1_n_n_wf : DotDims.WF S256x4096 S4096x16 S256x16 [1] [0] [0] [1] [] []
  dot_S256x16_S16x32_S256x32_1_0_0_1_n_n_wf : DotDims.WF S256x16 S16x32 S256x32 [1] [0] [0] [1] [] []
  dot_S256x4096_S4096x32_S256x32_1_0_0_1_n_n_wf : DotDims.WF S256x4096 S4096x32 S256x32 [1] [0] [0] [1] [] []
  dot_S256x32_S4096x32_S256x4096_1_1_0_0_n_n_wf : DotDims.WF S256x32 S4096x32 S256x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S4096x16.size a
  hwx0_0 : ∀ i : grid0.Coords, EltTy.bits .f32 = 32 ∨ (Rect.block (s := S4096x16) S4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S4096x16.size a
  hwx0_1 : ∀ i : grid0.Coords, EltTy.bits .f32 = 32 ∨ (Rect.block (s := S4096x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x32.size a ≤ S16x32.size a
  hwx0_6 : ∀ i : grid0.Coords, EltTy.bits .f32 = 32 ∨ (Rect.block (s := S16x32) S16x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x32.size a ≤ S4096x32.size a
  hwx0_7 : ∀ i : grid0.Coords, EltTy.bits .f32 = 32 ∨ (Rect.block (s := S4096x32) S256x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x32.size a ≤ S4096x32.size a
  hwx1_1 : ∀ i : grid1.Coords, EltTy.bits .f32 = 32 ∨ (Rect.block (s := S4096x32) S4096x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x32.size a ≤ S4096x32.size a
  hwx1_2 : ∀ i : grid1.Coords, EltTy.bits .f32 = 32 ∨ (Rect.block (s := S4096x32) S256x32.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x32.size a ≤ S4096x32.size a
  hwx2_0 : ∀ i : grid2.Coords, EltTy.bits .f32 = 32 ∨ (Rect.block (s := S4096x32) S4096x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x32.size a ≤ S4096x32.size a
  hwx2_1 : ∀ i : grid2.Coords, EltTy.bits .f32 = 32 ∨ (Rect.block (s := S4096x32) S256x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x4096.size a ≤ S4096x4096.size a
  hwx2_4 : ∀ i : grid2.Coords, EltTy.bits .f32 = 32 ∨ (Rect.block (s := S4096x4096) S256x4096.size (cc2_transform_4 i) (hinb2_4 i)).WholeWords (EltTy.packing .f32)

variable [Facts₀]

def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def dot_S256x16_S16x16_S256x16_1_0_0_1_n_n : DotDims S256x16 S16x16 S256x16 where
  lhsContracting := [1]
  rhsContracting := [0]
  lhsNonContracting := [0]
  rhsNonContracting := [1]
  lhsBatch := []
  rhsBatch := []
  wf := dot_S256x16_S16x16_S256x16_1_0_0_1_n_n_wf
def dot_S256x16_S1x16_S256x1_1_1_0_0_n_n : DotDims S256x16 S1x16 S256x1 where
  lhsContracting := [1]
  rhsContracting := [1]
  lhsNonContracting := [0]
  rhsNonContracting := [0]
  lhsBatch := []
  rhsBatch := []
  wf := dot_S256x16_S1x16_S256x1_1_1_0_0_n_n_wf
def dot_S1x16_S4096x16_S1x4096_1_1_0_0_n_n : DotDims S1x16 S4096x16 S1x4096 where
  lhsContracting := [1]
  rhsContracting := [1]
  lhsNonContracting := [0]
  rhsNonContracting := [0]
  lhsBatch := []
  rhsBatch := []
  wf := dot_S1x16_S4096x16_S1x4096_1_1_0_0_n_n_wf
def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S256x16_S16x32_S256x32_1_0_0_1_n_n : DotDims S256x16 S16x32 S256x32 where
  lhsContracting := [1]
  rhsContracting := [0]
  lhsNonContracting := [0]
  rhsNonContracting := [1]
  lhsBatch := []
  rhsBatch := []
  wf := dot_S256x16_S16x32_S256x32_1_0_0_1_n_n_wf
def dot_S256x4096_S4096x32_S256x32_1_0_0_1_n_n : DotDims S256x4096 S4096x32 S256x32 where
  lhsContracting := [1]
  rhsContracting := [0]
  lhsNonContracting := [0]
  rhsNonContracting := [1]
  lhsBatch := []
  rhsBatch := []
  wf := dot_S256x4096_S4096x32_S256x32_1_0_0_1_n_n_wf
def dot_S256x32_S4096x32_S256x4096_1_1_0_0_n_n : DotDims S256x32 S4096x32 S256x4096 where
  lhsContracting := [1]
  rhsContracting := [1]
  lhsNonContracting := [0]
  rhsNonContracting := [0]
  lhsBatch := []
  rhsBatch := []
  wf := dot_S256x32_S4096x32_S256x4096_1_1_0_0_n_n_wf

abbrev win0_0 : Pipeline.Window sig grid0 :=
  Pipeline.Window.ofSpec (Memref.whole main_arg0) S4096x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S16x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S256x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4096x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S256x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v7) S4096x32.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v7) S256x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S256x4096.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4096x16 : Shape := ⟨2, ![4096, 16]⟩
abbrev S4096x4096 : Shape := ⟨2, ![4096, 4096]⟩
abbrev S16x16 : Shape := ⟨2, ![16, 16]⟩
abbrev S32x1 : Shape := ⟨2, ![32, 1]⟩
abbrev S16x32 : Shape := ⟨2, ![16, 32]⟩
abbrev S32 : Shape := ⟨1, ![32]⟩
abbrev S16x1 : Shape := ⟨2, ![16, 1]⟩
abbrev S4096x1 : Shape := ⟨2, ![4096, 1]⟩
abbrev S1x4096 : Shape := ⟨2, ![1, 4096]⟩
abbrev S_ : Shape := ⟨0, ![]⟩
abbrev S4096 : Shape := ⟨1, ![4096]⟩
abbrev S4096x32 : Shape := ⟨2, ![4096, 32]⟩
abbrev S1x32 : Shape := ⟨2, ![1, 32]⟩
abbrev S32x4096 : Shape := ⟨2, ![32, 4096]⟩

abbrev nBuf : Space → Nat
  | .hbm => 96
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096x4096, .f32⟩
  | .hbm, ⟨2, _⟩ => ⟨S16x16, .f32⟩
  | .hbm, ⟨3, _⟩ => ⟨S32x1, .f32⟩
  | .hbm, ⟨4, _⟩ => ⟨S16x32, .f32⟩
  | .hbm, ⟨5, _⟩ => ⟨S32, .f32⟩
  | .hbm, ⟨6, _⟩ => ⟨S32, .f32⟩
  | .hbm, ⟨7, _⟩ => ⟨S4096x16, .f32⟩
  | .hbm, ⟨8, _⟩ => ⟨S16x1, .f32⟩
  | .hbm, ⟨9, _⟩ => ⟨S4096x1, .f32⟩
  | .hbm, ⟨10, _⟩ => ⟨S16x1, .f32⟩
  | .hbm, ⟨11, _⟩ => ⟨S4096x1, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .i1⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .i1⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x4096, .f32⟩
  | .hbm, ⟨43, _⟩ => ⟨S4096x4096, .f32⟩
  | .hbm, ⟨44, _⟩ => ⟨S4096x16, .f32⟩
  | .hbm, ⟨45, _⟩ => ⟨S4096x32, .f32⟩
  | .hbm, ⟨46, _⟩ => ⟨S4096x32, .f32⟩
  | .hbm, ⟨47, _⟩ => ⟨S_, .f32⟩
  | .hbm, ⟨48, _⟩ => ⟨S4096x32, .f32⟩
  | .hbm, ⟨49, _⟩ => ⟨S4096x32, .f32⟩
  | .hbm, ⟨50, _⟩ => ⟨S_, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .i32⟩
  | .hbm, ⟨56, _⟩ => ⟨S_, .f32⟩
  | .hbm, ⟨57, _⟩ => ⟨S32, .f32⟩
  | .hbm, ⟨58, _⟩ => ⟨S1x32, .f32⟩
  | .hbm, ⟨59, _⟩ => ⟨S_, .f32⟩
  | .hbm, ⟨60, _⟩ => ⟨S1x32, .f32⟩
  | .hbm, ⟨61, _⟩ => ⟨S1x32, .f32⟩
  | .hbm, ⟨62, _⟩ => ⟨S4096x32, .f32⟩
  | .hbm, ⟨63, _⟩ => ⟨S4096x32, .f32⟩
  | .hbm, ⟨64, _⟩ => ⟨S4096x32, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S32, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S32, .f32⟩
  | .hbm, ⟨77, _⟩ => ⟨S32, .f32⟩
  | .hbm, ⟨78, _⟩ => ⟨S1x32, .f32⟩
  | .hbm, ⟨79, _⟩ => ⟨S4096x32, .f32⟩
  | .hbm, ⟨80, _⟩ => ⟨S4096x32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S32, .f32⟩
  | .hbm, ⟨85, _⟩ => ⟨S1x32, .f32⟩
  | .hbm, ⟨86, _⟩ => ⟨S4096x32, .f32⟩
  | .hbm, ⟨87, _⟩ => ⟨S4096x32, .f32⟩
  | .hbm, ⟨88, _⟩ => ⟨S1x32, .f32⟩
  | .hbm, ⟨89, _⟩ => ⟨S4096x32, .f32⟩
  | .hbm, ⟨90, _⟩ => ⟨S4096x32, .f32⟩
  | .hbm, ⟨91, _⟩ => ⟨S1x32, .f32⟩
  | .hbm, ⟨92, _⟩ => ⟨S4096x32, .f32⟩
  | .hbm, ⟨93, _⟩ => ⟨S4096x32, .f32⟩
  | .hbm, ⟨94, _⟩ => ⟨S32x4096, .f32⟩
  | .hbm, ⟨95, _⟩ => ⟨S4096x4096, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call2_cst : Ref sig .tc := ⟨.hbm, 47, rfl⟩
abbrev main_call2_v0 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_c : Ref sig .tc := ⟨.hbm, 55, rfl⟩
abbrev main_call3_cst : Ref sig .tc := ⟨.hbm, 56, rfl⟩
abbrev main_call3_v0 : Ref sig .tc := ⟨.hbm, 57, rfl⟩
abbrev main_call3_v1 : Ref sig .tc := ⟨.hbm, 58, rfl⟩
abbrev main_call3_cst_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_v6 : Ref sig .tc := ⟨.hbm, 64, rfl⟩
abbrev main_call3_v7 : Ref sig .tc := ⟨.hbm, 65, rfl⟩
abbrev main_call3_cst_1 : Ref sig .tc := ⟨.hbm, 66, rfl⟩
abbrev main_call3_v8 : Ref sig .tc := ⟨.hbm, 67, rfl⟩
abbrev main_call3_cst_2 : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_cst_3 : Ref sig .tc := ⟨.hbm, 72, rfl⟩
abbrev main_call3_v12 : Ref sig .tc := ⟨.hbm, 73, rfl⟩
abbrev main_call3_cst_4 : Ref sig .tc := ⟨.hbm, 74, rfl⟩
abbrev main_call3_call0_v0 : Ref sig .tc := ⟨.hbm, 75, rfl⟩
abbrev main_call3_call0_v1 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_7 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩

abbrev nD : Nat := 1
abbrev τ : Topo := Topo.v7x

variable {F : FTy → Type} [FloatOps F]

class Facts₀ : Prop where
  slices_S32x1_S16x1_0_0 : S32x1.Slices ![0, 0] S16x1
  slices_S32x1_S16x1_16_0 : S32x1.Slices ![16, 0] S16x1
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S_S4096x32 : S_.BroadcastsInDim S4096x32 (![] : Fin 0 → Fin S4096x32.rank)
  reducesTo_S4096x32_S32_d0 : S4096x32.ReducesTo [0] S32
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S4096x32_0_1 : S1x32.BroadcastsInDim S4096x32 (![0, 1] : Fin 2 → Fin S4096x32.rank)
  transposes_S4096x32_S32x4096_1_0 : S4096x32.Transposes [1, 0] S32x4096
  dot_S4096x16_S16x16_S4096x16_1_0_0_1_n_n_wf : DotDims.WF S4096x16 S16x16 S4096x16 [1] [0] [0] [1] [] []
  dot_S4096x16_S16x1_S4096x1_1_0_0_1_n_n_wf : DotDims.WF S4096x16 S16x1 S4096x1 [1] [0] [0] [1] [] []
  dot_S4096x4096_S4096x16_S4096x16_1_0_0_1_n_n_wf : DotDims.WF S4096x4096 S4096x16 S4096x16 [1] [0] [0] [1] [] []
  dot_S4096x16_S16x32_S4096x32_1_0_0_1_n_n_wf : DotDims.WF S4096x16 S16x32 S4096x32 [1] [0] [0] [1] [] []
  dot_S4096x4096_S4096x32_S4096x32_1_0_0_1_n_n_wf : DotDims.WF S4096x4096 S4096x32 S4096x32 [1] [0] [0] [1] [] []
  dot_S4096x32_S32x4096_S4096x4096_1_0_0_1_n_n_wf : DotDims.WF S4096x32 S32x4096 S4096x4096 [1] [0] [0] [1] [] []

variable [Facts₀]

def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf
def dot_S4096x16_S16x32_S4096x32_1_0_0_1_n_n : DotDims S4096x16 S16x32 S4096x32 where
  lhsContracting := [1]
  rhsContracting := [0]
  lhsNonContracting := [0]
  rhsNonContracting := [1]
  lhsBatch := []
  rhsBatch := []
  wf := dot_S4096x16_S16x32_S4096x32_1_0_0_1_n_n_wf
def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf

class Facts : Prop extends Facts₀ where

variable [Facts]
-- ==== Proof.BodyAttention.lean ====
/-
  The attention kernel's body, run once on whole staging buffers: it loads the whole feature matrix, the point's block of
  feature rows, the point's block of adjacency rows, the attention weight, the two halves of the attention vector and
  the graph-convolution weight, and stores the block's rows of the support matrix over all of its output block. What the
  output buffer then holds is stated as that one store read back over the loaded values.
-/
import proofs.«177283_g481036337857_cont_8to1_c_51_7_alg».proof.Proof.Gen.KernelIdeal.Launch
import proofs.«177283_g481036337857_cont_8to1_c_51_7_alg».proof.Proof.Gen.KernelIdeal.Skeleton
import proofs.«177283_g481036337857_cont_8to1_c_51_7_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles the body's whole-buffer accesses go through. -/
abbrev rFeat : Rect S4096x16 := Rect.unit (s := S4096x16) ![0, 0] S4096x16.size inb_S4096x16_S4096x16_0_0
abbrev rFeatRows : Rect S256x16 := Rect.unit (s := S256x16) ![0, 0] S256x16.size inb_S256x16_S256x16_0_0
abbrev rAdjRows0 : Rect S256x4096 := Rect.unit (s := S256x4096) ![0, 0] S256x4096.size inb_S256x4096_S256x4096_0_0
abbrev rAttW : Rect S16x16 := Rect.unit (s := S16x16) ![0, 0] S16x16.size inb_S16x16_S16x16_0_0
abbrev rAttVec : Rect S1x16 := Rect.unit (s := S1x16) ![0, 0] S1x16.size inb_S1x16_S1x16_0_0
abbrev rGcW : Rect S16x32 := Rect.unit (s := S16x32) ![0, 0] S16x32.size inb_S16x32_S16x32_0_0
abbrev rSupRows : Rect S256x32 := Rect.unit (s := S256x32) ![0, 0] S256x32.size inb_S256x32_S256x32_0_0

/-- What the output block's buffer holds after the body: its one store, over the values the body loaded. -/
def attOut (x0 : Vec F S4096x16 .f32) (x1 : Vec F S256x16 .f32) (x2 : Vec F S256x4096 .f32) (x3 : Vec F S16x16 .f32)
    (x4 x5 : Vec F S1x16 .f32) (x6 : Vec F S16x32 .f32) : Vec F S256x32 .f32 :=
  View.canon [⟨rSupRows, k0_pay1 (k0_pay2 (View.ld x0 rFeat) (View.ld x3 rAttW))
    (k0_pay3 (View.ld x0 rFeat) (View.ld x3 rAttW) (View.ld x1 rFeatRows) (View.ld x3 rAttW) (View.ld x4 rAttVec) (View.ld x5 rAttVec) (View.ld x2 rAdjRows0))
    (constant S256x16 .f32 0x00000000#32) (View.ld x6 rGcW)⟩]

/-- The one store covers the block. -/
theorem attCover (p0 : Vec F S256x32 .f32) (y : S256x32.Idx) :
    ∃ pc ∈ ([⟨rSupRows, p0⟩] : List (View.Piece (Elt F) S256x32 .f32)), y ∈ pc.1.set :=
  View.cover_of_tiled [⟨rSupRows, p0⟩] S256x32.size (by rfl) y

set_option maxHeartbeats 2000000 in
/-- The body on whole staging buffers, the inputs' at contents x0 … x6 and the output's at anything, reaches its
    continuation holding the inputs' as they were and the output's at `attOut x0 … x6`. -/
theorem attKernel (c : Dev nD) (E : Set ℕ) (i : grid0.Coords)
    (arg1 : Memref sig .tc .vmem S4096x16 .f32) (harg1 : arg1.IsWhole) (arg2 : Memref sig .tc .vmem S256x16 .f32) (harg2 : arg2.IsWhole)
    (arg3 : Memref sig .tc .vmem S256x4096 .f32) (harg3 : arg3.IsWhole) (arg4 : Memref sig .tc .vmem S16x16 .f32) (harg4 : arg4.IsWhole)
    (arg5 : Memref sig .tc .vmem S1x16 .f32) (harg5 : arg5.IsWhole) (arg6 : Memref sig .tc .vmem S1x16 .f32) (harg6 : arg6.IsWhole)
    (arg7 : Memref sig .tc .vmem S16x32 .f32) (harg7 : arg7.IsWhole) (arg8 : Memref sig .tc .vmem S256x32 .f32) (harg8 : arg8.IsWhole)
    (x0 : Vec F S4096x16 .f32) (x1 : Vec F S256x16 .f32) (x2 : Vec F S256x4096 .f32) (x3 : Vec F S16x16 .f32)
    (x4 x5 : Vec F S1x16 .f32) (x6 : Vec F S16x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (attOut x0 x1 x2 x3 x4 x5 x6)) -∗ K ⟨⟩))
      ⊢ wp frame (wpE (defs₀ (F := F)) Variants.none c none) E
          (cc0__att_support_kernel i arg1 harg1 arg2 harg2 arg3 harg3 arg4 harg4 arg5 harg5 arg6 harg6 arg7 harg7 arg8 harg8) K := by
  simp only [cc0__att_support_kernel_eq_skeleton]; unfold cc0__att_support_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (attCover _)

end Cert.KernelIdeal.Hand

end
-- ==== Proof.RegionAttentionData.lean ====
/-
  The attention region's proof data and body obligation, for any contents V of the core's unscoped buffers at the
  region's entry. Windows 0 and 1 both read the feature array (whole, and the point's block of 256 rows), so each holds
  one half of that array's share; window 2 is the point's block of adjacency rows; windows 3 to 6 are the attention
  weight, the two halves of the attention vector and the graph-convolution weight, each whole; window 7 is the point's
  block of 256 rows of the support matrix. At every point each input buffer holds its block of the array as the region
  found it; the body leaves the inputs in place and the output at the block's rows of the support.
-/
import proofs.«177283_g481036337857_cont_8to1_c_51_7_alg».proof.Proof.BodyAttention
import Idealize.ShloMosaic.Lib.Pipeline.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def attBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data on core c. -/
def attDat (c : Dev nD) : Dat τ (Elt F) Unit ℕ (UR sig nD τ) ℕ cfg0 c where
  A w := V c (Pipeline.arrRef spec0 w)
  after w t := match w with
    | ⟨0, _⟩ => attBlk V c 0 t
    | ⟨1, _⟩ => attBlk V c 1 t
    | ⟨2, _⟩ => attBlk V c 2 t
    | ⟨3, _⟩ => attBlk V c 3 t
    | ⟨4, _⟩ => attBlk V c 4 t
    | ⟨5, _⟩ => attBlk V c 5 t
    | ⟨6, _⟩ => attBlk V c 6 t
    | ⟨7, _⟩ => attOut (attBlk V c 0 t) (attBlk V c 1 t) (attBlk V c 2 t) (attBlk V c 3 t) (attBlk V c 4 t) (attBlk V c 5 t) (attBlk V c 6 t)
  Φ _ := Pipeline.ΦA spec0 c
  q w := match w with | ⟨0, _⟩ => fullShare.left | ⟨1, _⟩ => fullShare.right | _ => fullShare
  owed _ := 0

theorem attDat_A (c : Dev nD) (w : Fin cfg0.W) : (attDat V c).A w = V c (Pipeline.arrRef spec0 w) := by
  dsimp only [attDat]

theorem attAfter0 (c : Dev nD) (t : Fin cfg0.N) : (attDat V c).after 0 t = attBlk V c 0 t := by dsimp only [attDat]
theorem attAfter1 (c : Dev nD) (t : Fin cfg0.N) : (attDat V c).after 1 t = attBlk V c 1 t := by dsimp only [attDat]
theorem attAfter2 (c : Dev nD) (t : Fin cfg0.N) : (attDat V c).after 2 t = attBlk V c 2 t := by dsimp only [attDat]
theorem attAfter3 (c : Dev nD) (t : Fin cfg0.N) : (attDat V c).after 3 t = attBlk V c 3 t := by dsimp only [attDat]
theorem attAfter4 (c : Dev nD) (t : Fin cfg0.N) : (attDat V c).after 4 t = attBlk V c 4 t := by dsimp only [attDat]
theorem attAfter5 (c : Dev nD) (t : Fin cfg0.N) : (attDat V c).after 5 t = attBlk V c 5 t := by dsimp only [attDat]
theorem attAfter6 (c : Dev nD) (t : Fin cfg0.N) : (attDat V c).after 6 t = attBlk V c 6 t := by dsimp only [attDat]
theorem attAfter7 (c : Dev nD) (t : Fin cfg0.N) : (attDat V c).after 7 t = attOut (attBlk V c 0 t) (attBlk V c 1 t) (attBlk V c 2 t) (attBlk V c 3 t) (attBlk V c 4 t) (attBlk V c 5 t) (attBlk V c 6 t) := by dsimp only [attDat]

/-- Each input's current staging buffer holds its block at every point, fetched there or not. -/
theorem attBefore0 (c : Dev nD) (t : Fin cfg0.N) (d) : (attDat V c).before 0 t d = attBlk V c 0 t :=
  ((attDat V c).before_in_eq_fetched 0 rfl (fun _ => rfl) (fun _ _ _ => rfl)
    (fun t => by rw [attAfter0]; unfold Dat.blockOf attBlk; rw [attDat_A]; try rfl) t d).trans
    (by unfold Dat.fetched Dat.blockOf attBlk; rw [attDat_A]; try rfl)
theorem attBefore1 (c : Dev nD) (t : Fin cfg0.N) (d) : (attDat V c).before 1 t d = attBlk V c 1 t :=
  ((attDat V c).before_in_eq_fetched 1 rfl (fun _ => rfl) (fun _ _ _ => rfl)
    (fun t => by rw [attAfter1]; unfold Dat.blockOf attBlk; rw [attDat_A]; try rfl) t d).trans
    (by unfold Dat.fetched Dat.blockOf attBlk; rw [attDat_A]; try rfl)
theorem attBefore2 (c : Dev nD) (t : Fin cfg0.N) (d) : (attDat V c).before 2 t d = attBlk V c 2 t :=
  ((attDat V c).before_in_eq_fetched 2 rfl (fun _ => rfl) (fun _ _ _ => rfl)
    (fun t => by rw [attAfter2]; unfold Dat.blockOf attBlk; rw [attDat_A]; try rfl) t d).trans
    (by unfold Dat.fetched Dat.blockOf attBlk; rw [attDat_A]; try rfl)
theorem attBefore3 (c : Dev nD) (t : Fin cfg0.N) (d) : (attDat V c).before 3 t d = attBlk V c 3 t :=
  ((attDat V c).before_in_eq_fetched 3 rfl (fun _ => rfl) (fun _ _ _ => rfl)
    (fun t => by rw [attAfter3]; unfold Dat.blockOf attBlk; rw [attDat_A]; try rfl) t d).trans
    (by unfold Dat.fetched Dat.blockOf attBlk; rw [attDat_A]; try rfl)
theorem attBefore4 (c : Dev nD) (t : Fin cfg0.N) (d) : (attDat V c).before 4 t d = attBlk V c 4 t :=
  ((attDat V c).before_in_eq_fetched 4 rfl (fun _ => rfl) (fun _ _ _ => rfl)
    (fun t => by rw [attAfter4]; unfold Dat.blockOf attBlk; rw [attDat_A]; try rfl) t d).trans
    (by unfold Dat.fetched Dat.blockOf attBlk; rw [attDat_A]; try rfl)
theorem attBefore5 (c : Dev nD) (t : Fin cfg0.N) (d) : (attDat V c).before 5 t d = attBlk V c 5 t :=
  ((attDat V c).before_in_eq_fetched 5 rfl (fun _ => rfl) (fun _ _ _ => rfl)
    (fun t => by rw [attAfter5]; unfold Dat.blockOf attBlk; rw [attDat_A]; try rfl) t d).trans
    (by unfold Dat.fetched Dat.blockOf attBlk; rw [attDat_A]; try rfl)
theorem attBefore6 (c : Dev nD) (t : Fin cfg0.N) (d) : (attDat V c).before 6 t d = attBlk V c 6 t :=
  ((attDat V c).before_in_eq_fetched 6 rfl (fun _ => rfl) (fun _ _ _ => rfl)
    (fun t => by rw [attAfter6]; unfold Dat.blockOf attBlk; rw [attDat_A]; try rfl) t d).trans
    (by unfold Dat.fetched Dat.blockOf attBlk; rw [attDat_A]; try rfl)

/-- What the body is called with at point t, -/
def attPre (c : Dev nD) (t : Fin cfg0.N) : sProp 𝕄 :=
  iprop((attDat V c).Φ t.castSucc ∗ (attDat V c).owesAt () t.castSucc
    ∗ (∃ d, owns (c : Thread nD τ) (st0_0 t) fullShare ((attDat V c).before 0 t d))
    ∗ (∃ d, owns (c : Thread nD τ) (st0_1 t) fullShare ((attDat V c).before 1 t d))
    ∗ (∃ d, owns (c : Thread nD τ) (st0_2 t) fullShare ((attDat V c).before 2 t d))
    ∗ (∃ d, owns (c : Thread nD τ) (st0_3 t) fullShare ((attDat V c).before 3 t d))
    ∗ (∃ d, owns (c : Thread nD τ) (st0_4 t) fullShare ((attDat V c).before 4 t d))
    ∗ (∃ d, owns (c : Thread nD τ) (st0_5 t) fullShare ((attDat V c).before 5 t d))
    ∗ (∃ d, owns (c : Thread nD τ) (st0_6 t) fullShare ((attDat V c).before 6 t d))
    ∗ (∃ d, owns (c : Thread nD τ) (st0_7 t) fullShare ((attDat V c).before 7 t d)))

/-- and what it returns. -/
def attPost (c : Dev nD) (t : Fin cfg0.N) : sProp 𝕄 :=
  iprop((attDat V c).Φ t.succ ∗ (attDat V c).owesAt () t.succ
    ∗ owns (c : Thread nD τ) (st0_0 t) fullShare ((attDat V c).after 0 t)
    ∗ owns (c : Thread nD τ) (st0_1 t) fullShare ((attDat V c).after 1 t)
    ∗ owns (c : Thread nD τ) (st0_2 t) fullShare ((attDat V c).after 2 t)
    ∗ owns (c : Thread nD τ) (st0_3 t) fullShare ((attDat V c).after 3 t)
    ∗ owns (c : Thread nD τ) (st0_4 t) fullShare ((attDat V c).after 4 t)
    ∗ owns (c : Thread nD τ) (st0_5 t) fullShare ((attDat V c).after 5 t)
    ∗ owns (c : Thread nD τ) (st0_6 t) fullShare ((attDat V c).after 6 t)
    ∗ owns (c : Thread nD τ) (st0_7 t) fullShare ((attDat V c).after 7 t))

theorem attBody (c : Dev nD) (t : Fin cfg0.N) :
    attPre V c t ⊢ wp frame (wpE (defs₀ (F := F)) Variants.none c none) Set.univ (bodyAt0 t) (fun _ => attPost V c t) := by
  unfold attPre attPost bodyAt0
  simp only [attBefore0, attBefore1, attBefore2, attBefore3, attBefore4, attBefore5, attBefore6]
  rw [show (attDat V c).Φ t.succ = (attDat V c).Φ t.castSucc from rfl,
    show (attDat V c).owesAt () t.succ = (attDat V c).owesAt () t.castSucc from rfl,
    attAfter0, attAfter1, attAfter2, attAfter3, attAfter4, attAfter5, attAfter6, attAfter7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (attKernel c Set.univ (grid0.coords t) _ _ _ _ _ _ _ _ _ _ _ _ _ _ _ _ (attBlk V c 0 t) (attBlk V c 1 t) (attBlk V c 2 t) (attBlk V c 3 t) (attBlk V c 4 t) (attBlk V c 5 t) (attBlk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem attObligation (c : Dev nD) : BodyObligation (attDat (F := F) V c) (defs₀ (F := F)) Variants.none () Set.univ := fun t => by
  rw [bigSep_W0, bigSep_W0]
  exact attBody V c t

end Cert.KernelIdeal.Hand

end
-- ==== Proof.BodyAggregate.lean ====
/-
  The aggregation kernel's body, run once on whole staging buffers: from the block of adjacency rows and the whole
  support matrix it loads, it stores max (rows · support) 0 over all of its output block and touches nothing else. What
  the output buffer then holds is stated as the one store read back over the loaded values.
-/
import proofs.«177283_g481036337857_cont_8to1_c_51_7_alg».proof.Proof.Gen.KernelIdeal.Launch
import proofs.«177283_g481036337857_cont_8to1_c_51_7_alg».proof.Proof.Gen.KernelIdeal.Skeleton
import proofs.«177283_g481036337857_cont_8to1_c_51_7_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles the body's whole-buffer accesses go through. -/
abbrev rAdjRows : Rect S256x4096 := Rect.unit (s := S256x4096) ![0, 0] S256x4096.size inb_S256x4096_S256x4096_0_0
abbrev rSupport : Rect S4096x32 := Rect.unit (s := S4096x32) ![0, 0] S4096x32.size inb_S4096x32_S4096x32_0_0
abbrev rAggRows : Rect S256x32 := Rect.unit (s := S256x32) ![0, 0] S256x32.size inb_S256x32_S256x32_0_0

/-- What the output block's buffer holds after the body: its one store, over the values the body loaded. -/
def aggOut (x0 : Vec F S256x4096 .f32) (x1 : Vec F S4096x32 .f32) : Vec F S256x32 .f32 :=
  View.canon [⟨rAggRows, k1_pay1 (View.ld x0 rAdjRows) (View.ld x1 rSupport)⟩]

/-- The one store covers the block. -/
theorem aggCover (p0 : Vec F S256x32 .f32) (y : S256x32.Idx) :
    ∃ pc ∈ ([⟨rAggRows, p0⟩] : List (View.Piece (Elt F) S256x32 .f32)), y ∈ pc.1.set :=
  View.cover_of_tiled [⟨rAggRows, p0⟩] S256x32.size (by rfl) y

set_option maxHeartbeats 1000000 in
/-- The body on whole staging buffers, the inputs' at contents x0, x1 and the output's at anything, reaches its
    continuation holding the inputs' as they were and the output's at `aggOut x0 x1`. -/
theorem aggKernel (c : Dev nD) (E : Set ℕ) (i : grid1.Coords) (arg1 : Memref sig .tc .vmem S256x4096 .f32) (harg1 : arg1.IsWhole)
    (arg2 : Memref sig .tc .vmem S4096x32 .f32) (harg2 : arg2.IsWhole) (arg3 : Memref sig .tc .vmem S256x32 .f32) (harg3 : arg3.IsWhole)
    (x0 : Vec F S256x4096 .f32) (x1 : Vec F S4096x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (aggOut x0 x1)) -∗ K ⟨⟩))
      ⊢ wp frame (wpE (defs₀ (F := F)) Variants.none c none) E (cc1__aggregate_kernel i arg1 harg1 arg2 harg2 arg3 harg3) K := by
  simp only [cc1__aggregate_kernel_eq_skeleton]; unfold cc1__aggregate_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (aggCover _)

end Cert.KernelIdeal.Hand

end
-- ==== Proof.RegionAggregateData.lean ====
/-
  The aggregation region's proof data and body obligation, for any contents V of the core's unscoped buffers at the
  region's entry. Window 0 is the point's block of 256 adjacency rows, window 1 the whole support matrix, window 2 the
  point's block of 256 output rows. At every point each input buffer holds its block of the array as the region found
  it, fetched there or not; the body leaves the inputs in place and the output at max (rows · support) 0.
-/
import proofs.«177283_g481036337857_cont_8to1_c_51_7_alg».proof.Proof.BodyAggregate
import Idealize.ShloMosaic.Lib.Pipeline.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def aggBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data on core c. -/
def aggDat (c : Dev nD) : Dat τ (Elt F) Unit ℕ (UR sig nD τ) ℕ cfg1 c where
  A w := V c (Pipeline.arrRef spec1 w)
  after w t := match w with
    | ⟨0, _⟩ => aggBlk V c 0 t
    | ⟨1, _⟩ => aggBlk V c 1 t
    | ⟨2, _⟩ => aggOut (aggBlk V c 0 t) (aggBlk V c 1 t)
  Φ _ := Pipeline.ΦA spec1 c
  q _ := fullShare
  owed _ := 0

theorem aggDat_A (c : Dev nD) (w : Fin cfg1.W) : (aggDat V c).A w = V c (Pipeline.arrRef spec1 w) := by
  dsimp only [aggDat]

theorem aggAfter0 (c : Dev nD) (t : Fin cfg1.N) : (aggDat V c).after 0 t = aggBlk V c 0 t := by dsimp only [aggDat]
theorem aggAfter1 (c : Dev nD) (t : Fin cfg1.N) : (aggDat V c).after 1 t = aggBlk V c 1 t := by dsimp only [aggDat]
theorem aggAfter2 (c : Dev nD) (t : Fin cfg1.N) : (aggDat V c).after 2 t = aggOut (aggBlk V c 0 t) (aggBlk V c 1 t) := by dsimp only [aggDat]

/-- Each input's current staging buffer holds its block at every point, fetched there or not. -/
theorem aggBefore0 (c : Dev nD) (t : Fin cfg1.N) (d) : (aggDat V c).before 0 t d = aggBlk V c 0 t :=
  ((aggDat V c).before_in_eq_fetched 0 rfl (fun _ => rfl) (fun _ _ _ => rfl)
    (fun t => by rw [aggAfter0]; unfold Dat.blockOf aggBlk; rw [aggDat_A]; try rfl) t d).trans
    (by unfold Dat.fetched Dat.blockOf aggBlk; rw [aggDat_A]; try rfl)
theorem aggBefore1 (c : Dev nD) (t : Fin cfg1.N) (d) : (aggDat V c).before 1 t d = aggBlk V c 1 t :=
  ((aggDat V c).before_in_eq_fetched 1 rfl (fun _ => rfl) (fun _ _ _ => rfl)
    (fun t => by rw [aggAfter1]; unfold Dat.blockOf aggBlk; rw [aggDat_A]; try rfl) t d).trans
    (by unfold Dat.fetched Dat.blockOf aggBlk; rw [aggDat_A]; try rfl)

/-- What the body is called with at point t, -/
def aggPre (c : Dev nD) (t : Fin cfg1.N) : sProp 𝕄 :=
  iprop((aggDat V c).Φ t.castSucc ∗ (aggDat V c).owesAt () t.castSucc
    ∗ (∃ d, owns (c : Thread nD τ) (st1_0 t) fullShare ((aggDat V c).before 0 t d))
    ∗ (∃ d, owns (c : Thread nD τ) (st1_1 t) fullShare ((aggDat V c).before 1 t d))
    ∗ (∃ d, owns (c : Thread nD τ) (st1_2 t) fullShare ((aggDat V c).before 2 t d)))

/-- and what it returns. -/
def aggPost (c : Dev nD) (t : Fin cfg1.N) : sProp 𝕄 :=
  iprop((aggDat V c).Φ t.succ ∗ (aggDat V c).owesAt () t.succ
    ∗ owns (c : Thread nD τ) (st1_0 t) fullShare ((aggDat V c).after 0 t)
    ∗ owns (c : Thread nD τ) (st1_1 t) fullShare ((aggDat V c).after 1 t)
    ∗ owns (c : Thread nD τ) (st1_2 t) fullShare ((aggDat V c).after 2 t))

theorem aggBody (c : Dev nD) (t : Fin cfg1.N) :
    aggPre V c t ⊢ wp frame (wpE (defs₀ (F := F)) Variants.none c none) Set.univ (bodyAt1 t) (fun _ => aggPost V c t) := by
  unfold aggPre aggPost bodyAt1
  simp only [aggBefore0, aggBefore1]
  rw [show (aggDat V c).Φ t.succ = (aggDat V c).Φ t.castSucc from rfl,
    show (aggDat V c).owesAt () t.succ = (aggDat V c).owesAt () t.castSucc from rfl,
    aggAfter0, aggAfter1, aggAfter2]
  iintro ⟨HΦ, Ho, ⟨%d0, H0⟩, ⟨%d1, H1⟩, ⟨%d2, H2⟩⟩
  iapply (aggKernel c Set.univ (grid1.coords t) _ _ _ _ _ _ (aggBlk V c 0 t) (aggBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem aggObligation (c : Dev nD) : BodyObligation (aggDat (F := F) V c) (defs₀ (F := F)) Variants.none () Set.univ := fun t => by
  rw [bigSep_W1, bigSep_W1]
  exact aggBody V c t

end Cert.KernelIdeal.Hand

end
-- ==== Proof.BodyNormRec.lean ====
/-
  The normalisation-and-reconstruction kernel's body, run once on whole staging buffers: it loads the whole aggregated
  matrix, the point's block of its rows, and the scale and shift rows, and stores the block's rows of the inner-product
  reconstruction over all of its output block. What the output buffer then holds is stated as that one store read back
  over the loaded values.
-/
import proofs.«177283_g481036337857_cont_8to1_c_51_7_alg».proof.Proof.Gen.KernelIdeal.Launch
import proofs.«177283_g481036337857_cont_8to1_c_51_7_alg».proof.Proof.Gen.KernelIdeal.Skeleton
import proofs.«177283_g481036337857_cont_8to1_c_51_7_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles the body's whole-buffer accesses go through. -/
abbrev rAgg : Rect S4096x32 := Rect.unit (s := S4096x32) ![0, 0] S4096x32.size inb_S4096x32_S4096x32_0_0
abbrev rAggBlk : Rect S256x32 := Rect.unit (s := S256x32) ![0, 0] S256x32.size inb_S256x32_S256x32_0_0
abbrev rRow32 : Rect S1x32 := Rect.unit (s := S1x32) ![0, 0] S1x32.size inb_S1x32_S1x32_0_0
abbrev rRecRows : Rect S256x4096 := Rect.unit (s := S256x4096) ![0, 0] S256x4096.size inb_S256x4096_S256x4096_0_0

/-- What the output block's buffer holds after the body: its one store, over the values the body loaded. -/
def recOut (x0 : Vec F S4096x32 .f32) (x1 : Vec F S256x32 .f32) (x2 x3 : Vec F S1x32 .f32) : Vec F S256x4096 .f32 :=
  View.canon [⟨rRecRows, k2_pay1 (View.ld x0 rAgg) (View.ld x2 rRow32) (View.ld x3 rRow32) (View.ld x1 rAggBlk)⟩]

/-- The one store covers the block. -/
theorem recCover (p0 : Vec F S256x4096 .f32) (y : S256x4096.Idx) :
    ∃ pc ∈ ([⟨rRecRows, p0⟩] : List (View.Piece (Elt F) S256x4096 .f32)), y ∈ pc.1.set :=
  View.cover_of_tiled [⟨rRecRows, p0⟩] S256x4096.size (by rfl) y

set_option maxHeartbeats 2000000 in
/-- The body on whole staging buffers, the inputs' at contents x0 … x3 and the output's at anything, reaches its
    continuation holding the inputs' as they were and the output's at `recOut x0 x1 x2 x3`. -/
theorem recKernel (c : Dev nD) (E : Set ℕ) (i : grid2.Coords)
    (arg1 : Memref sig .tc .vmem S4096x32 .f32) (harg1 : arg1.IsWhole) (arg2 : Memref sig .tc .vmem S256x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S256x4096 .f32) (harg5 : arg5.IsWhole)
    (x0 : Vec F S4096x32 .f32) (x1 : Vec F S256x32 .f32) (x2 x3 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (recOut x0 x1 x2 x3)) -∗ K ⟨⟩))
      ⊢ wp frame (wpE (defs₀ (F := F)) Variants.none c none) E (cc2__bn_rec_kernel i arg1 harg1 arg2 harg2 arg3 harg3 arg4 harg4 arg5 harg5) K := by
  simp only [cc2__bn_rec_kernel_eq_skeleton]; unfold cc2__bn_rec_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (recCover _)

end Cert.KernelIdeal.Hand

end
-- ==== Proof.RegionNormRecData.lean ====
/-
  The normalisation-and-reconstruction region's proof data and body obligation, for any contents V of the core's
  unscoped buffers at the region's entry. Windows 0 and 1 both read the aggregated array (whole, and the point's block of
  256 rows), so each holds one half of that array's share; windows 2 and 3 are the scale and shift rows; window 4 is
  the point's block of 256 rows of the reconstruction. At every point each input buffer holds its block of the array as
  the region found it; the body leaves the inputs in place and the output at the block's rows of the reconstruction.
-/
import proofs.«177283_g481036337857_cont_8to1_c_51_7_alg».proof.Proof.BodyNormRec
import Idealize.ShloMosaic.Lib.Pipeline.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def recBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data on core c. -/
def recDat (c : Dev nD) : Dat τ (Elt F) Unit ℕ (UR sig nD τ) ℕ cfg2 c where
  A w := V c (Pipeline.arrRef spec2 w)
  after w t := match w with
    | ⟨0, _⟩ => recBlk V c 0 t
    | ⟨1, _⟩ => recBlk V c 1 t
    | ⟨2, _⟩ => recBlk V c 2 t
    | ⟨3, _⟩ => recBlk V c 3 t
    | ⟨4, _⟩ => recOut (recBlk V c 0 t) (recBlk V c 1 t) (recBlk V c 2 t) (recBlk V c 3 t)
  Φ _ := Pipeline.ΦA spec2 c
  q w := match w with | ⟨0, _⟩ => fullShare.left | ⟨1, _⟩ => fullShare.right | _ => fullShare
  owed _ := 0

theorem recDat_A (c : Dev nD) (w : Fin cfg2.W) : (recDat V c).A w = V c (Pipeline.arrRef spec2 w) := by
  dsimp only [recDat]

theorem recAfter0 (c : Dev nD) (t : Fin cfg2.N) : (recDat V c).after 0 t = recBlk V c 0 t := by dsimp only [recDat]
theorem recAfter1 (c : Dev nD) (t : Fin cfg2.N) : (recDat V c).after 1 t = recBlk V c 1 t := by dsimp only [recDat]
theorem recAfter2 (c : Dev nD) (t : Fin cfg2.N) : (recDat V c).after 2 t = recBlk V c 2 t := by dsimp only [recDat]
theorem recAfter3 (c : Dev nD) (t : Fin cfg2.N) : (recDat V c).after 3 t = recBlk V c 3 t := by dsimp only [recDat]
theorem recAfter4 (c : Dev nD) (t : Fin cfg2.N) : (recDat V c).after 4 t = recOut (recBlk V c 0 t) (recBlk V c 1 t) (recBlk V c 2 t) (recBlk V c 3 t) := by dsimp only [recDat]

/-- Each input's current staging buffer holds its block at every point, fetched there or not. -/
theorem recBefore0 (c : Dev nD) (t : Fin cfg2.N) (d) : (recDat V c).before 0 t d = recBlk V c 0 t :=
  ((recDat V c).before_in_eq_fetched 0 rfl (fun _ => rfl) (fun _ _ _ => rfl)
    (fun t => by rw [recAfter0]; unfold Dat.blockOf recBlk; rw [recDat_A]; try rfl) t d).trans
    (by unfold Dat.fetched Dat.blockOf recBlk; rw [recDat_A]; try rfl)
theorem recBefore1 (c : Dev nD) (t : Fin cfg2.N) (d) : (recDat V c).before 1 t d = recBlk V c 1 t :=
  ((recDat V c).before_in_eq_fetched 1 rfl (fun _ => rfl) (fun _ _ _ => rfl)
    (fun t => by rw [recAfter1]; unfold Dat.blockOf recBlk; rw [recDat_A]; try rfl) t d).trans
    (by unfold Dat.fetched Dat.blockOf recBlk; rw [recDat_A]; try rfl)
theorem recBefore2 (c : Dev nD) (t : Fin cfg2.N) (d) : (recDat V c).before 2 t d = recBlk V c 2 t :=
  ((recDat V c).before_in_eq_fetched 2 rfl (fun _ => rfl) (fun _ _ _ => rfl)
    (fun t => by rw [recAfter2]; unfold Dat.blockOf recBlk; rw [recDat_A]; try rfl) t d).trans
    (by unfold Dat.fetched Dat.blockOf recBlk; rw [recDat_A]; try rfl)
theorem recBefore3 (c : Dev nD) (t : Fin cfg2.N) (d) : (recDat V c).before 3 t d = recBlk V c 3 t :=
  ((recDat V c).before_in_eq_fetched 3 rfl (fun _ => rfl) (fun _ _ _ => rfl)
    (fun t => by rw [recAfter3]; unfold Dat.blockOf recBlk; rw [recDat_A]; try rfl) t d).trans
    (by unfold Dat.fetched Dat.blockOf recBlk; rw [recDat_A]; try rfl)

/-- What the body is called with at point t, -/
def recPre (c : Dev nD) (t : Fin cfg2.N) : sProp 𝕄 :=
  iprop((recDat V c).Φ t.castSucc ∗ (recDat V c).owesAt () t.castSucc
    ∗ (∃ d, owns (c : Thread nD τ) (st2_0 t) fullShare ((recDat V c).before 0 t d))
    ∗ (∃ d, owns (c : Thread nD τ) (st2_1 t) fullShare ((recDat V c).before 1 t d))
    ∗ (∃ d, owns (c : Thread nD τ) (st2_2 t) fullShare ((recDat V c).before 2 t d))
    ∗ (∃ d, owns (c : Thread nD τ) (st2_3 t) fullShare ((recDat V c).before 3 t d))
    ∗ (∃ d, owns (c : Thread nD τ) (st2_4 t) fullShare ((recDat V c).before 4 t d)))

/-- and what it returns. -/
def recPost (c : Dev nD) (t : Fin cfg2.N) : sProp 𝕄 :=
  iprop((recDat V c).Φ t.succ ∗ (recDat V c).owesAt () t.succ
    ∗ owns (c : Thread nD τ) (st2_0 t) fullShare ((recDat V c).after 0 t)
    ∗ owns (c : Thread nD τ) (st2_1 t) fullShare ((recDat V c).after 1 t)
    ∗ owns (c : Thread nD τ) (st2_2 t) fullShare ((recDat V c).after 2 t)
    ∗ owns (c : Thread nD τ) (st2_3 t) fullShare ((recDat V c).after 3 t)
    ∗ owns (c : Thread nD τ) (st2_4 t) fullShare ((recDat V c).after 4 t))

theorem recBody (c : Dev nD) (t : Fin cfg2.N) :
    recPre V c t ⊢ wp frame (wpE (defs₀ (F := F)) Variants.none c none) Set.univ (bodyAt2 t) (fun _ => recPost V c t) := by
  unfold recPre recPost bodyAt2
  simp only [recBefore0, recBefore1, recBefore2, recBefore3]
  rw [show (recDat V c).Φ t.succ = (recDat V c).Φ t.castSucc from rfl,
    show (recDat V c).owesAt () t.succ = (recDat V c).owesAt () t.castSucc from rfl,
    recAfter0, recAfter1, recAfter2, recAfter3, recAfter4]
  iintro ⟨HΦ, Ho, ⟨%d0, H0⟩, ⟨%d1, H1⟩, ⟨%d2, H2⟩, ⟨%d3, H3⟩, ⟨%d4, H4⟩⟩
  iapply (recKernel c Set.univ (grid2.coords t) _ _ _ _ _ _ _ _ _ _ (recBlk V c 0 t) (recBlk V c 1 t) (recBlk V c 2 t) (recBlk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem recObligation (c : Dev nD) : BodyObligation (recDat (F := F) V c) (defs₀ (F := F)) Variants.none () Set.univ := fun t => by
  rw [bigSep_W2, bigSep_W2]
  exact recBody V c t

end Cert.KernelIdeal.Hand

end
-- ==== Proof.Records.lean ====
/-
  Between the items of the program the core's unscoped buffers hold: at launch the memory; after the host stretch the
  reshaped halves of the attention vector and the reshaped scale and shift; after the attention region also the support
  matrix the region wrote back; after the aggregation region also the aggregated matrix; after the last region also
  the reconstruction. Each region's proof data is stated at the contents its entry finds, and each region is recorded
  as a segment of the program entered from those contents and left at the next.
-/
import proofs.«177283_g481036337857_cont_8to1_c_51_7_alg».proof.Proof.RegionAttentionData
import proofs.«177283_g481036337857_cont_8to1_c_51_7_alg».proof.Proof.RegionAggregateData
import proofs.«177283_g481036337857_cont_8to1_c_51_7_alg».proof.Proof.RegionNormRecData
import proofs.«177283_g481036337857_cont_8to1_c_51_7_alg».proof.Proof.Gen.KernelIdeal.Regions
import Idealize.ShloMosaic.Lib.Pipeline.RegionsLoop

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents between the items -/

/-- A valuation read at the TensorCore's references. -/
abbrev atRefs (W : (c : Dev nD) → Valuation τ sig (Elt F)) (c : Dev nD) (b : Ref sig .tc) : Buf (Elt F) ((c : Thread nD τ).loc b) := W c b

/-- After the host stretch. -/
abbrev W1 (c : Dev nD) : Valuation τ sig (Elt F) := V1 m c
/-- What the attention region leaves in the support matrix's buffer: its sixteen blocks written back. -/
def supBuf (c : Dev nD) : Buf (Elt F) ((c : Thread nD τ).loc main_v6) := (attDat (atRefs (W1 m)) c).arrAt 7 cfg0.N
/-- After the attention region. -/
abbrev W2 (c : Dev nD) : Valuation τ sig (Elt F) := Function.update (W1 m c) main_v6 (supBuf m c)
/-- What the aggregation region leaves in the aggregated matrix's buffer. -/
def aggBuf (c : Dev nD) : Buf (Elt F) ((c : Thread nD τ).loc main_v7) := (aggDat (atRefs (W2 m)) c).arrAt 2 cfg1.N
/-- After the aggregation region. -/
abbrev W3 (c : Dev nD) : Valuation τ sig (Elt F) := Function.update (W2 m c) main_v7 (aggBuf m c)
/-- What the last region leaves in the reconstruction's buffer. -/
def recBuf (c : Dev nD) : Buf (Elt F) ((c : Thread nD τ).loc main_v8) := (recDat (atRefs (W3 m)) c).arrAt 4 cfg2.N
/-- After the last region. -/
abbrev W4 (c : Dev nD) : Valuation τ sig (Elt F) := Function.update (W3 m c) main_v8 (recBuf m c)

/-- The three regions' proof data, each at its entry contents. -/
def pdats : (p : Fin 3) → (c : Dev nD) → Dat τ (Elt F) Unit ℕ (UR sig nD τ) ℕ (cfgs p) c
  | ⟨0, _⟩ => fun c => attDat (atRefs (W1 m)) c
  | ⟨1, _⟩ => fun c => aggDat (atRefs (W2 m)) c
  | ⟨2, _⟩ => fun c => recDat (atRefs (W3 m)) c

/-- No core owes another anything: no level is assigned. -/
abbrev L : GSem nD τ sig → Finset Unit := fun _ => ∅
abbrev lv : GSem nD τ sig → Unit → ℕ := fun _ _ => 0

/-- What rides beside the buffers from item to item: the core owing nothing, and its generator register. -/
abbrev Rest (c : Dev nD) : sProp 𝕄 :=
  iprop((∃ W, owes (c : Thread nD τ) (0 : CellTallies nD τ sig Unit) W) ∗ ∃ r, prngReg c r)

/-- The thread state between two items: the unscoped buffers held at a valuation, and the rest. -/
abbrev Between (W : (c : Dev nD) → Valuation τ sig (Elt F)) (c : Dev nD) : sProp 𝕄 :=
  iprop(StableHlo.held (c : Thread nD τ) (Pipeline.ucRefs τ sig) (W c) ∗ Rest c)

/-! ## The aggregation region -/

theorem W3_of_ne (c : Dev nD) (b : Ref sig .tc) (h : b ≠ main_v7) : W3 m c b = W2 m c b := by
  simp only [W3, Function.update_of_ne (StableHlo.devRef_ne_of_ne h : (Proc.devRef .tc b : DevRef τ sig) ≠ Proc.devRef .tc main_v7)]

theorem W3_self (c : Dev nD) : W3 m c main_v7 = aggBuf m c := by
  simp only [W3, Function.update_self]

set_option maxHeartbeats 4000000 in
set_option backward.isDefEq.respectTransparency.types false in
/-- The aggregation region as a segment: entered from the contents the attention region left, left with the
    aggregated matrix written back. Its three windows' arrays are distinct buffers. -/
def aggRegion : RegionSeg (pcfgs (F := F)) adm (pdats m) () defs₀ Variants.none L lv 1 where
  win := launch1.win.to₀
  block_pos := launch1.block_pos
  stage_whole := launch1.stage_whole
  K := Fin 0
  osem := fun k => k.elim0
  ho := ⟨fun k => k.elim0, fun k => k.elim0, fun k => k.elim0⟩
  hbody c := (aggObligation (atRefs (W2 m)) c).loose
  hwaits := Pipeline.hwaits_of_owed_zero _ _ _ _ L lv 1 fun _ _ => rfl
  pre c := iprop(StableHlo.held (c : Thread nD τ) (Pipeline.ucRefs τ sig) (W2 m c) ∗ Rest c)
  post c := iprop(StableHlo.held (c : Thread nD τ) (Pipeline.ucRefs τ sig) (W3 m c) ∗ Rest c)
  X c := iprop(∃ r, prngReg c r)
  Y c := iprop(∃ r, prngReg c r)
  Z c := Pipeline.unscopedRest spec1 c (atRefs (W2 m) c)
  hentry c := by
    rw [show StableHlo.held (c : Thread nD τ) (Pipeline.ucRefs τ sig) (W2 m c) = unscopedBufs c (atRefs (W2 m) c) from
      (Pipeline.unscopedBufs_held (Ix := Unit) (Name := ℕ) (U := UR sig nD τ) (Lvl := ℕ) c (W2 m c)).symm]
    have hsplit := Pipeline.arrays_of_unscopedBufs (pcfgs (F := F)) adm (pdats m) (p := 1) launch1.win launch1.arr_whole c
      ((pdats m 1 c).share_full fun _ => rfl) (atRefs (W2 m) c) fun _ => rfl
    iintro ⟨⟨Hub, HO, Hp⟩, Hos, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [show (pdats m 1 c).Φ _ = Pipeline.ΦA spec1 c from rfl]; unfold Pipeline.ΦA Pipeline.ownSems0
    rw [show (Finset.univ : Finset (Fin 0)) = ∅ from rfl, BI.bigSep_empty]
    iintro ⟨Hr, Hp⟩
    isplitl [Hp]; · iexact Hp
    isplitr; · iempintro
    iexact Hr
  hexit c := by
    have hjoin := Pipeline.unscopedBufs_of_arrays (pcs := pcfgs (F := F)) (a := adm) (p := 1) launch1.win launch1.arr_whole c (pdats m)
      ((pdats m 1 c).share_full fun _ => rfl) (atRefs (W2 m) c) (atRefs (W3 m) c) (fun w => (pdats m 1 c).arrAt w cfg1.N)
      (fun w => by
        match w with
        | ⟨0, _⟩ => exact ((pdats m 1 c).arrAt_in 0 rfl _).trans (W3_of_ne m c main_arg1 (by decide)).symm
        | ⟨1, _⟩ => exact ((pdats m 1 c).arrAt_in 1 rfl _).trans (W3_of_ne m c main_v6 (by decide)).symm
        | ⟨2, _⟩ => exact (W3_self m c).symm)
      (fun b hb => W3_of_ne m c b fun e => hb (e ▸ Finset.mem_image.mpr ⟨2, Finset.mem_univ _, rfl⟩))
    iintro ⟨Ha, HO, HY, HZ⟩
    imodintro
    isplitl [Ha HZ]
    · rw [show StableHlo.held (c : Thread nD τ) (Pipeline.ucRefs τ sig) (W3 m c) = unscopedBufs c (atRefs (W3 m) c) from
        (Pipeline.unscopedBufs_held (Ix := Unit) (Name := ℕ) (U := UR sig nD τ) (Lvl := ℕ) c (W3 m c)).symm]
      iapply hjoin
      isplitl [Ha]; · iexact Ha
      iexact HZ
    · isplitl [HO]
      · unfold Pipeline.Dat.owesAt Pipeline.owesWithin
        icases HO with ⟨%W, -, HO⟩; iexists W; iexact HO
      iexact HY

end Cert.KernelIdeal.Hand

end
-- ==== Proof.RecordAttention.lean ====
/-
  The attention region as a segment of the program: entered from the contents the host stretch left, left with the
  support matrix written back. Its first two windows read ONE array, the features — whole, and the point's block of
  rows —, so the array's full share is dealt between them at the entry, half to each, and put together again at the
  exit; every other window's array is a buffer of its own at the full share.
-/
import proofs.«177283_g481036337857_cont_8to1_c_51_7_alg».proof.Proof.Records

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## One array behind two windows: its share dealt at the entry and put back at the exit -/

section Shares

variable (V : (c : Dev nD) → (b : Ref sig .tc) → Buf (Elt F) ((c : Thread nD τ).loc b))

/-- The distinct buffers behind the region's windows. -/
theorem attImage : (Finset.univ.image (Pipeline.arrRef spec0) : Finset (Ref sig .tc))
    = ([main_arg0, main_arg1, main_arg2, main_v1, main_v3, main_arg4, main_v6] : List (Ref sig .tc)).toFinset := by decide

/-- Those buffers, each held whole at the full share, one by one. -/
theorem attArrBufs_eq (c : Dev nD) (G : (b : Ref sig .tc) → Buf (Elt F) ((c : Thread nD τ).loc b)) :
    (Pipeline.arrBufs spec0 c G : sProp 𝕄)
      = iprop((((c : Thread nD τ).loc main_arg0) ↦{fullShare} G main_arg0)
        ∗ (((c : Thread nD τ).loc main_arg1) ↦{fullShare} G main_arg1)
        ∗ (((c : Thread nD τ).loc main_arg2) ↦{fullShare} G main_arg2)
        ∗ (((c : Thread nD τ).loc main_v1) ↦{fullShare} G main_v1)
        ∗ (((c : Thread nD τ).loc main_v3) ↦{fullShare} G main_v3)
        ∗ (((c : Thread nD τ).loc main_arg4) ↦{fullShare} G main_arg4)
        ∗ (((c : Thread nD τ).loc main_v6) ↦{fullShare} G main_v6)) :=
  bigSep_eq_bigSepL_of_eq [main_arg0, main_arg1, main_arg2, main_v1, main_v3, main_arg4, main_v6] attImage (by decide) _

/-- The windows' arrays, each a whole buffer, as plain points-to facts at each window's share. -/
theorem attArrays_eq (c : Dev nD) (G : (b : Ref sig .tc) → Buf (Elt F) ((c : Thread nD τ).loc b))
    (A : (w : Fin cfg0.W) → Buf (Elt F) ((cfg0.win w).arr.view.loc (c : Thread nD τ))) (hA : ∀ w, A w = G (Pipeline.arrRef spec0 w)) :
    ((attDat V c).arrays A : sProp 𝕄)
      = bigSep Finset.univ fun w : Fin cfg0.W => (((c : Thread nD τ).loc (Pipeline.arrRef spec0 w)) ↦{(attDat V c).share w} G (Pipeline.arrRef spec0 w) : sProp 𝕄) := by
  unfold Dat.arrays
  exact bigSep_congr fun w _ => by rw [(arr_whole0 w).set_eq_univ, hA w]

/-- ENTRY: the buffers at the full share make the windows' arrays, the twice-read array's share split in two halves. -/
theorem attSplit (c : Dev nD) (G : (b : Ref sig .tc) → Buf (Elt F) ((c : Thread nD τ).loc b))
    (A : (w : Fin cfg0.W) → Buf (Elt F) ((cfg0.win w).arr.view.loc (c : Thread nD τ))) (hA : ∀ w, A w = G (Pipeline.arrRef spec0 w)) :
    (Pipeline.arrBufs spec0 c G : sProp 𝕄) ⊢ (attDat V c).arrays A := by
  rw [attArrays_eq V c G A hA, bigSep_W0, attArrBufs_eq]
  iintro ⟨H0, H1, H2, H3, H4, H5, H6⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  isplitl [H4]; · iexact H4
  isplitl [H5]; · iexact H5
  iexact H6

/-- EXIT: the windows' arrays make the buffers at the full share again, the two halves joined. -/
theorem attJoin (c : Dev nD) (G : (b : Ref sig .tc) → Buf (Elt F) ((c : Thread nD τ).loc b))
    (A : (w : Fin cfg0.W) → Buf (Elt F) ((cfg0.win w).arr.view.loc (c : Thread nD τ))) (hA : ∀ w, A w = G (Pipeline.arrRef spec0 w)) :
    ((attDat V c).arrays A : sProp 𝕄) ⊢ Pipeline.arrBufs spec0 c G := by
  rw [attArrays_eq V c G A hA, bigSep_W0, attArrBufs_eq]
  iintro ⟨H0l, H0r, H1, H2, H3, H4, H5, H6⟩
  ihave H0 := (pointsTo_share (PosShare.mem_left_op_right fullShare)).2 $$ [H0l H0r]
  · isplitl [H0l]; · iexact H0l
    iexact H0r
  isplitl [H0]; · iexact H0
  isplitl [H1]; · iexact H1
  isplitl [H2]; · iexact H2
  isplitl [H3]; · iexact H3
  isplitl [H4]; · iexact H4
  isplitl [H5]; · iexact H5
  iexact H6

end Shares

/-! ## The region as a segment -/

variable (m : (ℓ : Loc nD τ sig) → Buf (Elt F) ℓ)

theorem W2_of_ne (c : Dev nD) (b : Ref sig .tc) (h : b ≠ main_v6) : W2 m c b = W1 m c b := by
  simp only [W2, Function.update_of_ne (StableHlo.devRef_ne_of_ne h : (Proc.devRef .tc b : DevRef τ sig) ≠ Proc.devRef .tc main_v6)]

theorem W2_self (c : Dev nD) : W2 m c main_v6 = supBuf m c := by
  simp only [W2, Function.update_self]

/-- The buffers no window of the region stages are the same before and after it. -/
theorem attRest_eq (c : Dev nD) :
    (Pipeline.unscopedRest spec0 c (atRefs (W1 m) c) : sProp 𝕄) = Pipeline.unscopedRest spec0 c (atRefs (W2 m) c) := by
  unfold Pipeline.unscopedRest
  exact bigSep_congr fun b hb => by
    rw [show atRefs (W2 m) c b = atRefs (W1 m) c b from
      W2_of_ne m c b fun e => (Finset.mem_sdiff.mp hb).2 (e ▸ Finset.mem_image.mpr ⟨7, Finset.mem_univ _, rfl⟩)]

/-- After the region every window's array holds what the next item's entry contents say. -/
theorem attFinal (c : Dev nD) (w : Fin cfg0.W) : (pdats m 0 c).arrAt w cfg0.N = atRefs (W2 m) c (Pipeline.arrRef spec0 w) := by
  match w with
  | ⟨0, _⟩ => exact ((pdats m 0 c).arrAt_in 0 rfl _).trans (W2_of_ne m c main_arg0 (by decide)).symm
  | ⟨1, _⟩ => exact ((pdats m 0 c).arrAt_in 1 rfl _).trans (W2_of_ne m c main_arg0 (by decide)).symm
  | ⟨2, _⟩ => exact ((pdats m 0 c).arrAt_in 2 rfl _).trans (W2_of_ne m c main_arg1 (by decide)).symm
  | ⟨3, _⟩ => exact ((pdats m 0 c).arrAt_in 3 rfl _).trans (W2_of_ne m c main_arg2 (by decide)).symm
  | ⟨4, _⟩ => exact ((pdats m 0 c).arrAt_in 4 rfl _).trans (W2_of_ne m c main_v1 (by decide)).symm
  | ⟨5, _⟩ => exact ((pdats m 0 c).arrAt_in 5 rfl _).trans (W2_of_ne m c main_v3 (by decide)).symm
  | ⟨6, _⟩ => exact ((pdats m 0 c).arrAt_in 6 rfl _).trans (W2_of_ne m c main_arg4 (by decide)).symm
  | ⟨7, _⟩ => exact (W2_self m c).symm

set_option maxHeartbeats 4000000 in
set_option backward.isDefEq.respectTransparency.types false in
def attRegion : RegionSeg (pcfgs (F := F)) adm (pdats m) () defs₀ Variants.none L lv 0 where
  win := winFacts₀0
  block_pos := block_pos0
  stage_whole := stage_whole0
  K := Fin 0
  osem := fun k => k.elim0
  ho := ⟨fun k => k.elim0, fun k => k.elim0, fun k => k.elim0⟩
  hbody c := (attObligation (atRefs (W1 m)) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest spec0 c (atRefs (W1 m) c)
  hentry c := by
    rw [show StableHlo.held (c : Thread nD τ) (Pipeline.ucRefs τ sig) (W1 m c) = unscopedBufs c (atRefs (W1 m) c) from
      (Pipeline.unscopedBufs_held (Ix := Unit) (Name := ℕ) (U := UR sig nD τ) (Lvl := ℕ) c (W1 m c)).symm,
      Pipeline.unscopedBufs_split₀ cfgs 0 winFacts₀0.arr_unscoped c (atRefs (W1 m) c)]
    iintro ⟨⟨⟨Hab, Hrest⟩, HO, Hp⟩, Hos, -⟩
    ihave Ha := (attSplit (atRefs (W1 m)) c (atRefs (W1 m) c) (fun w => (pdats m 0 c).arrAt w 0) (fun _ => rfl)) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [show (pdats m 0 c).Φ _ = Pipeline.ΦA spec0 c from rfl]; unfold Pipeline.ΦA Pipeline.ownSems0
    rw [show (Finset.univ : Finset (Fin 0)) = ∅ from rfl, BI.bigSep_empty]
    iintro ⟨Hr, Hp⟩
    isplitl [Hp]; · iexact Hp
    isplitr; · iempintro
    iexact Hr
  hexit c := by
    iintro ⟨Ha, HO, HY, HZ⟩
    imodintro
    isplitl [Ha HZ]
    · rw [show StableHlo.held (c : Thread nD τ) (Pipeline.ucRefs τ sig) (W2 m c) = unscopedBufs c (atRefs (W2 m) c) from
        (Pipeline.unscopedBufs_held (Ix := Unit) (Name := ℕ) (U := UR sig nD τ) (Lvl := ℕ) c (W2 m c)).symm,
        Pipeline.unscopedBufs_split₀ cfgs 0 winFacts₀0.arr_unscoped c (atRefs (W2 m) c)]
      isplitl [Ha]
      · iapply (attJoin (atRefs (W1 m)) c (atRefs (W2 m) c) (fun w => (pdats m 0 c).arrAt w cfg0.N) (attFinal m c))
        iexact Ha
      · iapply (Entails.of_eq (attRest_eq m c)); iexact HZ
    · isplitl [HO]
      · unfold Pipeline.Dat.owesAt Pipeline.owesWithin
        icases HO with ⟨%W, -, HO⟩; iexists W; iexact HO
      iexact HY

end Cert.KernelIdeal.Hand

end
-- ==== Proof.RecordNormRec.lean ====
/-
  The normalisation-and-reconstruction region as a segment of the program: entered from the contents the aggregation
  region left, left with the reconstruction written back. Its first two windows read ONE array, the aggregated matrix —
  whole, and the point's block of rows —, so the array's full share is dealt between them at the entry, half to each,
  and put together again at the exit; every other window's array is a buffer of its own at the full share.
-/
import proofs.«177283_g481036337857_cont_8to1_c_51_7_alg».proof.Proof.Records

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## One array behind two windows: its share dealt at the entry and put back at the exit -/

section Shares

variable (V : (c : Dev nD) → (b : Ref sig .tc) → Buf (Elt F) ((c : Thread nD τ).loc b))

/-- The distinct buffers behind the region's windows. -/
theorem recImage : (Finset.univ.image (Pipeline.arrRef spec2) : Finset (Ref sig .tc))
    = ([main_v7, main_v4, main_v5, main_v8] : List (Ref sig .tc)).toFinset := by decide

/-- Those buffers, each held whole at the full share, one by one. -/
theorem recArrBufs_eq (c : Dev nD) (G : (b : Ref sig .tc) → Buf (Elt F) ((c : Thread nD τ).loc b)) :
    (Pipeline.arrBufs spec2 c G : sProp 𝕄)
      = iprop((((c : Thread nD τ).loc main_v7) ↦{fullShare} G main_v7)
        ∗ (((c : Thread nD τ).loc main_v4) ↦{fullShare} G main_v4)
        ∗ (((c : Thread nD τ).loc main_v5) ↦{fullShare} G main_v5)
        ∗ (((c : Thread nD τ).loc main_v8) ↦{fullShare} G main_v8)) :=
  bigSep_eq_bigSepL_of_eq [main_v7, main_v4, main_v5, main_v8] recImage (by decide) _

/-- The windows' arrays, each a whole buffer, as plain points-to facts at each window's share. -/
theorem recArrays_eq (c : Dev nD) (G : (b : Ref sig .tc) → Buf (Elt F) ((c : Thread nD τ).loc b))
    (A : (w : Fin cfg2.W) → Buf (Elt F) ((cfg2.win w).arr.view.loc (c : Thread nD τ))) (hA : ∀ w, A w = G (Pipeline.arrRef spec2 w)) :
    ((recDat V c).arrays A : sProp 𝕄)
      = bigSep Finset.univ fun w : Fin cfg2.W => (((c : Thread nD τ).loc (Pipeline.arrRef spec2 w)) ↦{(recDat V c).share w} G (Pipeline.arrRef spec2 w) : sProp 𝕄) := by
  unfold Dat.arrays
  exact bigSep_congr fun w _ => by rw [(arr_whole2 w).set_eq_univ, hA w]

/-- ENTRY: the buffers at the full share make the windows' arrays, the twice-read array's share split in two halves. -/
theorem recSplit (c : Dev nD) (G : (b : Ref sig .tc) → Buf (Elt F) ((c : Thread nD τ).loc b))
    (A : (w : Fin cfg2.W) → Buf (Elt F) ((cfg2.win w).arr.view.loc (c : Thread nD τ))) (hA : ∀ w, A w = G (Pipeline.arrRef spec2 w)) :
    (Pipeline.arrBufs spec2 c G : sProp 𝕄) ⊢ (recDat V c).arrays A := by
  rw [recArrays_eq V c G A hA, bigSep_W2, recArrBufs_eq]
  iintro ⟨H0, H1, H2, H3⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  iexact H3

/-- EXIT: the windows' arrays make the buffers at the full share again, the two halves joined. -/
theorem recJoin (c : Dev nD) (G : (b : Ref sig .tc) → Buf (Elt F) ((c : Thread nD τ).loc b))
    (A : (w : Fin cfg2.W) → Buf (Elt F) ((cfg2.win w).arr.view.loc (c : Thread nD τ))) (hA : ∀ w, A w = G (Pipeline.arrRef spec2 w)) :
    ((recDat V c).arrays A : sProp 𝕄) ⊢ Pipeline.arrBufs spec2 c G := by
  rw [recArrays_eq V c G A hA, bigSep_W2, recArrBufs_eq]
  iintro ⟨H0l, H0r, H1, H2, H3⟩
  ihave H0 := (pointsTo_share (PosShare.mem_left_op_right fullShare)).2 $$ [H0l H0r]
  · isplitl [H0l]; · iexact H0l
    iexact H0r
  isplitl [H0]; · iexact H0
  isplitl [H1]; · iexact H1
  isplitl [H2]; · iexact H2
  iexact H3

end Shares

/-! ## The region as a segment -/

variable (m : (ℓ : Loc nD τ sig) → Buf (Elt F) ℓ)

theorem W4_of_ne (c : Dev nD) (b : Ref sig .tc) (h : b ≠ main_v8) : W4 m c b = W3 m c b := by
  simp only [W4, Function.update_of_ne (StableHlo.devRef_ne_of_ne h : (Proc.devRef .tc b : DevRef τ sig) ≠ Proc.devRef .tc main_v8)]

theorem W4_self (c : Dev nD) : W4 m c main_v8 = recBuf m c := by
  simp only [W4, Function.update_self]

/-- The buffers no window of the region stages are the same before and after it. -/
theorem recRest_eq (c : Dev nD) :
    (Pipeline.unscopedRest spec2 c (atRefs (W3 m) c) : sProp 𝕄) = Pipeline.unscopedRest spec2 c (atRefs (W4 m) c) := by
  unfold Pipeline.unscopedRest
  exact bigSep_congr fun b hb => by
    rw [show atRefs (W4 m) c b = atRefs (W3 m) c b from
      W4_of_ne m c b fun e => (Finset.mem_sdiff.mp hb).2 (e ▸ Finset.mem_image.mpr ⟨4, Finset.mem_univ _, rfl⟩)]

/-- After the region every window's array holds what the next item's entry contents say. -/
theorem recFinal (c : Dev nD) (w : Fin cfg2.W) : (pdats m 2 c).arrAt w cfg2.N = atRefs (W4 m) c (Pipeline.arrRef spec2 w) := by
  match w with
  | ⟨0, _⟩ => exact ((pdats m 2 c).arrAt_in 0 rfl _).trans (W4_of_ne m c main_v7 (by decide)).symm
  | ⟨1, _⟩ => exact ((pdats m 2 c).arrAt_in 1 rfl _).trans (W4_of_ne m c main_v7 (by decide)).symm
  | ⟨2, _⟩ => exact ((pdats m 2 c).arrAt_in 2 rfl _).trans (W4_of_ne m c main_v4 (by decide)).symm
  | ⟨3, _⟩ => exact ((pdats m 2 c).arrAt_in 3 rfl _).trans (W4_of_ne m c main_v5 (by decide)).symm
  | ⟨4, _⟩ => exact (W4_self m c).symm

set_option maxHeartbeats 4000000 in
set_option backward.isDefEq.respectTransparency.types false in
def recRegion : RegionSeg (pcfgs (F := F)) adm (pdats m) () defs₀ Variants.none L lv 2 where
  win := winFacts₀2
  block_pos := block_pos2
  stage_whole := stage_whole2
  K := Fin 0
  osem := fun k => k.elim0
  ho := ⟨fun k => k.elim0, fun k => k.elim0, fun k => k.elim0⟩
  hbody c := (recObligation (atRefs (W3 m)) c).loose
  hwaits := Pipeline.hwaits_of_owed_zero _ _ _ _ L lv 2 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest spec2 c (atRefs (W3 m) c)
  hentry c := by
    rw [show StableHlo.held (c : Thread nD τ) (Pipeline.ucRefs τ sig) (W3 m c) = unscopedBufs c (atRefs (W3 m) c) from
      (Pipeline.unscopedBufs_held (Ix := Unit) (Name := ℕ) (U := UR sig nD τ) (Lvl := ℕ) c (W3 m c)).symm,
      Pipeline.unscopedBufs_split₀ cfgs 2 winFacts₀2.arr_unscoped c (atRefs (W3 m) c)]
    iintro ⟨⟨⟨Hab, Hrest⟩, HO, Hp⟩, Hos, -⟩
    ihave Ha := (recSplit (atRefs (W3 m)) c (atRefs (W3 m) c) (fun w => (pdats m 2 c).arrAt w 0) (fun _ => rfl)) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [show (pdats m 2 c).Φ _ = Pipeline.ΦA spec2 c from rfl]; unfold Pipeline.ΦA Pipeline.ownSems0
    rw [show (Finset.univ : Finset (Fin 0)) = ∅ from rfl, BI.bigSep_empty]
    iintro ⟨Hr, Hp⟩
    isplitl [Hp]; · iexact Hp
    isplitr; · iempintro
    iexact Hr
  hexit c := by
    iintro ⟨Ha, HO, HY, HZ⟩
    imodintro
    isplitl [Ha HZ]
    · rw [show StableHlo.held (c : Thread nD τ) (Pipeline.ucRefs τ sig) (W4 m c) = unscopedBufs c (atRefs (W4 m) c) from
        (Pipeline.unscopedBufs_held (Ix := Unit) (Name := ℕ) (U := UR sig nD τ) (Lvl := ℕ) c (W4 m c)).symm,
        Pipeline.unscopedBufs_split₀ cfgs 2 winFacts₀2.arr_unscoped c (atRefs (W4 m) c)]
      isplitl [Ha]
      · iapply (recJoin (atRefs (W3 m)) c (atRefs (W4 m) c) (fun w => (pdats m 2 c).arrAt w cfg2.N) (recFinal m c))
        iexact Ha
      · iapply (Entails.of_eq (recRest_eq m c)); iexact HZ
    · isplitl [HO]
      · unfold Pipeline.Dat.owesAt Pipeline.owesWithin
        icases HO with ⟨%W, -, HO⟩; iexists W; iexact HO
      iexact HY

end Cert.KernelIdeal.Hand

end
-- ==== Proof.KernelRun.lean ====
/-
  The kernel program's run. The program is a host stretch (two slices of the attention vector and four reshapes) and
  then three kernel regions, each a grid of sixteen points. From any memory with zero semaphore counters every weakly
  fair execution terminates without a fault; the seven argument arrays end as they were, and the result array ends
  holding what the last region's sixteen write-backs leave in it — which, through the three regions' proof data, is a
  function of the argument arrays alone.
-/
import proofs.«177283_g481036337857_cont_8to1_c_51_7_alg».proof.Proof.RecordAttention
import proofs.«177283_g481036337857_cont_8to1_c_51_7_alg».proof.Proof.RecordNormRec

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- The pipeline library's algebra is the whole user algebra. -/
abbrev EP : Emb (UR sig nD τ) (MT nD τ sig Unit (Elt F) ℕ (UR sig nD τ) ℕ) := emb₁

/-- The launch element: the pipeline library's at the three regions' staging cells. -/
def u₀ : UR sig nD τ := initOf (Pipeline.cells cfgs cellOf_inj) (Pipeline.launchToks cfgs cellOf_inj)

/-- The host stretch as a segment, the rest riding along. -/
abbrev hostSeg : HostSeg (Ix := Unit) (Name := ℕ) (U := UR sig nD τ) (Lvl := ℕ) (pcfgs (F := F)) defs₀ Variants.none L lv :=
  seg0 m Variants.none L lv (fun _ : Fin 4 => Rest (F := F))

/-- A buffer that no host operation and no region writes ends as launched. -/
theorem kept (c : Dev nD) (r : Ref sig .tc) (h6 : r ≠ main_v6) (h7 : r ≠ main_v7) (h8 : r ≠ main_v8) (hh : r ∉ hostOps0_W) :
    W4 m c r = m ((c : Thread nD τ).loc r) :=
  (W4_of_ne m c r h8).trans <| (W3_of_ne m c r h7).trans <| (W2_of_ne m c r h6).trans <| (V1_of m c r hh).trans rfl

set_option maxHeartbeats 4000000 in
set_option backward.isDefEq.respectTransparency.types false in
/-- THE RUN, for any float instance: termination without a fault, the result array at `recBuf`, the arguments unchanged. -/
theorem kernelRun : θ_run defs (onTc (τ := τ) (main (F := F))) ⟨m, fun _ => 0, ρ⟩ (fun r => ∀ c : Dev nD,
      r.2.mem ((c.tc : Thread nD τ).loc main_v8) = recBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m) () cellOf_inj EP defs₀ Variants.none L lv m ρ main
    (fun _ => [.host (hostSeg m), .region (attRegion m), .region (aggRegion m), .region (recRegion m)])
    (fun c Q => by
      rewrite [main_chain c, Seg.run_eq_chain,
        show ([.host (hostSeg m), .region (attRegion m), .region (aggRegion m), .region (recRegion m)] :
            List (Seg (pcfgs (F := F)) adm (pdats m) () defs₀ Variants.none L lv)).map Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (fun c => by simp only [Seg.pipes_host, Seg.pipes_region, Seg.pipes_nil]; decide) (O₀ := 0) (hL := fun _ _ => rfl)
    (G := fun _ => iprop(emp)) (u₀ := u₀) (hu₀ := ?_)
    (T₀ := fun c => iprop(StableHlo.held (c : Thread nD τ) (Pipeline.ucRefs τ sig) (V0 m c) ∗ Rest c))
    (Tₙ := fun c => iprop(StableHlo.held (c : Thread nD τ) (Pipeline.ucRefs τ sig) (W4 m c) ∗ ∃ r, prngReg c r))
    (hch := fun c => ⟨.rfl, .rfl, .rfl, .rfl, ?_⟩)
    (hinit := ?_) (QY := fun c s => s.mem ((c.tc : Thread nD τ).loc main_v8) = recBuf m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch element is the pipeline library's
    unfold u₀
    rw [ownU_emb₁]
    iintro HP
    imodintro
    isplitl [HP]; · iexact HP
    iapply (show (BI.emp : sProp 𝕄) ⊢ bigSep Finset.univ (fun _ : Dev nD => (BI.emp : sProp 𝕄)) from by rw [BI.bigSep_emp_const])
    iempintro
  · -- the last region's exit state, re-associated
    show iprop(StableHlo.held (c : Thread nD τ) (Pipeline.ucRefs τ sig) (W4 m c) ∗ Rest c)
      ⊢ iprop((StableHlo.held (c : Thread nD τ) (Pipeline.ucRefs τ sig) (W4 m c) ∗ ∃ r, prngReg c r)
          ∗ ∃ W, owes (c : Thread nD τ) (0 : CellTallies nD τ sig Unit) W)
    iintro ⟨Hh, HO, Hp⟩
    isplitr [HO]
    · isplitl [Hh]; · iexact Hh
      iexact Hp
    · iexact HO
  · -- the launch: the unscoped buffers held at the launch memory, the core owing nothing, its generator register
    refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists ∅; iexact HO
    iexists _; iexact Hp
  · -- the end: the result and each argument read off the last valuation
    unfold StableHlo.held
    iintro ⟨⟨Hh, -⟩, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact ⟨(h (Proc.devRef .tc main_v8) (Finset.mem_filter.mpr ⟨StableHlo.devRef_mem_tcRefs main_v8, by decide⟩)).trans (W4_self m c),
        (h (Proc.devRef .tc main_arg0) (Finset.mem_filter.mpr ⟨StableHlo.devRef_mem_tcRefs main_arg0, by decide⟩)).trans (kept m c main_arg0 (by decide) (by decide) (by decide) (by decide)),
        (h (Proc.devRef .tc main_arg1) (Finset.mem_filter.mpr ⟨StableHlo.devRef_mem_tcRefs main_arg1, by decide⟩)).trans (kept m c main_arg1 (by decide) (by decide) (by decide) (by decide)),
        (h (Proc.devRef .tc main_arg2) (Finset.mem_filter.mpr ⟨StableHlo.devRef_mem_tcRefs main_arg2, by decide⟩)).trans (kept m c main_arg2 (by decide) (by decide) (by decide) (by decide)),
        (h (Proc.devRef .tc main_arg3) (Finset.mem_filter.mpr ⟨StableHlo.devRef_mem_tcRefs main_arg3, by decide⟩)).trans (kept m c main_arg3 (by decide) (by decide) (by decide) (by decide)),
        (h (Proc.devRef .tc main_arg4) (Finset.mem_filter.mpr ⟨StableHlo.devRef_mem_tcRefs main_arg4, by decide⟩)).trans (kept m c main_arg4 (by decide) (by decide) (by decide) (by decide)),
        (h (Proc.devRef .tc main_arg5) (Finset.mem_filter.mpr ⟨StableHlo.devRef_mem_tcRefs main_arg5, by decide⟩)).trans (kept m c main_arg5 (by decide) (by decide) (by decide) (by decide)),
        (h (Proc.devRef .tc main_arg6) (Finset.mem_filter.mpr ⟨StableHlo.devRef_mem_tcRefs main_arg6, by decide⟩)).trans (kept m c main_arg6 (by decide) (by decide) (by decide) (by decide))⟩
    · iexact HSI

end Cert.KernelIdeal.Hand

end
-- ==== Proof.WordBodyAttention.lean ====
/-
  The attention kernel's body, run once on whole staging buffers: it loads the whole feature matrix, the point's block of
  feature rows, the point's block of adjacency rows, the attention weight, the two halves of the attention vector and
  the graph-convolution weight, and stores the block's rows of the support matrix over all of its output block. What the
  output buffer then holds is stated as that one store read back over the loaded values.
-/
import proofs.«177283_g481036337857_cont_8to1_c_51_7_alg».proof.Proof.Gen.Kernel.Launch
import proofs.«177283_g481036337857_cont_8to1_c_51_7_alg».proof.Proof.Gen.Kernel.Skeleton
import proofs.«177283_g481036337857_cont_8to1_c_51_7_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles the body's whole-buffer accesses go through. -/
abbrev rFeat : Rect S4096x16 := Rect.unit (s := S4096x16) ![0, 0] S4096x16.size inb_S4096x16_S4096x16_0_0
abbrev rFeatRows : Rect S256x16 := Rect.unit (s := S256x16) ![0, 0] S256x16.size inb_S256x16_S256x16_0_0
abbrev rAdjRows0 : Rect S256x4096 := Rect.unit (s := S256x4096) ![0, 0] S256x4096.size inb_S256x4096_S256x4096_0_0
abbrev rAttW : Rect S16x16 := Rect.unit (s := S16x16) ![0, 0] S16x16.size inb_S16x16_S16x16_0_0
abbrev rAttVec : Rect S1x16 := Rect.unit (s := S1x16) ![0, 0] S1x16.size inb_S1x16_S1x16_0_0
abbrev rGcW : Rect S16x32 := Rect.unit (s := S16x32) ![0, 0] S16x32.size inb_S16x32_S16x32_0_0
abbrev rSupRows : Rect S256x32 := Rect.unit (s := S256x32) ![0, 0] S256x32.size inb_S256x32_S256x32_0_0

/-- What the output block's buffer holds after the body: its one store, over the values the body loaded. -/
def attOut (x0 : Vec F S4096x16 .f32) (x1 : Vec F S256x16 .f32) (x2 : Vec F S256x4096 .f32) (x3 : Vec F S16x16 .f32)
    (x4 x5 : Vec F S1x16 .f32) (x6 : Vec F S16x32 .f32) : Vec F S256x32 .f32 :=
  View.canon [⟨rSupRows, k0_pay1 (k0_pay2 (View.ld x0 rFeat) (View.ld x3 rAttW))
    (k0_pay3 (View.ld x0 rFeat) (View.ld x3 rAttW) (View.ld x1 rFeatRows) (View.ld x3 rAttW) (View.ld x4 rAttVec) (View.ld x5 rAttVec) (View.ld x2 rAdjRows0))
    (constant S256x16 .f32 0x00000000#32) (View.ld x6 rGcW)⟩]

/-- The one store covers the block. -/
theorem attCover (p0 : Vec F S256x32 .f32) (y : S256x32.Idx) :
    ∃ pc ∈ ([⟨rSupRows, p0⟩] : List (View.Piece (Elt F) S256x32 .f32)), y ∈ pc.1.set :=
  View.cover_of_tiled [⟨rSupRows, p0⟩] S256x32.size (by rfl) y

set_option maxHeartbeats 2000000 in
/-- The body on whole staging buffers, the inputs' at contents x0 … x6 and the output's at anything, reaches its
    continuation holding the inputs' as they were and the output's at `attOut x0 … x6`. -/
theorem attKernel (c : Dev nD) (E : Set ℕ) (i : grid0.Coords)
    (arg1 : Memref sig .tc .vmem S4096x16 .f32) (harg1 : arg1.IsWhole) (arg2 : Memref sig .tc .vmem S256x16 .f32) (harg2 : arg2.IsWhole)
    (arg3 : Memref sig .tc .vmem S256x4096 .f32) (harg3 : arg3.IsWhole) (arg4 : Memref sig .tc .vmem S16x16 .f32) (harg4 : arg4.IsWhole)
    (arg5 : Memref sig .tc .vmem S1x16 .f32) (harg5 : arg5.IsWhole) (arg6 : Memref sig .tc .vmem S1x16 .f32) (harg6 : arg6.IsWhole)
    (arg7 : Memref sig .tc .vmem S16x32 .f32) (harg7 : arg7.IsWhole) (arg8 : Memref sig .tc .vmem S256x32 .f32) (harg8 : arg8.IsWhole)
    (x0 : Vec F S4096x16 .f32) (x1 : Vec F S256x16 .f32) (x2 : Vec F S256x4096 .f32) (x3 : Vec F S16x16 .f32)
    (x4 x5 : Vec F S1x16 .f32) (x6 : Vec F S16x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (attOut x0 x1 x2 x3 x4 x5 x6)) -∗ K ⟨⟩))
      ⊢ wp frame (wpE (defs₀ (F := F)) Variants.none c none) E
          (cc0__att_support_kernel i arg1 harg1 arg2 harg2 arg3 harg3 arg4 harg4 arg5 harg5 arg6 harg6 arg7 harg7 arg8 harg8) K := by
  simp only [cc0__att_support_kernel_eq_skeleton]; unfold cc0__att_support_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (attCover _)

end Cert.Kernel.Hand

end
-- ==== Proof.WordRegionAttentionData.lean ====
/-
  The attention region's proof data and body obligation, for any contents V of the core's unscoped buffers at the
  region's entry. Windows 0 and 1 both read the feature array (whole, and the point's block of 256 rows), so each holds
  one half of that array's share; window 2 is the point's block of adjacency rows; windows 3 to 6 are the attention
  weight, the two halves of the attention vector and the graph-convolution weight, each whole; window 7 is the point's
  block of 256 rows of the support matrix. At every point each input buffer holds its block of the array as the region
  found it; the body leaves the inputs in place and the output at the block's rows of the support.
-/
import proofs.«177283_g481036337857_cont_8to1_c_51_7_alg».proof.Proof.WordBodyAttention
import Idealize.ShloMosaic.Lib.Pipeline.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def attBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data on core c. -/
def attDat (c : Dev nD) : Dat τ (Elt F) Unit ℕ (UR sig nD τ) ℕ cfg0 c where
  A w := V c (Pipeline.arrRef spec0 w)
  after w t := match w with
    | ⟨0, _⟩ => attBlk V c 0 t
    | ⟨1, _⟩ => attBlk V c 1 t
    | ⟨2, _⟩ => attBlk V c 2 t
    | ⟨3, _⟩ => attBlk V c 3 t
    | ⟨4, _⟩ => attBlk V c 4 t
    | ⟨5, _⟩ => attBlk V c 5 t
    | ⟨6, _⟩ => attBlk V c 6 t
    | ⟨7, _⟩ => attOut (attBlk V c 0 t) (attBlk V c 1 t) (attBlk V c 2 t) (attBlk V c 3 t) (attBlk V c 4 t) (attBlk V c 5 t) (attBlk V c 6 t)
  Φ _ := Pipeline.ΦA spec0 c
  q w := match w with | ⟨0, _⟩ => fullShare.left | ⟨1, _⟩ => fullShare.right | _ => fullShare
  owed _ := 0

theorem attDat_A (c : Dev nD) (w : Fin cfg0.W) : (attDat V c).A w = V c (Pipeline.arrRef spec0 w) := by
  dsimp only [attDat]

theorem attAfter0 (c : Dev nD) (t : Fin cfg0.N) : (attDat V c).after 0 t = attBlk V c 0 t := by dsimp only [attDat]
theorem attAfter1 (c : Dev nD) (t : Fin cfg0.N) : (attDat V c).after 1 t = attBlk V c 1 t := by dsimp only [attDat]
theorem attAfter2 (c : Dev nD) (t : Fin cfg0.N) : (attDat V c).after 2 t = attBlk V c 2 t := by dsimp only [attDat]
theorem attAfter3 (c : Dev nD) (t : Fin cfg0.N) : (attDat V c).after 3 t = attBlk V c 3 t := by dsimp only [attDat]
theorem attAfter4 (c : Dev nD) (t : Fin cfg0.N) : (attDat V c).after 4 t = attBlk V c 4 t := by dsimp only [attDat]
theorem attAfter5 (c : Dev nD) (t : Fin cfg0.N) : (attDat V c).after 5 t = attBlk V c 5 t := by dsimp only [attDat]
theorem attAfter6 (c : Dev nD) (t : Fin cfg0.N) : (attDat V c).after 6 t = attBlk V c 6 t := by dsimp only [attDat]
theorem attAfter7 (c : Dev nD) (t : Fin cfg0.N) : (attDat V c).after 7 t = attOut (attBlk V c 0 t) (attBlk V c 1 t) (attBlk V c 2 t) (attBlk V c 3 t) (attBlk V c 4 t) (attBlk V c 5 t) (attBlk V c 6 t) := by dsimp only [attDat]

/-- Each input's current staging buffer holds its block at every point, fetched there or not. -/
theorem attBefore0 (c : Dev nD) (t : Fin cfg0.N) (d) : (attDat V c).before 0 t d = attBlk V c 0 t :=
  ((attDat V c).before_in_eq_fetched 0 rfl (fun _ => rfl) (fun _ _ _ => rfl)
    (fun t => by rw [attAfter0]; unfold Dat.blockOf attBlk; rw [attDat_A]; try rfl) t d).trans
    (by unfold Dat.fetched Dat.blockOf attBlk; rw [attDat_A]; try rfl)
theorem attBefore1 (c : Dev nD) (t : Fin cfg0.N) (d) : (attDat V c).before 1 t d = attBlk V c 1 t :=
  ((attDat V c).before_in_eq_fetched 1 rfl (fun _ => rfl) (fun _ _ _ => rfl)
    (fun t => by rw [attAfter1]; unfold Dat.blockOf attBlk; rw [attDat_A]; try rfl) t d).trans
    (by unfold Dat.fetched Dat.blockOf attBlk; rw [attDat_A]; try rfl)
theorem attBefore2 (c : Dev nD) (t : Fin cfg0.N) (d) : (attDat V c).before 2 t d = attBlk V c 2 t :=
  ((attDat V c).before_in_eq_fetched 2 rfl (fun _ => rfl) (fun _ _ _ => rfl)
    (fun t => by rw [attAfter2]; unfold Dat.blockOf attBlk; rw [attDat_A]; try rfl) t d).trans
    (by unfold Dat.fetched Dat.blockOf attBlk; rw [attDat_A]; try rfl)
theorem attBefore3 (c : Dev nD) (t : Fin cfg0.N) (d) : (attDat V c).before 3 t d = attBlk V c 3 t :=
  ((attDat V c).before_in_eq_fetched 3 rfl (fun _ => rfl) (fun _ _ _ => rfl)
    (fun t => by rw [attAfter3]; unfold Dat.blockOf attBlk; rw [attDat_A]; try rfl) t d).trans
    (by unfold Dat.fetched Dat.blockOf attBlk; rw [attDat_A]; try rfl)
theorem attBefore4 (c : Dev nD) (t : Fin cfg0.N) (d) : (attDat V c).before 4 t d = attBlk V c 4 t :=
  ((attDat V c).before_in_eq_fetched 4 rfl (fun _ => rfl) (fun _ _ _ => rfl)
    (fun t => by rw [attAfter4]; unfold Dat.blockOf attBlk; rw [attDat_A]; try rfl) t d).trans
    (by unfold Dat.fetched Dat.blockOf attBlk; rw [attDat_A]; try rfl)
theorem attBefore5 (c : Dev nD) (t : Fin cfg0.N) (d) : (attDat V c).before 5 t d = attBlk V c 5 t :=
  ((attDat V c).before_in_eq_fetched 5 rfl (fun _ => rfl) (fun _ _ _ => rfl)
    (fun t => by rw [attAfter5]; unfold Dat.blockOf attBlk; rw [attDat_A]; try rfl) t d).trans
    (by unfold Dat.fetched Dat.blockOf attBlk; rw [attDat_A]; try rfl)
theorem attBefore6 (c : Dev nD) (t : Fin cfg0.N) (d) : (attDat V c).before 6 t d = attBlk V c 6 t :=
  ((attDat V c).before_in_eq_fetched 6 rfl (fun _ => rfl) (fun _ _ _ => rfl)
    (fun t => by rw [attAfter6]; unfold Dat.blockOf attBlk; rw [attDat_A]; try rfl) t d).trans
    (by unfold Dat.fetched Dat.blockOf attBlk; rw [attDat_A]; try rfl)

/-- What the body is called with at point t, -/
def attPre (c : Dev nD) (t : Fin cfg0.N) : sProp 𝕄 :=
  iprop((attDat V c).Φ t.castSucc ∗ (attDat V c).owesAt () t.castSucc
    ∗ (∃ d, owns (c : Thread nD τ) (st0_0 t) fullShare ((attDat V c).before 0 t d))
    ∗ (∃ d, owns (c : Thread nD τ) (st0_1 t) fullShare ((attDat V c).before 1 t d))
    ∗ (∃ d, owns (c : Thread nD τ) (st0_2 t) fullShare ((attDat V c).before 2 t d))
    ∗ (∃ d, owns (c : Thread nD τ) (st0_3 t) fullShare ((attDat V c).before 3 t d))
    ∗ (∃ d, owns (c : Thread nD τ) (st0_4 t) fullShare ((attDat V c).before 4 t d))
    ∗ (∃ d, owns (c : Thread nD τ) (st0_5 t) fullShare ((attDat V c).before 5 t d))
    ∗ (∃ d, owns (c : Thread nD τ) (st0_6 t) fullShare ((attDat V c).before 6 t d))
    ∗ (∃ d, owns (c : Thread nD τ) (st0_7 t) fullShare ((attDat V c).before 7 t d)))

/-- and what it returns. -/
def attPost (c : Dev nD) (t : Fin cfg0.N) : sProp 𝕄 :=
  iprop((attDat V c).Φ t.succ ∗ (attDat V c).owesAt () t.succ
    ∗ owns (c : Thread nD τ) (st0_0 t) fullShare ((attDat V c).after 0 t)
    ∗ owns (c : Thread nD τ) (st0_1 t) fullShare ((attDat V c).after 1 t)
    ∗ owns (c : Thread nD τ) (st0_2 t) fullShare ((attDat V c).after 2 t)
    ∗ owns (c : Thread nD τ) (st0_3 t) fullShare ((attDat V c).after 3 t)
    ∗ owns (c : Thread nD τ) (st0_4 t) fullShare ((attDat V c).after 4 t)
    ∗ owns (c : Thread nD τ) (st0_5 t) fullShare ((attDat V c).after 5 t)
    ∗ owns (c : Thread nD τ) (st0_6 t) fullShare ((attDat V c).after 6 t)
    ∗ owns (c : Thread nD τ) (st0_7 t) fullShare ((attDat V c).after 7 t))

theorem attBody (c : Dev nD) (t : Fin cfg0.N) :
    attPre V c t ⊢ wp frame (wpE (defs₀ (F := F)) Variants.none c none) Set.univ (bodyAt0 t) (fun _ => attPost V c t) := by
  unfold attPre attPost bodyAt0
  simp only [attBefore0, attBefore1, attBefore2, attBefore3, attBefore4, attBefore5, attBefore6]
  rw [show (attDat V c).Φ t.succ = (attDat V c).Φ t.castSucc from rfl,
    show (attDat V c).owesAt () t.succ = (attDat V c).owesAt () t.castSucc from rfl,
    attAfter0, attAfter1, attAfter2, attAfter3, attAfter4, attAfter5, attAfter6, attAfter7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (attKernel c Set.univ (grid0.coords t) _ _ _ _ _ _ _ _ _ _ _ _ _ _ _ _ (attBlk V c 0 t) (attBlk V c 1 t) (attBlk V c 2 t) (attBlk V c 3 t) (attBlk V c 4 t) (attBlk V c 5 t) (attBlk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem attObligation (c : Dev nD) : BodyObligation (attDat (F := F) V c) (defs₀ (F := F)) Variants.none () Set.univ := fun t => by
  rw [bigSep_W0, bigSep_W0]
  exact attBody V c t

end Cert.Kernel.Hand

end
-- ==== Proof.WordBodyAggregate.lean ====
/-
  The aggregation kernel's body, run once on whole staging buffers: from the block of adjacency rows and the whole
  support matrix it loads, it stores max (rows · support) 0 over all of its output block and touches nothing else. What
  the output buffer then holds is stated as the one store read back over the loaded values.
-/
import proofs.«177283_g481036337857_cont_8to1_c_51_7_alg».proof.Proof.Gen.Kernel.Launch
import proofs.«177283_g481036337857_cont_8to1_c_51_7_alg».proof.Proof.Gen.Kernel.Skeleton
import proofs.«177283_g481036337857_cont_8to1_c_51_7_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles the body's whole-buffer accesses go through. -/
abbrev rAdjRows : Rect S256x4096 := Rect.unit (s := S256x4096) ![0, 0] S256x4096.size inb_S256x4096_S256x4096_0_0
abbrev rSupport : Rect S4096x32 := Rect.unit (s := S4096x32) ![0, 0] S4096x32.size inb_S4096x32_S4096x32_0_0
abbrev rAggRows : Rect S256x32 := Rect.unit (s := S256x32) ![0, 0] S256x32.size inb_S256x32_S256x32_0_0

/-- What the output block's buffer holds after the body: its one store, over the values the body loaded. -/
def aggOut (x0 : Vec F S256x4096 .f32) (x1 : Vec F S4096x32 .f32) : Vec F S256x32 .f32 :=
  View.canon [⟨rAggRows, k1_pay1 (View.ld x0 rAdjRows) (View.ld x1 rSupport)⟩]

/-- The one store covers the block. -/
theorem aggCover (p0 : Vec F S256x32 .f32) (y : S256x32.Idx) :
    ∃ pc ∈ ([⟨rAggRows, p0⟩] : List (View.Piece (Elt F) S256x32 .f32)), y ∈ pc.1.set :=
  View.cover_of_tiled [⟨rAggRows, p0⟩] S256x32.size (by rfl) y

set_option maxHeartbeats 1000000 in
/-- The body on whole staging buffers, the inputs' at contents x0, x1 and the output's at anything, reaches its
    continuation holding the inputs' as they were and the output's at `aggOut x0 x1`. -/
theorem aggKernel (c : Dev nD) (E : Set ℕ) (i : grid1.Coords) (arg1 : Memref sig .tc .vmem S256x4096 .f32) (harg1 : arg1.IsWhole)
    (arg2 : Memref sig .tc .vmem S4096x32 .f32) (harg2 : arg2.IsWhole) (arg3 : Memref sig .tc .vmem S256x32 .f32) (harg3 : arg3.IsWhole)
    (x0 : Vec F S256x4096 .f32) (x1 : Vec F S4096x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (aggOut x0 x1)) -∗ K ⟨⟩))
      ⊢ wp frame (wpE (defs₀ (F := F)) Variants.none c none) E (cc1__aggregate_kernel i arg1 harg1 arg2 harg2 arg3 harg3) K := by
  simp only [cc1__aggregate_kernel_eq_skeleton]; unfold cc1__aggregate_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (aggCover _)

end Cert.Kernel.Hand

end
-- ==== Proof.WordRegionAggregateData.lean ====
/-
  The aggregation region's proof data and body obligation, for any contents V of the core's unscoped buffers at the
  region's entry. Window 0 is the point's block of 256 adjacency rows, window 1 the whole support matrix, window 2 the
  point's block of 256 output rows. At every point each input buffer holds its block of the array as the region found
  it, fetched there or not; the body leaves the inputs in place and the output at max (rows · support) 0.
-/
import proofs.«177283_g481036337857_cont_8to1_c_51_7_alg».proof.Proof.WordBodyAggregate
import Idealize.ShloMosaic.Lib.Pipeline.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def aggBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data on core c. -/
def aggDat (c : Dev nD) : Dat τ (Elt F) Unit ℕ (UR sig nD τ) ℕ cfg1 c where
  A w := V c (Pipeline.arrRef spec1 w)
  after w t := match w with
    | ⟨0, _⟩ => aggBlk V c 0 t
    | ⟨1, _⟩ => aggBlk V c 1 t
    | ⟨2, _⟩ => aggOut (aggBlk V c 0 t) (aggBlk V c 1 t)
  Φ _ := Pipeline.ΦA spec1 c
  q _ := fullShare
  owed _ := 0

theorem aggDat_A (c : Dev nD) (w : Fin cfg1.W) : (aggDat V c).A w = V c (Pipeline.arrRef spec1 w) := by
  dsimp only [aggDat]

theorem aggAfter0 (c : Dev nD) (t : Fin cfg1.N) : (aggDat V c).after 0 t = aggBlk V c 0 t := by dsimp only [aggDat]
theorem aggAfter1 (c : Dev nD) (t : Fin cfg1.N) : (aggDat V c).after 1 t = aggBlk V c 1 t := by dsimp only [aggDat]
theorem aggAfter2 (c : Dev nD) (t : Fin cfg1.N) : (aggDat V c).after 2 t = aggOut (aggBlk V c 0 t) (aggBlk V c 1 t) := by dsimp only [aggDat]

/-- Each input's current staging buffer holds its block at every point, fetched there or not. -/
theorem aggBefore0 (c : Dev nD) (t : Fin cfg1.N) (d) : (aggDat V c).before 0 t d = aggBlk V c 0 t :=
  ((aggDat V c).before_in_eq_fetched 0 rfl (fun _ => rfl) (fun _ _ _ => rfl)
    (fun t => by rw [aggAfter0]; unfold Dat.blockOf aggBlk; rw [aggDat_A]; try rfl) t d).trans
    (by unfold Dat.fetched Dat.blockOf aggBlk; rw [aggDat_A]; try rfl)
theorem aggBefore1 (c : Dev nD) (t : Fin cfg1.N) (d) : (aggDat V c).before 1 t d = aggBlk V c 1 t :=
  ((aggDat V c).before_in_eq_fetched 1 rfl (fun _ => rfl) (fun _ _ _ => rfl)
    (fun t => by rw [aggAfter1]; unfold Dat.blockOf aggBlk; rw [aggDat_A]; try rfl) t d).trans
    (by unfold Dat.fetched Dat.blockOf aggBlk; rw [aggDat_A]; try rfl)

/-- What the body is called with at point t, -/
def aggPre (c : Dev nD) (t : Fin cfg1.N) : sProp 𝕄 :=
  iprop((aggDat V c).Φ t.castSucc ∗ (aggDat V c).owesAt () t.castSucc
    ∗ (∃ d, owns (c : Thread nD τ) (st1_0 t) fullShare ((aggDat V c).before 0 t d))
    ∗ (∃ d, owns (c : Thread nD τ) (st1_1 t) fullShare ((aggDat V c).before 1 t d))
    ∗ (∃ d, owns (c : Thread nD τ) (st1_2 t) fullShare ((aggDat V c).before 2 t d)))

/-- and what it returns. -/
def aggPost (c : Dev nD) (t : Fin cfg1.N) : sProp 𝕄 :=
  iprop((aggDat V c).Φ t.succ ∗ (aggDat V c).owesAt () t.succ
    ∗ owns (c : Thread nD τ) (st1_0 t) fullShare ((aggDat V c).after 0 t)
    ∗ owns (c : Thread nD τ) (st1_1 t) fullShare ((aggDat V c).after 1 t)
    ∗ owns (c : Thread nD τ) (st1_2 t) fullShare ((aggDat V c).after 2 t))

theorem aggBody (c : Dev nD) (t : Fin cfg1.N) :
    aggPre V c t ⊢ wp frame (wpE (defs₀ (F := F)) Variants.none c none) Set.univ (bodyAt1 t) (fun _ => aggPost V c t) := by
  unfold aggPre aggPost bodyAt1
  simp only [aggBefore0, aggBefore1]
  rw [show (aggDat V c).Φ t.succ = (aggDat V c).Φ t.castSucc from rfl,
    show (aggDat V c).owesAt () t.succ = (aggDat V c).owesAt () t.castSucc from rfl,
    aggAfter0, aggAfter1, aggAfter2]
  iintro ⟨HΦ, Ho, ⟨%d0, H0⟩, ⟨%d1, H1⟩, ⟨%d2, H2⟩⟩
  iapply (aggKernel c Set.univ (grid1.coords t) _ _ _ _ _ _ (aggBlk V c 0 t) (aggBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem aggObligation (c : Dev nD) : BodyObligation (aggDat (F := F) V c) (defs₀ (F := F)) Variants.none () Set.univ := fun t => by
  rw [bigSep_W1, bigSep_W1]
  exact aggBody V c t

end Cert.Kernel.Hand

end
-- ==== Proof.WordBodyNormRec.lean ====
/-
  The normalisation-and-reconstruction kernel's body, run once on whole staging buffers: it loads the whole aggregated
  matrix, the point's block of its rows, and the scale and shift rows, and stores the block's rows of the inner-product
  reconstruction over all of its output block. What the output buffer then holds is stated as that one store read back
  over the loaded values.
-/
import proofs.«177283_g481036337857_cont_8to1_c_51_7_alg».proof.Proof.Gen.Kernel.Launch
import proofs.«177283_g481036337857_cont_8to1_c_51_7_alg».proof.Proof.Gen.Kernel.Skeleton
import proofs.«177283_g481036337857_cont_8to1_c_51_7_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles the body's whole-buffer accesses go through. -/
abbrev rAgg : Rect S4096x32 := Rect.unit (s := S4096x32) ![0, 0] S4096x32.size inb_S4096x32_S4096x32_0_0
abbrev rAggBlk : Rect S256x32 := Rect.unit (s := S256x32) ![0, 0] S256x32.size inb_S256x32_S256x32_0_0
abbrev rRow32 : Rect S1x32 := Rect.unit (s := S1x32) ![0, 0] S1x32.size inb_S1x32_S1x32_0_0
abbrev rRecRows : Rect S256x4096 := Rect.unit (s := S256x4096) ![0, 0] S256x4096.size inb_S256x4096_S256x4096_0_0

/-- What the output block's buffer holds after the body: its one store, over the values the body loaded. -/
def recOut (x0 : Vec F S4096x32 .f32) (x1 : Vec F S256x32 .f32) (x2 x3 : Vec F S1x32 .f32) : Vec F S256x4096 .f32 :=
  View.canon [⟨rRecRows, k2_pay1 (View.ld x0 rAgg) (View.ld x2 rRow32) (View.ld x3 rRow32) (View.ld x1 rAggBlk)⟩]

/-- The one store covers the block. -/
theorem recCover (p0 : Vec F S256x4096 .f32) (y : S256x4096.Idx) :
    ∃ pc ∈ ([⟨rRecRows, p0⟩] : List (View.Piece (Elt F) S256x4096 .f32)), y ∈ pc.1.set :=
  View.cover_of_tiled [⟨rRecRows, p0⟩] S256x4096.size (by rfl) y

set_option maxHeartbeats 2000000 in
/-- The body on whole staging buffers, the inputs' at contents x0 … x3 and the output's at anything, reaches its
    continuation holding the inputs' as they were and the output's at `recOut x0 x1 x2 x3`. -/
theorem recKernel (c : Dev nD) (E : Set ℕ) (i : grid2.Coords)
    (arg1 : Memref sig .tc .vmem S4096x32 .f32) (harg1 : arg1.IsWhole) (arg2 : Memref sig .tc .vmem S256x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S256x4096 .f32) (harg5 : arg5.IsWhole)
    (x0 : Vec F S4096x32 .f32) (x1 : Vec F S256x32 .f32) (x2 x3 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (recOut x0 x1 x2 x3)) -∗ K ⟨⟩))
      ⊢ wp frame (wpE (defs₀ (F := F)) Variants.none c none) E (cc2__bn_rec_kernel i arg1 harg1 arg2 harg2 arg3 harg3 arg4 harg4 arg5 harg5) K := by
  simp only [cc2__bn_rec_kernel_eq_skeleton]; unfold cc2__bn_rec_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (recCover _)

end Cert.Kernel.Hand

end
-- ==== Proof.WordRegionNormRecData.lean ====
/-
  The normalisation-and-reconstruction region's proof data and body obligation, for any contents V of the core's
  unscoped buffers at the region's entry. Windows 0 and 1 both read the aggregated array (whole, and the point's block of
  256 rows), so each holds one half of that array's share; windows 2 and 3 are the scale and shift rows; window 4 is
  the point's block of 256 rows of the reconstruction. At every point each input buffer holds its block of the array as
  the region found it; the body leaves the inputs in place and the output at the block's rows of the reconstruction.
-/
import proofs.«177283_g481036337857_cont_8to1_c_51_7_alg».proof.Proof.WordBodyNormRec
import Idealize.ShloMosaic.Lib.Pipeline.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def recBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data on core c. -/
def recDat (c : Dev nD) : Dat τ (Elt F) Unit ℕ (UR sig nD τ) ℕ cfg2 c where
  A w := V c (Pipeline.arrRef spec2 w)
  after w t := match w with
    | ⟨0, _⟩ => recBlk V c 0 t
    | ⟨1, _⟩ => recBlk V c 1 t
    | ⟨2, _⟩ => recBlk V c 2 t
    | ⟨3, _⟩ => recBlk V c 3 t
    | ⟨4, _⟩ => recOut (recBlk V c 0 t) (recBlk V c 1 t) (recBlk V c 2 t) (recBlk V c 3 t)
  Φ _ := Pipeline.ΦA spec2 c
  q w := match w with | ⟨0, _⟩ => fullShare.left | ⟨1, _⟩ => fullShare.right | _ => fullShare
  owed _ := 0

theorem recDat_A (c : Dev nD) (w : Fin cfg2.W) : (recDat V c).A w = V c (Pipeline.arrRef spec2 w) := by
  dsimp only [recDat]

theorem recAfter0 (c : Dev nD) (t : Fin cfg2.N) : (recDat V c).after 0 t = recBlk V c 0 t := by dsimp only [recDat]
theorem recAfter1 (c : Dev nD) (t : Fin cfg2.N) : (recDat V c).after 1 t = recBlk V c 1 t := by dsimp only [recDat]
theorem recAfter2 (c : Dev nD) (t : Fin cfg2.N) : (recDat V c).after 2 t = recBlk V c 2 t := by dsimp only [recDat]
theorem recAfter3 (c : Dev nD) (t : Fin cfg2.N) : (recDat V c).after 3 t = recBlk V c 3 t := by dsimp only [recDat]
theorem recAfter4 (c : Dev nD) (t : Fin cfg2.N) : (recDat V c).after 4 t = recOut (recBlk V c 0 t) (recBlk V c 1 t) (recBlk V c 2 t) (recBlk V c 3 t) := by dsimp only [recDat]

/-- Each input's current staging buffer holds its block at every point, fetched there or not. -/
theorem recBefore0 (c : Dev nD) (t : Fin cfg2.N) (d) : (recDat V c).before 0 t d = recBlk V c 0 t :=
  ((recDat V c).before_in_eq_fetched 0 rfl (fun _ => rfl) (fun _ _ _ => rfl)
    (fun t => by rw [recAfter0]; unfold Dat.blockOf recBlk; rw [recDat_A]; try rfl) t d).trans
    (by unfold Dat.fetched Dat.blockOf recBlk; rw [recDat_A]; try rfl)
theorem recBefore1 (c : Dev nD) (t : Fin cfg2.N) (d) : (recDat V c).before 1 t d = recBlk V c 1 t :=
  ((recDat V c).before_in_eq_fetched 1 rfl (fun _ => rfl) (fun _ _ _ => rfl)
    (fun t => by rw [recAfter1]; unfold Dat.blockOf recBlk; rw [recDat_A]; try rfl) t d).trans
    (by unfold Dat.fetched Dat.blockOf recBlk; rw [recDat_A]; try rfl)
theorem recBefore2 (c : Dev nD) (t : Fin cfg2.N) (d) : (recDat V c).before 2 t d = recBlk V c 2 t :=
  ((recDat V c).before_in_eq_fetched 2 rfl (fun _ => rfl) (fun _ _ _ => rfl)
    (fun t => by rw [recAfter2]; unfold Dat.blockOf recBlk; rw [recDat_A]; try rfl) t d).trans
    (by unfold Dat.fetched Dat.blockOf recBlk; rw [recDat_A]; try rfl)
theorem recBefore3 (c : Dev nD) (t : Fin cfg2.N) (d) : (recDat V c).before 3 t d = recBlk V c 3 t :=
  ((recDat V c).before_in_eq_fetched 3 rfl (fun _ => rfl) (fun _ _ _ => rfl)
    (fun t => by rw [recAfter3]; unfold Dat.blockOf recBlk; rw [recDat_A]; try rfl) t d).trans
    (by unfold Dat.fetched Dat.blockOf recBlk; rw [recDat_A]; try rfl)

/-- What the body is called with at point t, -/
def recPre (c : Dev nD) (t : Fin cfg2.N) : sProp 𝕄 :=
  iprop((recDat V c).Φ t.castSucc ∗ (recDat V c).owesAt () t.castSucc
    ∗ (∃ d, owns (c : Thread nD τ) (st2_0 t) fullShare ((recDat V c).before 0 t d))
    ∗ (∃ d, owns (c : Thread nD τ) (st2_1 t) fullShare ((recDat V c).before 1 t d))
    ∗ (∃ d, owns (c : Thread nD τ) (st2_2 t) fullShare ((recDat V c).before 2 t d))
    ∗ (∃ d, owns (c : Thread nD τ) (st2_3 t) fullShare ((recDat V c).before 3 t d))
    ∗ (∃ d, owns (c : Thread nD τ) (st2_4 t) fullShare ((recDat V c).before 4 t d)))

/-- and what it returns. -/
def recPost (c : Dev nD) (t : Fin cfg2.N) : sProp 𝕄 :=
  iprop((recDat V c).Φ t.succ ∗ (recDat V c).owesAt () t.succ
    ∗ owns (c : Thread nD τ) (st2_0 t) fullShare ((recDat V c).after 0 t)
    ∗ owns (c : Thread nD τ) (st2_1 t) fullShare ((recDat V c).after 1 t)
    ∗ owns (c : Thread nD τ) (st2_2 t) fullShare ((recDat V c).after 2 t)
    ∗ owns (c : Thread nD τ) (st2_3 t) fullShare ((recDat V c).after 3 t)
    ∗ owns (c : Thread nD τ) (st2_4 t) fullShare ((recDat V c).after 4 t))

theorem recBody (c : Dev nD) (t : Fin cfg2.N) :
    recPre V c t ⊢ wp frame (wpE (defs₀ (F := F)) Variants.none c none) Set.univ (bodyAt2 t) (fun _ => recPost V c t) := by
  unfold recPre recPost bodyAt2
  simp only [recBefore0, recBefore1, recBefore2, recBefore3]
  rw [show (recDat V c).Φ t.succ = (recDat V c).Φ t.castSucc from rfl,
    show (recDat V c).owesAt () t.succ = (recDat V c).owesAt () t.castSucc from rfl,
    recAfter0, recAfter1, recAfter2, recAfter3, recAfter4]
  iintro ⟨HΦ, Ho, ⟨%d0, H0⟩, ⟨%d1, H1⟩, ⟨%d2, H2⟩, ⟨%d3, H3⟩, ⟨%d4, H4⟩⟩
  iapply (recKernel c Set.univ (grid2.coords t) _ _ _ _ _ _ _ _ _ _ (recBlk V c 0 t) (recBlk V c 1 t) (recBlk V c 2 t) (recBlk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem recObligation (c : Dev nD) : BodyObligation (recDat (F := F) V c) (defs₀ (F := F)) Variants.none () Set.univ := fun t => by
  rw [bigSep_W2, bigSep_W2]
  exact recBody V c t

end Cert.Kernel.Hand

end
-- ==== Proof.WordRecords.lean ====
/-
  Between the items of the program the core's unscoped buffers hold: at launch the memory; after the host stretch the
  reshaped halves of the attention vector and the reshaped scale and shift; after the attention region also the support
  matrix the region wrote back; after the aggregation region also the aggregated matrix; after the last region also
  the reconstruction. Each region's proof data is stated at the contents its entry finds, and each region is recorded
  as a segment of the program entered from those contents and left at the next.
-/
import proofs.«177283_g481036337857_cont_8to1_c_51_7_alg».proof.Proof.WordRegionAttentionData
import proofs.«177283_g481036337857_cont_8to1_c_51_7_alg».proof.Proof.WordRegionAggregateData
import proofs.«177283_g481036337857_cont_8to1_c_51_7_alg».proof.Proof.WordRegionNormRecData
import proofs.«177283_g481036337857_cont_8to1_c_51_7_alg».proof.Proof.Gen.Kernel.Regions
import Idealize.ShloMosaic.Lib.Pipeline.RegionsLoop

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents between the items -/

/-- A valuation read at the TensorCore's references. -/
abbrev atRefs (W : (c : Dev nD) → Valuation τ sig (Elt F)) (c : Dev nD) (b : Ref sig .tc) : Buf (Elt F) ((c : Thread nD τ).loc b) := W c b

/-- After the host stretch. -/
abbrev W1 (c : Dev nD) : Valuation τ sig (Elt F) := V1 m c
/-- What the attention region leaves in the support matrix's buffer: its sixteen blocks written back. -/
def supBuf (c : Dev nD) : Buf (Elt F) ((c : Thread nD τ).loc main_v6) := (attDat (atRefs (W1 m)) c).arrAt 7 cfg0.N
/-- After the attention region. -/
abbrev W2 (c : Dev nD) : Valuation τ sig (Elt F) := Function.update (W1 m c) main_v6 (supBuf m c)
/-- What the aggregation region leaves in the aggregated matrix's buffer. -/
def aggBuf (c : Dev nD) : Buf (Elt F) ((c : Thread nD τ).loc main_v7) := (aggDat (atRefs (W2 m)) c).arrAt 2 cfg1.N
/-- After the aggregation region. -/
abbrev W3 (c : Dev nD) : Valuation τ sig (Elt F) := Function.update (W2 m c) main_v7 (aggBuf m c)
/-- What the last region leaves in the reconstruction's buffer. -/
def recBuf (c : Dev nD) : Buf (Elt F) ((c : Thread nD τ).loc main_v8) := (recDat (atRefs (W3 m)) c).arrAt 4 cfg2.N
/-- After the last region. -/
abbrev W4 (c : Dev nD) : Valuation τ sig (Elt F) := Function.update (W3 m c) main_v8 (recBuf m c)

/-- The three regions' proof data, each at its entry contents. -/
def pdats : (p : Fin 3) → (c : Dev nD) → Dat τ (Elt F) Unit ℕ (UR sig nD τ) ℕ (cfgs p) c
  | ⟨0, _⟩ => fun c => attDat (atRefs (W1 m)) c
  | ⟨1, _⟩ => fun c => aggDat (atRefs (W2 m)) c
  | ⟨2, _⟩ => fun c => recDat (atRefs (W3 m)) c

/-- No core owes another anything: no level is assigned. -/
abbrev L : GSem nD τ sig → Finset Unit := fun _ => ∅
abbrev lv : GSem nD τ sig → Unit → ℕ := fun _ _ => 0

/-- What rides beside the buffers from item to item: the core owing nothing, and its generator register. -/
abbrev Rest (c : Dev nD) : sProp 𝕄 :=
  iprop((∃ W, owes (c : Thread nD τ) (0 : CellTallies nD τ sig Unit) W) ∗ ∃ r, prngReg c r)

/-- The thread state between two items: the unscoped buffers held at a valuation, and the rest. -/
abbrev Between (W : (c : Dev nD) → Valuation τ sig (Elt F)) (c : Dev nD) : sProp 𝕄 :=
  iprop(StableHlo.held (c : Thread nD τ) (Pipeline.ucRefs τ sig) (W c) ∗ Rest c)

/-! ## The aggregation region -/

theorem W3_of_ne (c : Dev nD) (b : Ref sig .tc) (h : b ≠ main_v7) : W3 m c b = W2 m c b := by
  simp only [W3, Function.update_of_ne (StableHlo.devRef_ne_of_ne h : (Proc.devRef .tc b : DevRef τ sig) ≠ Proc.devRef .tc main_v7)]

theorem W3_self (c : Dev nD) : W3 m c main_v7 = aggBuf m c := by
  simp only [W3, Function.update_self]

set_option maxHeartbeats 4000000 in
set_option backward.isDefEq.respectTransparency.types false in
/-- The aggregation region as a segment: entered from the contents the attention region left, left with the
    aggregated matrix written back. Its three windows' arrays are distinct buffers. -/
def aggRegion : RegionSeg (pcfgs (F := F)) adm (pdats m) () defs₀ Variants.none L lv 1 where
  win := launch1.win.to₀
  block_pos := launch1.block_pos
  stage_whole := launch1.stage_whole
  K := Fin 0
  osem := fun k => k.elim0
  ho := ⟨fun k => k.elim0, fun k => k.elim0, fun k => k.elim0⟩
  hbody c := (aggObligation (atRefs (W2 m)) c).loose
  hwaits := Pipeline.hwaits_of_owed_zero _ _ _ _ L lv 1 fun _ _ => rfl
  pre c := iprop(StableHlo.held (c : Thread nD τ) (Pipeline.ucRefs τ sig) (W2 m c) ∗ Rest c)
  post c := iprop(StableHlo.held (c : Thread nD τ) (Pipeline.ucRefs τ sig) (W3 m c) ∗ Rest c)
  X c := iprop(∃ r, prngReg c r)
  Y c := iprop(∃ r, prngReg c r)
  Z c := Pipeline.unscopedRest spec1 c (atRefs (W2 m) c)
  hentry c := by
    rw [show StableHlo.held (c : Thread nD τ) (Pipeline.ucRefs τ sig) (W2 m c) = unscopedBufs c (atRefs (W2 m) c) from
      (Pipeline.unscopedBufs_held (Ix := Unit) (Name := ℕ) (U := UR sig nD τ) (Lvl := ℕ) c (W2 m c)).symm]
    have hsplit := Pipeline.arrays_of_unscopedBufs (pcfgs (F := F)) adm (pdats m) (p := 1) launch1.win launch1.arr_whole c
      ((pdats m 1 c).share_full fun _ => rfl) (atRefs (W2 m) c) fun _ => rfl
    iintro ⟨⟨Hub, HO, Hp⟩, Hos, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [show (pdats m 1 c).Φ _ = Pipeline.ΦA spec1 c from rfl]; unfold Pipeline.ΦA Pipeline.ownSems0
    rw [show (Finset.univ : Finset (Fin 0)) = ∅ from rfl, BI.bigSep_empty]
    iintro ⟨Hr, Hp⟩
    isplitl [Hp]; · iexact Hp
    isplitr; · iempintro
    iexact Hr
  hexit c := by
    have hjoin := Pipeline.unscopedBufs_of_arrays (pcs := pcfgs (F := F)) (a := adm) (p := 1) launch1.win launch1.arr_whole c (pdats m)
      ((pdats m 1 c).share_full fun _ => rfl) (atRefs (W2 m) c) (atRefs (W3 m) c) (fun w => (pdats m 1 c).arrAt w cfg1.N)
      (fun w => by
        match w with
        | ⟨0, _⟩ => exact ((pdats m 1 c).arrAt_in 0 rfl _).trans (W3_of_ne m c main_arg1 (by decide)).symm
        | ⟨1, _⟩ => exact ((pdats m 1 c).arrAt_in 1 rfl _).trans (W3_of_ne m c main_v6 (by decide)).symm
        | ⟨2, _⟩ => exact (W3_self m c).symm)
      (fun b hb => W3_of_ne m c b fun e => hb (e ▸ Finset.mem_image.mpr ⟨2, Finset.mem_univ _, rfl⟩))
    iintro ⟨Ha, HO, HY, HZ⟩
    imodintro
    isplitl [Ha HZ]
    · rw [show StableHlo.held (c : Thread nD τ) (Pipeline.ucRefs τ sig) (W3 m c) = unscopedBufs c (atRefs (W3 m) c) from
        (Pipeline.unscopedBufs_held (Ix := Unit) (Name := ℕ) (U := UR sig nD τ) (Lvl := ℕ) c (W3 m c)).symm]
      iapply hjoin
      isplitl [Ha]; · iexact Ha
      iexact HZ
    · isplitl [HO]
      · unfold Pipeline.Dat.owesAt Pipeline.owesWithin
        icases HO with ⟨%W, -, HO⟩; iexists W; iexact HO
      iexact HY

end Cert.Kernel.Hand

end
-- ==== Proof.WordRecordAttention.lean ====
/-
  The attention region as a segment of the program: entered from the contents the host stretch left, left with the
  support matrix written back. Its first two windows read ONE array, the features — whole, and the point's block of
  rows —, so the array's full share is dealt between them at the entry, half to each, and put together again at the
  exit; every other window's array is a buffer of its own at the full share.
-/
import proofs.«177283_g481036337857_cont_8to1_c_51_7_alg».proof.Proof.WordRecords

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## One array behind two windows: its share dealt at the entry and put back at the exit -/

section Shares

variable (V : (c : Dev nD) → (b : Ref sig .tc) → Buf (Elt F) ((c : Thread nD τ).loc b))

/-- The distinct buffers behind the region's windows. -/
theorem attImage : (Finset.univ.image (Pipeline.arrRef spec0) : Finset (Ref sig .tc))
    = ([main_arg0, main_arg1, main_arg2, main_v1, main_v3, main_arg4, main_v6] : List (Ref sig .tc)).toFinset := by decide

/-- Those buffers, each held whole at the full share, one by one. -/
theorem attArrBufs_eq (c : Dev nD) (G : (b : Ref sig .tc) → Buf (Elt F) ((c : Thread nD τ).loc b)) :
    (Pipeline.arrBufs spec0 c G : sProp 𝕄)
      = iprop((((c : Thread nD τ).loc main_arg0) ↦{fullShare} G main_arg0)
        ∗ (((c : Thread nD τ).loc main_arg1) ↦{fullShare} G main_arg1)
        ∗ (((c : Thread nD τ).loc main_arg2) ↦{fullShare} G main_arg2)
        ∗ (((c : Thread nD τ).loc main_v1) ↦{fullShare} G main_v1)
        ∗ (((c : Thread nD τ).loc main_v3) ↦{fullShare} G main_v3)
        ∗ (((c : Thread nD τ).loc main_arg4) ↦{fullShare} G main_arg4)
        ∗ (((c : Thread nD τ).loc main_v6) ↦{fullShare} G main_v6)) :=
  bigSep_eq_bigSepL_of_eq [main_arg0, main_arg1, main_arg2, main_v1, main_v3, main_arg4, main_v6] attImage (by decide) _

/-- The windows' arrays, each a whole buffer, as plain points-to facts at each window's share. -/
theorem attArrays_eq (c : Dev nD) (G : (b : Ref sig .tc) → Buf (Elt F) ((c : Thread nD τ).loc b))
    (A : (w : Fin cfg0.W) → Buf (Elt F) ((cfg0.win w).arr.view.loc (c : Thread nD τ))) (hA : ∀ w, A w = G (Pipeline.arrRef spec0 w)) :
    ((attDat V c).arrays A : sProp 𝕄)
      = bigSep Finset.univ fun w : Fin cfg0.W => (((c : Thread nD τ).loc (Pipeline.arrRef spec0 w)) ↦{(attDat V c).share w} G (Pipeline.arrRef spec0 w) : sProp 𝕄) := by
  unfold Dat.arrays
  exact bigSep_congr fun w _ => by rw [(arr_whole0 w).set_eq_univ, hA w]

/-- ENTRY: the buffers at the full share make the windows' arrays, the twice-read array's share split in two halves. -/
theorem attSplit (c : Dev nD) (G : (b : Ref sig .tc) → Buf (Elt F) ((c : Thread nD τ).loc b))
    (A : (w : Fin cfg0.W) → Buf (Elt F) ((cfg0.win w).arr.view.loc (c : Thread nD τ))) (hA : ∀ w, A w = G (Pipeline.arrRef spec0 w)) :
    (Pipeline.arrBufs spec0 c G : sProp 𝕄) ⊢ (attDat V c).arrays A := by
  rw [attArrays_eq V c G A hA, bigSep_W0, attArrBufs_eq]
  iintro ⟨H0, H1, H2, H3, H4, H5, H6⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  isplitl [H4]; · iexact H4
  isplitl [H5]; · iexact H5
  iexact H6

/-- EXIT: the windows' arrays make the buffers at the full share again, the two halves joined. -/
theorem attJoin (c : Dev nD) (G : (b : Ref sig .tc) → Buf (Elt F) ((c : Thread nD τ).loc b))
    (A : (w : Fin cfg0.W) → Buf (Elt F) ((cfg0.win w).arr.view.loc (c : Thread nD τ))) (hA : ∀ w, A w = G (Pipeline.arrRef spec0 w)) :
    ((attDat V c).arrays A : sProp 𝕄) ⊢ Pipeline.arrBufs spec0 c G := by
  rw [attArrays_eq V c G A hA, bigSep_W0, attArrBufs_eq]
  iintro ⟨H0l, H0r, H1, H2, H3, H4, H5, H6⟩
  ihave H0 := (pointsTo_share (PosShare.mem_left_op_right fullShare)).2 $$ [H0l H0r]
  · isplitl [H0l]; · iexact H0l
    iexact H0r
  isplitl [H0]; · iexact H0
  isplitl [H1]; · iexact H1
  isplitl [H2]; · iexact H2
  isplitl [H3]; · iexact H3
  isplitl [H4]; · iexact H4
  isplitl [H5]; · iexact H5
  iexact H6

end Shares

/-! ## The region as a segment -/

variable (m : (ℓ : Loc nD τ sig) → Buf (Elt F) ℓ)

theorem W2_of_ne (c : Dev nD) (b : Ref sig .tc) (h : b ≠ main_v6) : W2 m c b = W1 m c b := by
  simp only [W2, Function.update_of_ne (StableHlo.devRef_ne_of_ne h : (Proc.devRef .tc b : DevRef τ sig) ≠ Proc.devRef .tc main_v6)]

theorem W2_self (c : Dev nD) : W2 m c main_v6 = supBuf m c := by
  simp only [W2, Function.update_self]

/-- The buffers no window of the region stages are the same before and after it. -/
theorem attRest_eq (c : Dev nD) :
    (Pipeline.unscopedRest spec0 c (atRefs (W1 m) c) : sProp 𝕄) = Pipeline.unscopedRest spec0 c (atRefs (W2 m) c) := by
  unfold Pipeline.unscopedRest
  exact bigSep_congr fun b hb => by
    rw [show atRefs (W2 m) c b = atRefs (W1 m) c b from
      W2_of_ne m c b fun e => (Finset.mem_sdiff.mp hb).2 (e ▸ Finset.mem_image.mpr ⟨7, Finset.mem_univ _, rfl⟩)]

/-- After the region every window's array holds what the next item's entry contents say. -/
theorem attFinal (c : Dev nD) (w : Fin cfg0.W) : (pdats m 0 c).arrAt w cfg0.N = atRefs (W2 m) c (Pipeline.arrRef spec0 w) := by
  match w with
  | ⟨0, _⟩ => exact ((pdats m 0 c).arrAt_in 0 rfl _).trans (W2_of_ne m c main_arg0 (by decide)).symm
  | ⟨1, _⟩ => exact ((pdats m 0 c).arrAt_in 1 rfl _).trans (W2_of_ne m c main_arg0 (by decide)).symm
  | ⟨2, _⟩ => exact ((pdats m 0 c).arrAt_in 2 rfl _).trans (W2_of_ne m c main_arg1 (by decide)).symm
  | ⟨3, _⟩ => exact ((pdats m 0 c).arrAt_in 3 rfl _).trans (W2_of_ne m c main_arg2 (by decide)).symm
  | ⟨4, _⟩ => exact ((pdats m 0 c).arrAt_in 4 rfl _).trans (W2_of_ne m c main_v1 (by decide)).symm
  | ⟨5, _⟩ => exact ((pdats m 0 c).arrAt_in 5 rfl _).trans (W2_of_ne m c main_v3 (by decide)).symm
  | ⟨6, _⟩ => exact ((pdats m 0 c).arrAt_in 6 rfl _).trans (W2_of_ne m c main_arg4 (by decide)).symm
  | ⟨7, _⟩ => exact (W2_self m c).symm

set_option maxHeartbeats 4000000 in
set_option backward.isDefEq.respectTransparency.types false in
def attRegion : RegionSeg (pcfgs (F := F)) adm (pdats m) () defs₀ Variants.none L lv 0 where
  win := winFacts₀0
  block_pos := block_pos0
  stage_whole := stage_whole0
  K := Fin 0
  osem := fun k => k.elim0
  ho := ⟨fun k => k.elim0, fun k => k.elim0, fun k => k.elim0⟩
  hbody c := (attObligation (atRefs (W1 m)) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest spec0 c (atRefs (W1 m) c)
  hentry c := by
    rw [show StableHlo.held (c : Thread nD τ) (Pipeline.ucRefs τ sig) (W1 m c) = unscopedBufs c (atRefs (W1 m) c) from
      (Pipeline.unscopedBufs_held (Ix := Unit) (Name := ℕ) (U := UR sig nD τ) (Lvl := ℕ) c (W1 m c)).symm,
      Pipeline.unscopedBufs_split₀ cfgs 0 winFacts₀0.arr_unscoped c (atRefs (W1 m) c)]
    iintro ⟨⟨⟨Hab, Hrest⟩, HO, Hp⟩, Hos, -⟩
    ihave Ha := (attSplit (atRefs (W1 m)) c (atRefs (W1 m) c) (fun w => (pdats m 0 c).arrAt w 0) (fun _ => rfl)) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [show (pdats m 0 c).Φ _ = Pipeline.ΦA spec0 c from rfl]; unfold Pipeline.ΦA Pipeline.ownSems0
    rw [show (Finset.univ : Finset (Fin 0)) = ∅ from rfl, BI.bigSep_empty]
    iintro ⟨Hr, Hp⟩
    isplitl [Hp]; · iexact Hp
    isplitr; · iempintro
    iexact Hr
  hexit c := by
    iintro ⟨Ha, HO, HY, HZ⟩
    imodintro
    isplitl [Ha HZ]
    · rw [show StableHlo.held (c : Thread nD τ) (Pipeline.ucRefs τ sig) (W2 m c) = unscopedBufs c (atRefs (W2 m) c) from
        (Pipeline.unscopedBufs_held (Ix := Unit) (Name := ℕ) (U := UR sig nD τ) (Lvl := ℕ) c (W2 m c)).symm,
        Pipeline.unscopedBufs_split₀ cfgs 0 winFacts₀0.arr_unscoped c (atRefs (W2 m) c)]
      isplitl [Ha]
      · iapply (attJoin (atRefs (W1 m)) c (atRefs (W2 m) c) (fun w => (pdats m 0 c).arrAt w cfg0.N) (attFinal m c))
        iexact Ha
      · iapply (Entails.of_eq (attRest_eq m c)); iexact HZ
    · isplitl [HO]
      · unfold Pipeline.Dat.owesAt Pipeline.owesWithin
        icases HO with ⟨%W, -, HO⟩; iexists W; iexact HO
      iexact HY

end Cert.Kernel.Hand

end
-- ==== Proof.WordRecordNormRec.lean ====
/-
  The normalisation-and-reconstruction region as a segment of the program: entered from the contents the aggregation
  region left, left with the reconstruction written back. Its first two windows read ONE array, the aggregated matrix —
  whole, and the point's block of rows —, so the array's full share is dealt between them at the entry, half to each,
  and put together again at the exit; every other window's array is a buffer of its own at the full share.
-/
import proofs.«177283_g481036337857_cont_8to1_c_51_7_alg».proof.Proof.WordRecords

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## One array behind two windows: its share dealt at the entry and put back at the exit -/

section Shares

variable (V : (c : Dev nD) → (b : Ref sig .tc) → Buf (Elt F) ((c : Thread nD τ).loc b))

/-- The distinct buffers behind the region's windows. -/
theorem recImage : (Finset.univ.image (Pipeline.arrRef spec2) : Finset (Ref sig .tc))
    = ([main_v7, main_v4, main_v5, main_v8] : List (Ref sig .tc)).toFinset := by decide

/-- Those buffers, each held whole at the full share, one by one. -/
theorem recArrBufs_eq (c : Dev nD) (G : (b : Ref sig .tc) → Buf (Elt F) ((c : Thread nD τ).loc b)) :
    (Pipeline.arrBufs spec2 c G : sProp 𝕄)
      = iprop((((c : Thread nD τ).loc main_v7) ↦{fullShare} G main_v7)
        ∗ (((c : Thread nD τ).loc main_v4) ↦{fullShare} G main_v4)
        ∗ (((c : Thread nD τ).loc main_v5) ↦{fullShare} G main_v5)
        ∗ (((c : Thread nD τ).loc main_v8) ↦{fullShare} G main_v8)) :=
  bigSep_eq_bigSepL_of_eq [main_v7, main_v4, main_v5, main_v8] recImage (by decide) _

/-- The windows' arrays, each a whole buffer, as plain points-to facts at each window's share. -/
theorem recArrays_eq (c : Dev nD) (G : (b : Ref sig .tc) → Buf (Elt F) ((c : Thread nD τ).loc b))
    (A : (w : Fin cfg2.W) → Buf (Elt F) ((cfg2.win w).arr.view.loc (c : Thread nD τ))) (hA : ∀ w, A w = G (Pipeline.arrRef spec2 w)) :
    ((recDat V c).arrays A : sProp 𝕄)
      = bigSep Finset.univ fun w : Fin cfg2.W => (((c : Thread nD τ).loc (Pipeline.arrRef spec2 w)) ↦{(recDat V c).share w} G (Pipeline.arrRef spec2 w) : sProp 𝕄) := by
  unfold Dat.arrays
  exact bigSep_congr fun w _ => by rw [(arr_whole2 w).set_eq_univ, hA w]

/-- ENTRY: the buffers at the full share make the windows' arrays, the twice-read array's share split in two halves. -/
theorem recSplit (c : Dev nD) (G : (b : Ref sig .tc) → Buf (Elt F) ((c : Thread nD τ).loc b))
    (A : (w : Fin cfg2.W) → Buf (Elt F) ((cfg2.win w).arr.view.loc (c : Thread nD τ))) (hA : ∀ w, A w = G (Pipeline.arrRef spec2 w)) :
    (Pipeline.arrBufs spec2 c G : sProp 𝕄) ⊢ (recDat V c).arrays A := by
  rw [recArrays_eq V c G A hA, bigSep_W2, recArrBufs_eq]
  iintro ⟨H0, H1, H2, H3⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  iexact H3

/-- EXIT: the windows' arrays make the buffers at the full share again, the two halves joined. -/
theorem recJoin (c : Dev nD) (G : (b : Ref sig .tc) → Buf (Elt F) ((c : Thread nD τ).loc b))
    (A : (w : Fin cfg2.W) → Buf (Elt F) ((cfg2.win w).arr.view.loc (c : Thread nD τ))) (hA : ∀ w, A w = G (Pipeline.arrRef spec2 w)) :
    ((recDat V c).arrays A : sProp 𝕄) ⊢ Pipeline.arrBufs spec2 c G := by
  rw [recArrays_eq V c G A hA, bigSep_W2, recArrBufs_eq]
  iintro ⟨H0l, H0r, H1, H2, H3⟩
  ihave H0 := (pointsTo_share (PosShare.mem_left_op_right fullShare)).2 $$ [H0l H0r]
  · isplitl [H0l]; · iexact H0l
    iexact H0r
  isplitl [H0]; · iexact H0
  isplitl [H1]; · iexact H1
  isplitl [H2]; · iexact H2
  iexact H3

end Shares

/-! ## The region as a segment -/

variable (m : (ℓ : Loc nD τ sig) → Buf (Elt F) ℓ)

theorem W4_of_ne (c : Dev nD) (b : Ref sig .tc) (h : b ≠ main_v8) : W4 m c b = W3 m c b := by
  simp only [W4, Function.update_of_ne (StableHlo.devRef_ne_of_ne h : (Proc.devRef .tc b : DevRef τ sig) ≠ Proc.devRef .tc main_v8)]

theorem W4_self (c : Dev nD) : W4 m c main_v8 = recBuf m c := by
  simp only [W4, Function.update_self]

/-- The buffers no window of the region stages are the same before and after it. -/
theorem recRest_eq (c : Dev nD) :
    (Pipeline.unscopedRest spec2 c (atRefs (W3 m) c) : sProp 𝕄) = Pipeline.unscopedRest spec2 c (atRefs (W4 m) c) := by
  unfold Pipeline.unscopedRest
  exact bigSep_congr fun b hb => by
    rw [show atRefs (W4 m) c b = atRefs (W3 m) c b from
      W4_of_ne m c b fun e => (Finset.mem_sdiff.mp hb).2 (e ▸ Finset.mem_image.mpr ⟨4, Finset.mem_univ _, rfl⟩)]

/-- After the region every window's array holds what the next item's entry contents say. -/
theorem recFinal (c : Dev nD) (w : Fin cfg2.W) : (pdats m 2 c).arrAt w cfg2.N = atRefs (W4 m) c (Pipeline.arrRef spec2 w) := by
  match w with
  | ⟨0, _⟩ => exact ((pdats m 2 c).arrAt_in 0 rfl _).trans (W4_of_ne m c main_v7 (by decide)).symm
  | ⟨1, _⟩ => exact ((pdats m 2 c).arrAt_in 1 rfl _).trans (W4_of_ne m c main_v7 (by decide)).symm
  | ⟨2, _⟩ => exact ((pdats m 2 c).arrAt_in 2 rfl _).trans (W4_of_ne m c main_v4 (by decide)).symm
  | ⟨3, _⟩ => exact ((pdats m 2 c).arrAt_in 3 rfl _).trans (W4_of_ne m c main_v5 (by decide)).symm
  | ⟨4, _⟩ => exact (W4_self m c).symm

set_option maxHeartbeats 4000000 in
set_option backward.isDefEq.respectTransparency.types false in
def recRegion : RegionSeg (pcfgs (F := F)) adm (pdats m) () defs₀ Variants.none L lv 2 where
  win := winFacts₀2
  block_pos := block_pos2
  stage_whole := stage_whole2
  K := Fin 0
  osem := fun k => k.elim0
  ho := ⟨fun k => k.elim0, fun k => k.elim0, fun k => k.elim0⟩
  hbody c := (recObligation (atRefs (W3 m)) c).loose
  hwaits := Pipeline.hwaits_of_owed_zero _ _ _ _ L lv 2 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest spec2 c (atRefs (W3 m) c)
  hentry c := by
    rw [show StableHlo.held (c : Thread nD τ) (Pipeline.ucRefs τ sig) (W3 m c) = unscopedBufs c (atRefs (W3 m) c) from
      (Pipeline.unscopedBufs_held (Ix := Unit) (Name := ℕ) (U := UR sig nD τ) (Lvl := ℕ) c (W3 m c)).symm,
      Pipeline.unscopedBufs_split₀ cfgs 2 winFacts₀2.arr_unscoped c (atRefs (W3 m) c)]
    iintro ⟨⟨⟨Hab, Hrest⟩, HO, Hp⟩, Hos, -⟩
    ihave Ha := (recSplit (atRefs (W3 m)) c (atRefs (W3 m) c) (fun w => (pdats m 2 c).arrAt w 0) (fun _ => rfl)) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [show (pdats m 2 c).Φ _ = Pipeline.ΦA spec2 c from rfl]; unfold Pipeline.ΦA Pipeline.ownSems0
    rw [show (Finset.univ : Finset (Fin 0)) = ∅ from rfl, BI.bigSep_empty]
    iintro ⟨Hr, Hp⟩
    isplitl [Hp]; · iexact Hp
    isplitr; · iempintro
    iexact Hr
  hexit c := by
    iintro ⟨Ha, HO, HY, HZ⟩
    imodintro
    isplitl [Ha HZ]
    · rw [show StableHlo.held (c : Thread nD τ) (Pipeline.ucRefs τ sig) (W4 m c) = unscopedBufs c (atRefs (W4 m) c) from
        (Pipeline.unscopedBufs_held (Ix := Unit) (Name := ℕ) (U := UR sig nD τ) (Lvl := ℕ) c (W4 m c)).symm,
        Pipeline.unscopedBufs_split₀ cfgs 2 winFacts₀2.arr_unscoped c (atRefs (W4 m) c)]
      isplitl [Ha]
      · iapply (recJoin (atRefs (W3 m)) c (atRefs (W4 m) c) (fun w => (pdats m 2 c).arrAt w cfg2.N) (recFinal m c))
        iexact Ha
      · iapply (Entails.of_eq (recRest_eq m c)); iexact HZ
    · isplitl [HO]
      · unfold Pipeline.Dat.owesAt Pipeline.owesWithin
        icases HO with ⟨%W, -, HO⟩; iexists W; iexact HO
      iexact HY

end Cert.Kernel.Hand

end
-- ==== Proof.WordKernelRun.lean ====
/-
  The kernel program's run. The program is a host stretch (two slices of the attention vector and four reshapes) and
  then three kernel regions, each a grid of sixteen points. From any memory with zero semaphore counters every weakly
  fair execution terminates without a fault; the seven argument arrays end as they were, and the result array ends
  holding what the last region's sixteen write-backs leave in it — which, through the three regions' proof data, is a
  function of the argument arrays alone.
-/
import proofs.«177283_g481036337857_cont_8to1_c_51_7_alg».proof.Proof.WordRecordAttention
import proofs.«177283_g481036337857_cont_8to1_c_51_7_alg».proof.Proof.WordRecordNormRec

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- The pipeline library's algebra is the whole user algebra. -/
abbrev EP : Emb (UR sig nD τ) (MT nD τ sig Unit (Elt F) ℕ (UR sig nD τ) ℕ) := emb₁

/-- The launch element: the pipeline library's at the three regions' staging cells. -/
def u₀ : UR sig nD τ := initOf (Pipeline.cells cfgs cellOf_inj) (Pipeline.launchToks cfgs cellOf_inj)

/-- The host stretch as a segment, the rest riding along. -/
abbrev hostSeg : HostSeg (Ix := Unit) (Name := ℕ) (U := UR sig nD τ) (Lvl := ℕ) (pcfgs (F := F)) defs₀ Variants.none L lv :=
  seg0 m Variants.none L lv (fun _ : Fin 4 => Rest (F := F))

/-- A buffer that no host operation and no region writes ends as launched. -/
theorem kept (c : Dev nD) (r : Ref sig .tc) (h6 : r ≠ main_v6) (h7 : r ≠ main_v7) (h8 : r ≠ main_v8) (hh : r ∉ hostOps0_W) :
    W4 m c r = m ((c : Thread nD τ).loc r) :=
  (W4_of_ne m c r h8).trans <| (W3_of_ne m c r h7).trans <| (W2_of_ne m c r h6).trans <| (V1_of m c r hh).trans rfl

set_option maxHeartbeats 4000000 in
set_option backward.isDefEq.respectTransparency.types false in
/-- THE RUN, for any float instance: termination without a fault, the result array at `recBuf`, the arguments unchanged. -/
theorem kernelRun : θ_run defs (onTc (τ := τ) (main (F := F))) ⟨m, fun _ => 0, ρ⟩ (fun r => ∀ c : Dev nD,
      r.2.mem ((c.tc : Thread nD τ).loc main_v8) = recBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m) () cellOf_inj EP defs₀ Variants.none L lv m ρ main
    (fun _ => [.host (hostSeg m), .region (attRegion m), .region (aggRegion m), .region (recRegion m)])
    (fun c Q => by
      rewrite [main_chain c, Seg.run_eq_chain,
        show ([.host (hostSeg m), .region (attRegion m), .region (aggRegion m), .region (recRegion m)] :
            List (Seg (pcfgs (F := F)) adm (pdats m) () defs₀ Variants.none L lv)).map Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (fun c => by simp only [Seg.pipes_host, Seg.pipes_region, Seg.pipes_nil]; decide) (O₀ := 0) (hL := fun _ _ => rfl)
    (G := fun _ => iprop(emp)) (u₀ := u₀) (hu₀ := ?_)
    (T₀ := fun c => iprop(StableHlo.held (c : Thread nD τ) (Pipeline.ucRefs τ sig) (V0 m c) ∗ Rest c))
    (Tₙ := fun c => iprop(StableHlo.held (c : Thread nD τ) (Pipeline.ucRefs τ sig) (W4 m c) ∗ ∃ r, prngReg c r))
    (hch := fun c => ⟨.rfl, .rfl, .rfl, .rfl, ?_⟩)
    (hinit := ?_) (QY := fun c s => s.mem ((c.tc : Thread nD τ).loc main_v8) = recBuf m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch element is the pipeline library's
    unfold u₀
    rw [ownU_emb₁]
    iintro HP
    imodintro
    isplitl [HP]; · iexact HP
    iapply (show (BI.emp : sProp 𝕄) ⊢ bigSep Finset.univ (fun _ : Dev nD => (BI.emp : sProp 𝕄)) from by rw [BI.bigSep_emp_const])
    iempintro
  · -- the last region's exit state, re-associated
    show iprop(StableHlo.held (c : Thread nD τ) (Pipeline.ucRefs τ sig) (W4 m c) ∗ Rest c)
      ⊢ iprop((StableHlo.held (c : Thread nD τ) (Pipeline.ucRefs τ sig) (W4 m c) ∗ ∃ r, prngReg c r)
          ∗ ∃ W, owes (c : Thread nD τ) (0 : CellTallies nD τ sig Unit) W)
    iintro ⟨Hh, HO, Hp⟩
    isplitr [HO]
    · isplitl [Hh]; · iexact Hh
      iexact Hp
    · iexact HO
  · -- the launch: the unscoped buffers held at the launch memory, the core owing nothing, its generator register
    refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists ∅; iexact HO
    iexists _; iexact Hp
  · -- the end: the result and each argument read off the last valuation
    unfold StableHlo.held
    iintro ⟨⟨Hh, -⟩, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact ⟨(h (Proc.devRef .tc main_v8) (Finset.mem_filter.mpr ⟨StableHlo.devRef_mem_tcRefs main_v8, by decide⟩)).trans (W4_self m c),
        (h (Proc.devRef .tc main_arg0) (Finset.mem_filter.mpr ⟨StableHlo.devRef_mem_tcRefs main_arg0, by decide⟩)).trans (kept m c main_arg0 (by decide) (by decide) (by decide) (by decide)),
        (h (Proc.devRef .tc main_arg1) (Finset.mem_filter.mpr ⟨StableHlo.devRef_mem_tcRefs main_arg1, by decide⟩)).trans (kept m c main_arg1 (by decide) (by decide) (by decide) (by decide)),
        (h (Proc.devRef .tc main_arg2) (Finset.mem_filter.mpr ⟨StableHlo.devRef_mem_tcRefs main_arg2, by decide⟩)).trans (kept m c main_arg2 (by decide) (by decide) (by decide) (by decide)),
        (h (Proc.devRef .tc main_arg3) (Finset.mem_filter.mpr ⟨StableHlo.devRef_mem_tcRefs main_arg3, by decide⟩)).trans (kept m c main_arg3 (by decide) (by decide) (by decide) (by decide)),
        (h (Proc.devRef .tc main_arg4) (Finset.mem_filter.mpr ⟨StableHlo.devRef_mem_tcRefs main_arg4, by decide⟩)).trans (kept m c main_arg4 (by decide) (by decide) (by decide) (by decide)),
        (h (Proc.devRef .tc main_arg5) (Finset.mem_filter.mpr ⟨StableHlo.devRef_mem_tcRefs main_arg5, by decide⟩)).trans (kept m c main_arg5 (by decide) (by decide) (by decide) (by decide)),
        (h (Proc.devRef .tc main_arg6) (Finset.mem_filter.mpr ⟨StableHlo.devRef_mem_tcRefs main_arg6, by decide⟩)).trans (kept m c main_arg6 (by decide) (by decide) (by decide) (by decide))⟩
    · iexact HSI

end Cert.Kernel.Hand

end
-- ==== Proof.RefTerm.lean ====
/-
  The reference program's result as ONE pure term of its seven argument arrays, cut into the stages of the
  computation it performs: the projected features x · W; the two attention scores per row; the masked leaky-ReLU
  logits; the row softmax; the attended features times the graph-convolution weight; the rectified neighbour
  aggregation; the column mean and the biased column variance; the batch normalisation; and the inner-product
  reconstruction. Each definition is the composition of the host operations that compute that stage, in the
  program's own order and spelling, so that the run of the program ends at `refTerm` by unfolding alone.
-/
import proofs.«177283_g481036337857_cont_8to1_c_51_7_alg».proof.Proof.Gen.ReferenceIdeal
import Idealize.ShloMosaic.PureOps.Ideal

noncomputable section

namespace Cert.ReferenceIdeal.RefValue

open Cert.ReferenceIdeal Cert.ReferenceIdeal.Gen Idealize.ShloMosaic

/-! ## Stage 1: attention and the graph convolution's support -/

/-- The projected features x · W. -/
def proj (x : FVec Ideal S4096x16 .f32) (W : FVec Ideal S16x16 .f32) : FVec Ideal S4096x16 .f32 :=
  Host.dotGeneral (F := Ideal) dot_S4096x16_S16x16_S4096x16_1_0_0_1_n_n none x W

/-- The source-row score, a column: h · (rows 0 … 15 of a). -/
def srcCol (h : FVec Ideal S4096x16 .f32) (a : FVec Ideal S32x1 .f32) : FVec Ideal S4096x1 .f32 :=
  Host.dotGeneral (F := Ideal) dot_S4096x16_S16x1_S4096x1_1_0_0_1_n_n none h
    (extractStridedSlice S16x1 ![0, 0] a slices_S32x1_S16x1_0_0)

/-- The target-row score, a column: h · (rows 16 … 31 of a). -/
def dstCol (h : FVec Ideal S4096x16 .f32) (a : FVec Ideal S32x1 .f32) : FVec Ideal S4096x1 .f32 :=
  Host.dotGeneral (F := Ideal) dot_S4096x16_S16x1_S4096x1_1_0_0_1_n_n none h
    (extractStridedSlice S16x1 ![16, 0] a slices_S32x1_S16x1_16_0)

/-- The attention logit at (i, j): the source score of row i plus the target score of row j. -/
def logit (h : FVec Ideal S4096x16 .f32) (a : FVec Ideal S32x1 .f32) : FVec Ideal S4096x4096 .f32 :=
  addf (broadcastInDim S4096x4096 ![0, 1] bcast_S4096x1_S4096x4096_0_1 (srcCol h a))
    (broadcastInDim S4096x4096 ![0, 1] bcast_S1x4096_S4096x4096_0_1
      (transpose S1x4096 [1, 0] (dstCol h a) transposes_S4096x1_S1x4096_1_0))

/-- Leaky ReLU with slope 0.2, entry by entry: z where z ≥ 0, 0.2 · z elsewhere. -/
def leakyT (z : FVec Ideal S4096x4096 .f32) : FVec Ideal S4096x4096 .f32 :=
  select (cmpf .oge z (broadcastInDim S4096x4096 ![] bcast_S_S4096x4096 (constant (F := Ideal) S_ .f32 0x00000000#32)))
    z
    (mulf (broadcastInDim S4096x4096 ![] bcast_S_S4096x4096 (constant (F := Ideal) S_ .f32 0x3E4CCCCD#32)) z)

/-- The masked logits: the leaky-ReLU logit where adj > 0, the finite fill value elsewhere. -/
def maskedT (adj z : FVec Ideal S4096x4096 .f32) : FVec Ideal S4096x4096 .f32 :=
  select (cmpf .ogt adj (broadcastInDim S4096x4096 ![] bcast_S_S4096x4096 (constant (F := Ideal) S_ .f32 0x00000000#32)))
    (leakyT z)
    (broadcastInDim S4096x4096 ![] bcast_S_S4096x4096 (constant (F := Ideal) S_ .f32 0xD9FFCB9E#32))

/-- The row maximum: the maximum-reduce along the second axis from −∞, then once more against −∞. -/
def rowMaxT (s : FVec Ideal S4096x4096 .f32) : FVec Ideal S4096 .f32 :=
  maximumf (broadcastInDim S4096 ![] bcast_S_S4096 (constant (F := Ideal) S_ .f32 0xFF800000#32))
    (Host.reduce FloatOps.maximumf s (constant (F := Ideal) S_ .f32 0xFF800000#32) reducesTo_S4096x4096_S4096_d1 h_S_)

/-- exp (s − row maximum). -/
def expT (s : FVec Ideal S4096x4096 .f32) : FVec Ideal S4096x4096 .f32 :=
  Host.exp (subf s (broadcastInDim S4096x4096 ![0, 1] bcast_S4096x1_S4096x4096_0_1
    (broadcastInDim S4096x1 ![0] bcast_S4096_S4096x1_0 (rowMaxT s))))

/-- The row sum of e, from zero. -/
def rowSumT (e : FVec Ideal S4096x4096 .f32) : FVec Ideal S4096 .f32 :=
  Host.reduceAdd (F := Ideal) e (constant (F := Ideal) S_ .f32 0x00000000#32) reducesTo_S4096x4096_S4096_d1 h_S_

/-- The row softmax of s. -/
def attT (s : FVec Ideal S4096x4096 .f32) : FVec Ideal S4096x4096 .f32 :=
  Host.divf (expT s) (broadcastInDim S4096x4096 ![0, 1] bcast_S4096x1_S4096x4096_0_1
    (broadcastInDim S4096x1 ![0] bcast_S4096_S4096x1_0 (rowSumT (expT s))))

/-- The graph convolution's support: (att · h) · Wgc, with h = x · W. -/
def supportT (x : FVec Ideal S4096x16 .f32) (adj : FVec Ideal S4096x4096 .f32) (W : FVec Ideal S16x16 .f32)
    (a : FVec Ideal S32x1 .f32) (Wgc : FVec Ideal S16x32 .f32) : FVec Ideal S4096x32 .f32 :=
  Host.dotGeneral (F := Ideal) dot_S4096x16_S16x32_S4096x32_1_0_0_1_n_n none
    (Host.dotGeneral (F := Ideal) dot_S4096x4096_S4096x16_S4096x16_1_0_0_1_n_n none
      (attT (maskedT adj (logit (proj x W) a))) (proj x W))
    Wgc

/-! ## Stage 2: aggregation over neighbours -/

/-- max (adj · s) 0. -/
def aggT (adj : FVec Ideal S4096x4096 .f32) (s : FVec Ideal S4096x32 .f32) : FVec Ideal S4096x32 .f32 :=
  maximumf (Host.dotGeneral (F := Ideal) dot_S4096x4096_S4096x32_S4096x32_1_0_0_1_n_n none adj s)
    (broadcastInDim S4096x32 ![] bcast_S_S4096x32 (constant (F := Ideal) S_ .f32 0x00000000#32))

/-! ## Stage 3: batch normalisation and the reconstruction -/

/-- The column sum of o, from zero. -/
def colSumT (o : FVec Ideal S4096x32 .f32) : FVec Ideal S32 .f32 :=
  Host.reduceAdd (F := Ideal) o (constant (F := Ideal) S_ .f32 0x00000000#32) reducesTo_S4096x32_S32_d0 h_S_

/-- The column mean: the column sum over 4096. -/
def meanT (o : FVec Ideal S4096x32 .f32) : FVec Ideal S32 .f32 :=
  Host.divf (colSumT o) (broadcastInDim S32 ![] bcast_S_S32 (constant (F := Ideal) S_ .f32 0x45800000#32))

/-- The column mean once more, as the variance computes it: kept as a one-row matrix. -/
def meanRowT (o : FVec Ideal S4096x32 .f32) : FVec Ideal S1x32 .f32 :=
  Host.divf (broadcastInDim S1x32 ![1] bcast_S32_S1x32_1 (colSumT o))
    (broadcastInDim S1x32 ![] bcast_S_S1x32 (constant (F := Ideal) S_ .f32 0x45800000#32))

/-- The centred value inside the variance. -/
def cenVarT (o : FVec Ideal S4096x32 .f32) : FVec Ideal S4096x32 .f32 :=
  subf o (broadcastInDim S4096x32 ![0, 1] bcast_S1x32_S4096x32_0_1 (meanRowT o))

/-- The variance's divisor: 4096 minus the correction, the integer 0 converted to a float. -/
def countT : FVec Ideal S_ .f32 :=
  subf (constant (F := Ideal) S_ .f32 0x45800000#32) (sitofp (F := Ideal) .f32 (constantI S_ 32 0#32))

/-- The column variance: the sum of squared centred values over the divisor where the divisor is positive, the
    not-a-number word elsewhere. -/
def varT (o : FVec Ideal S4096x32 .f32) : FVec Ideal S32 .f32 :=
  select (broadcastInDim S32 ![] bcast_S_S32 (cmpf .ogt countT (constant (F := Ideal) S_ .f32 0x00000000#32)))
    (Host.divf
      (Host.reduceAdd (F := Ideal) (mulf (cenVarT o) (cenVarT o)) (constant (F := Ideal) S_ .f32 0x00000000#32)
        reducesTo_S4096x32_S32_d0 h_S_)
      (broadcastInDim S32 ![] bcast_S_S32 countT))
    (broadcastInDim S32 ![] bcast_S_S32 (constant (F := Ideal) S_ .f32 0x7FC00000#32))

/-- √(variance + ε), per column. -/
def sdT (o : FVec Ideal S4096x32 .f32) : FVec Ideal S32 .f32 :=
  Host.sqrt (addf (varT o) (broadcastInDim S32 ![] bcast_S_S32 (constant (F := Ideal) S_ .f32 0x3727C5AC#32)))

/-- A vector of 32 as a 4096 × 32 matrix, every row the vector. -/
def rows (v : FVec Ideal S32 .f32) : FVec Ideal S4096x32 .f32 :=
  broadcastInDim S4096x32 ![0, 1] bcast_S1x32_S4096x32_0_1 (broadcastInDim S1x32 ![1] bcast_S32_S1x32_1 v)

/-- Batch normalisation: ((o − mean) / √(var + ε)) · gamma + beta. -/
def normT (o : FVec Ideal S4096x32 .f32) (gamma beta : FVec Ideal S32 .f32) : FVec Ideal S4096x32 .f32 :=
  addf (mulf (Host.divf (subf o (rows (meanT o))) (rows (sdT o))) (rows gamma)) (rows beta)

/-- The inner-product reconstruction n · nᵀ. -/
def recT (n : FVec Ideal S4096x32 .f32) : FVec Ideal S4096x4096 .f32 :=
  Host.dotGeneral (F := Ideal) dot_S4096x32_S32x4096_S4096x4096_1_0_0_1_n_n none n
    (transpose S32x4096 [1, 0] n transposes_S4096x32_S32x4096_1_0)

/-! ## The whole term -/

/-- What the reference program leaves in its result buffer, as a function of its seven argument arrays. -/
def refTerm (x : FVec Ideal S4096x16 .f32) (adj : FVec Ideal S4096x4096 .f32) (W : FVec Ideal S16x16 .f32)
    (a : FVec Ideal S32x1 .f32) (Wgc : FVec Ideal S16x32 .f32) (gamma beta : FVec Ideal S32 .f32) :
    FVec Ideal S4096x4096 .f32 :=
  recT (normT (aggT adj (supportT x adj W a Wgc)) gamma beta)

end Cert.ReferenceIdeal.RefValue

end
-- ==== Proof.RefRun.lean ====
/-
  The reference program's run. Its @main is a straight line of host operations once the calls to its
  module-local functions (the leaky ReLU and its select, the mask's select, the ReLU, the variance and its
  select) are unfolded at their call sites over the calls' own buffers: eighty-nine operations, each writing
  one buffer of its own from the whole contents of its operands. Every weakly fair execution therefore
  terminates with each buffer at the fold of the operations over the launch contents; at the result buffer
  that fold is `refTerm` of the seven argument arrays, and at an argument buffer, which no operation writes,
  it is what was there.
-/
import proofs.«177283_g481036337857_cont_8to1_c_51_7_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's eighty-nine operations in order, the calls unfolded: the leaky ReLU is seven (the zero and its
    broadcast, the comparison, the slope converted to its own type and broadcast, the product, the select), each
    plain select one, the ReLU three (the zero, its broadcast, the maximum), the variance twenty-two (the column
    sum, the mean as a row, the centred values and their squares, the divisor 4096 − 0, the sum of squares over
    it, the divisor's sign, and the select's three). -/
abbrev ops : List (HloOp τ sig (Elt F)) :=
  [
    StableHlo.binary main_arg0 main_arg2 main_v0 ((fun l r => Host.dotGeneral dot_S4096x16_S16x16_S4096x16_1_0_0_1_n_n none l r) : (⟨S4096x16, .f32⟩ : BufTy).Contents (Elt F) → (⟨S16x16, .f32⟩ : BufTy).Contents (Elt F) → (⟨S4096x16, .f32⟩ : BufTy).Contents (Elt F)),
    StableHlo.unary main_arg3 main_v1 ((extractStridedSlice S16x1 ![0, 0] · slices_S32x1_S16x1_0_0) : (⟨S32x1, .f32⟩ : BufTy).Contents (Elt F) → (⟨S16x1, .f32⟩ : BufTy).Contents (Elt F)),
    StableHlo.binary main_v0 main_v1 main_v2 ((fun l r => Host.dotGeneral dot_S4096x16_S16x1_S4096x1_1_0_0_1_n_n none l r) : (⟨S4096x16, .f32⟩ : BufTy).Contents (Elt F) → (⟨S16x1, .f32⟩ : BufTy).Contents (Elt F) → (⟨S4096x1, .f32⟩ : BufTy).Contents (Elt F)),
    StableHlo.unary main_arg3 main_v3 ((extractStridedSlice S16x1 ![16, 0] · slices_S32x1_S16x1_16_0) : (⟨S32x1, .f32⟩ : BufTy).Contents (Elt F) → (⟨S16x1, .f32⟩ : BufTy).Contents (Elt F)),
    StableHlo.binary main_v0 main_v3 main_v4 ((fun l r => Host.dotGeneral dot_S4096x16_S16x1_S4096x1_1_0_0_1_n_n none l r) : (⟨S4096x16, .f32⟩ : BufTy).Contents (Elt F) → (⟨S16x1, .f32⟩ : BufTy).Contents (Elt F) → (⟨S4096x1, .f32⟩ : BufTy).Contents (Elt F)),
    StableHlo.unary main_v4 main_v5 ((transpose S1x4096 [1, 0] · transposes_S4096x1_S1x4096_1_0) : (⟨S4096x1, .f32⟩ : BufTy).Contents (Elt F) → (⟨S1x4096, .f32⟩ : BufTy).Contents (Elt F)),
    StableHlo.unary main_v2 main_v6 (broadcastInDim S4096x4096 ![0, 1] bcast_S4096x1_S4096x4096_0_1 : (⟨S4096x1, .f32⟩ : BufTy).Contents (Elt F) → (⟨S4096x4096, .f32⟩ : BufTy).Contents (Elt F)),
    StableHlo.unary main_v5 main_v7 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v6 main_v7 main_v8 (addf : (⟨S4096x4096, .f32⟩ : BufTy).Contents (Elt F) → (⟨S4096x4096, .f32⟩ : BufTy).Contents (Elt F) → (⟨S4096x4096, .f32⟩ : BufTy).Contents (Elt F)),
    StableHlo.nullary main_cst (constant S_ .f32 0x3E4CCCCD#32),
    StableHlo.TRef.nullary main_call0.cst (constant S_ .f32 0x00000000#32),
    StableHlo.TRef.unary main_call0.cst main_call0.v0 (broadcastInDim S4096x4096 ![] bcast_S_S4096x4096),
    StableHlo.TRef.binary (StableHlo.TRef.of main_v8 : StableHlo.TRef sig ⟨S4096x4096, .f32⟩) main_call0.v0 main_call0.v1 (cmpf .oge),
    StableHlo.TRef.unary (StableHlo.TRef.of main_cst : StableHlo.TRef sig ⟨S_, .f32⟩) main_call0.v2 id,
    StableHlo.TRef.unary main_call0.v2 main_call0.v3 (broadcastInDim S4096x4096 ![] bcast_S_S4096x4096),
    StableHlo.TRef.binary main_call0.v3 (StableHlo.TRef.of main_v8 : StableHlo.TRef sig ⟨S4096x4096, .f32⟩) main_call0.v4 mulf,
    StableHlo.TRef.ternary main_call0.v1 (StableHlo.TRef.of main_v8 : StableHlo.TRef sig ⟨S4096x4096, .f32⟩) main_call0.v4 main_call0.call0.v0 select,
    StableHlo.nullary main_cst_0 (constant S_ .f32 0xD9FFCB9E#32),
    StableHlo.unary main_cst_0 main_v10 (broadcastInDim S4096x4096 ![] bcast_S_S4096x4096 : (⟨S_, .f32⟩ : BufTy).Contents (Elt F) → (⟨S4096x4096, .f32⟩ : BufTy).Contents (Elt F)),
    StableHlo.nullary main_cst_1 (constant S_ .f32 0x00000000#32),
    StableHlo.unary main_cst_1 main_v11 (broadcastInDim S4096x4096 ![] bcast_S_S4096x4096 : (⟨S_, .f32⟩ : BufTy).Contents (Elt F) → (⟨S4096x4096, .f32⟩ : BufTy).Contents (Elt F)),
    StableHlo.binary main_arg1 main_v11 main_v12 (cmpf .ogt : (⟨S4096x4096, .f32⟩ : BufTy).Contents (Elt F) → (⟨S4096x4096, .f32⟩ : BufTy).Contents (Elt F) → (⟨S4096x4096, .i1⟩ : BufTy).Contents (Elt F)),
    StableHlo.TRef.ternary (StableHlo.TRef.of main_v12 : StableHlo.TRef sig ⟨S4096x4096, .i1⟩) (StableHlo.TRef.of main_v9 : StableHlo.TRef sig ⟨S4096x4096, .f32⟩) (StableHlo.TRef.of main_v10 : StableHlo.TRef sig ⟨S4096x4096, .f32⟩) main_call1.v0 select,
    StableHlo.nullary main_cst_2 (constant S_ .f32 0xFF800000#32),
    StableHlo.binary main_v13 main_cst_2 main_v14 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_3 (constant S_ .f32 0xFF800000#32),
    StableHlo.unary main_cst_3 main_v15 (broadcastInDim S4096 ![] bcast_S_S4096 : (⟨S_, .f32⟩ : BufTy).Contents (Elt F) → (⟨S4096, .f32⟩ : BufTy).Contents (Elt F)),
    StableHlo.binary main_v15 main_v14 main_v16 (maximumf : (⟨S4096, .f32⟩ : BufTy).Contents (Elt F) → (⟨S4096, .f32⟩ : BufTy).Contents (Elt F) → (⟨S4096, .f32⟩ : BufTy).Contents (Elt F)),
    StableHlo.unary main_v16 main_v17 (broadcastInDim S4096x1 ![0] bcast_S4096_S4096x1_0 : (⟨S4096, .f32⟩ : BufTy).Contents (Elt F) → (⟨S4096x1, .f32⟩ : BufTy).Contents (Elt F)),
    StableHlo.unary main_v17 main_v18 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v13 main_v18 main_v19 (subf : (⟨S4096x4096, .f32⟩ : BufTy).Contents (Elt F) → (⟨S4096x4096, .f32⟩ : BufTy).Contents (Elt F) → (⟨S4096x4096, .f32⟩ : BufTy).Contents (Elt F)),
    StableHlo.unary main_v19 main_v20 (Host.exp : (⟨S4096x4096, .f32⟩ : BufTy).Contents (Elt F) → (⟨S4096x4096, .f32⟩ : BufTy).Contents (Elt F)),
    StableHlo.nullary main_cst_4 (constant S_ .f32 0x00000000#32),
    StableHlo.binary main_v20 main_cst_4 main_v21 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v21 main_v22 (broadcastInDim S4096x1 ![0] bcast_S4096_S4096x1_0 : (⟨S4096, .f32⟩ : BufTy).Contents (Elt F) → (⟨S4096x1, .f32⟩ : BufTy).Contents (Elt F)),
    StableHlo.unary main_v22 main_v23 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v20 main_v23 main_v24 (Host.divf : (⟨S4096x4096, .f32⟩ : BufTy).Contents (Elt F) → (⟨S4096x4096, .f32⟩ : BufTy).Contents (Elt F) → (⟨S4096x4096, .f32⟩ : BufTy).Contents (Elt F)),
    StableHlo.binary main_v24 main_v0 main_v25 ((fun l r => Host.dotGeneral dot_S4096x4096_S4096x16_S4096x16_1_0_0_1_n_n none l r) : (⟨S4096x4096, .f32⟩ : BufTy).Contents (Elt F) → (⟨S4096x16, .f32⟩ : BufTy).Contents (Elt F) → (⟨S4096x16, .f32⟩ : BufTy).Contents (Elt F)),
    StableHlo.binary main_v25 main_arg4 main_v26 ((fun l r => Host.dotGeneral dot_S4096x16_S16x32_S4096x32_1_0_0_1_n_n none l r) : (⟨S4096x16, .f32⟩ : BufTy).Contents (Elt F) → (⟨S16x32, .f32⟩ : BufTy).Contents (Elt F) → (⟨S4096x32, .f32⟩ : BufTy).Contents (Elt F)),
    StableHlo.binary main_arg1 main_v26 main_v27 ((fun l r => Host.dotGeneral dot_S4096x4096_S4096x32_S4096x32_1_0_0_1_n_n none l r) : (⟨S4096x4096, .f32⟩ : BufTy).Contents (Elt F) → (⟨S4096x32, .f32⟩ : BufTy).Contents (Elt F) → (⟨S4096x32, .f32⟩ : BufTy).Contents (Elt F)),
    StableHlo.TRef.nullary main_call2.cst (constant S_ .f32 0x00000000#32),
    StableHlo.TRef.unary main_call2.cst main_call2.v0 (broadcastInDim S4096x32 ![] bcast_S_S4096x32),
    StableHlo.TRef.binary (StableHlo.TRef.of main_v27 : StableHlo.TRef sig ⟨S4096x32, .f32⟩) main_call2.v0 main_call2.v1 maximumf,
    StableHlo.nullary main_cst_5 (constant S_ .f32 0x00000000#32),
    StableHlo.binary main_v28 main_cst_5 main_v29 ((fun x v => Host.reduceAdd x v reducesTo_S4096x32_S32_d0 h_S_) : (⟨S4096x32, .f32⟩ : BufTy).Contents (Elt F) → (⟨S_, .f32⟩ : BufTy).Contents (Elt F) → (⟨S32, .f32⟩ : BufTy).Contents (Elt F)),
    StableHlo.nullary main_cst_6 (constant S_ .f32 0x45800000#32),
    StableHlo.unary main_cst_6 main_v30 (broadcastInDim S32 ![] bcast_S_S32 : (⟨S_, .f32⟩ : BufTy).Contents (Elt F) → (⟨S32, .f32⟩ : BufTy).Contents (Elt F)),
    StableHlo.binary main_v29 main_v30 main_v31 (Host.divf : (⟨S32, .f32⟩ : BufTy).Contents (Elt F) → (⟨S32, .f32⟩ : BufTy).Contents (Elt F) → (⟨S32, .f32⟩ : BufTy).Contents (Elt F)),
    StableHlo.nullary main_c (constantI S_ 32 0#32),
    StableHlo.TRef.nullary main_call3.cst (constant S_ .f32 0x00000000#32),
    StableHlo.TRef.binary (StableHlo.TRef.of main_v28 : StableHlo.TRef sig ⟨S4096x32, .f32⟩) main_call3.cst main_call3.v0 (fun x v => Host.reduceAdd x v reducesTo_S4096x32_S32_d0 h_S_),
    StableHlo.TRef.unary main_call3.v0 main_call3.v1 (broadcastInDim S1x32 ![1] bcast_S32_S1x32_1),
    StableHlo.TRef.nullary main_call3.cst_0 (constant S_ .f32 0x45800000#32),
    StableHlo.TRef.unary main_call3.cst_0 main_call3.v2 (broadcastInDim S1x32 ![] bcast_S_S1x32),
    StableHlo.TRef.binary main_call3.v1 main_call3.v2 main_call3.v3 Host.divf,
    StableHlo.TRef.unary main_call3.v3 main_call3.v4 (broadcastInDim S4096x32 ![0, 1] bcast_S1x32_S4096x32_0_1),
    StableHlo.TRef.binary (StableHlo.TRef.of main_v28 : StableHlo.TRef sig ⟨S4096x32, .f32⟩) main_call3.v4 main_call3.v5 subf,
    StableHlo.TRef.binary main_call3.v5 main_call3.v5 main_call3.v6 mulf,
    StableHlo.TRef.unary (StableHlo.TRef.of main_c : StableHlo.TRef sig ⟨S_, .i32⟩) main_call3.v7 (sitofp .f32),
    StableHlo.TRef.nullary main_call3.cst_1 (constant S_ .f32 0x45800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S4096x32_S32_d0 h_S_),
    StableHlo.TRef.unary main_call3.v8 main_call3.v10 (broadcastInDim S32 ![] bcast_S_S32),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S32 ![] bcast_S_S32),
    StableHlo.TRef.ternary main_call3.v12 main_call3.v11 main_call3.call0.v1 main_call3.call0.v2 (fun p a b => select (broadcastInDim S32 ![] bcast_S_S32 p) a b),
    StableHlo.unary main_v31 main_v33 (broadcastInDim S1x32 ![1] bcast_S32_S1x32_1 : (⟨S32, .f32⟩ : BufTy).Contents (Elt F) → (⟨S1x32, .f32⟩ : BufTy).Contents (Elt F)),
    StableHlo.unary main_v33 main_v34 (broadcastInDim S4096x32 ![0, 1] bcast_S1x32_S4096x32_0_1 : (⟨S1x32, .f32⟩ : BufTy).Contents (Elt F) → (⟨S4096x32, .f32⟩ : BufTy).Contents (Elt F)),
    StableHlo.binary main_v28 main_v34 main_v35 (subf : (⟨S4096x32, .f32⟩ : BufTy).Contents (Elt F) → (⟨S4096x32, .f32⟩ : BufTy).Contents (Elt F) → (⟨S4096x32, .f32⟩ : BufTy).Contents (Elt F)),
    StableHlo.nullary main_cst_7 (constant S_ .f32 0x3727C5AC#32),
    StableHlo.unary main_cst_7 main_v36 (broadcastInDim S32 ![] bcast_S_S32 : (⟨S_, .f32⟩ : BufTy).Contents (Elt F) → (⟨S32, .f32⟩ : BufTy).Contents (Elt F)),
    StableHlo.binary main_v32 main_v36 main_v37 (addf : (⟨S32, .f32⟩ : BufTy).Contents (Elt F) → (⟨S32, .f32⟩ : BufTy).Contents (Elt F) → (⟨S32, .f32⟩ : BufTy).Contents (Elt F)),
    StableHlo.unary main_v37 main_v38 (Host.sqrt : (⟨S32, .f32⟩ : BufTy).Contents (Elt F) → (⟨S32, .f32⟩ : BufTy).Contents (Elt F)),
    StableHlo.unary main_v38 main_v39 (broadcastInDim S1x32 ![1] bcast_S32_S1x32_1 : (⟨S32, .f32⟩ : BufTy).Contents (Elt F) → (⟨S1x32, .f32⟩ : BufTy).Contents (Elt F)),
    StableHlo.unary main_v39 main_v40 (broadcastInDim S4096x32 ![0, 1] bcast_S1x32_S4096x32_0_1 : (⟨S1x32, .f32⟩ : BufTy).Contents (Elt F) → (⟨S4096x32, .f32⟩ : BufTy).Contents (Elt F)),
    StableHlo.binary main_v35 main_v40 main_v41 (Host.divf : (⟨S4096x32, .f32⟩ : BufTy).Contents (Elt F) → (⟨S4096x32, .f32⟩ : BufTy).Contents (Elt F) → (⟨S4096x32, .f32⟩ : BufTy).Contents (Elt F)),
    StableHlo.unary main_arg5 main_v42 (broadcastInDim S1x32 ![1] bcast_S32_S1x32_1 : (⟨S32, .f32⟩ : BufTy).Contents (Elt F) → (⟨S1x32, .f32⟩ : BufTy).Contents (Elt F)),
    StableHlo.unary main_v42 main_v43 (broadcastInDim S4096x32 ![0, 1] bcast_S1x32_S4096x32_0_1 : (⟨S1x32, .f32⟩ : BufTy).Contents (Elt F) → (⟨S4096x32, .f32⟩ : BufTy).Contents (Elt F)),
    StableHlo.binary main_v41 main_v43 main_v44 (mulf : (⟨S4096x32, .f32⟩ : BufTy).Contents (Elt F) → (⟨S4096x32, .f32⟩ : BufTy).Contents (Elt F) → (⟨S4096x32, .f32⟩ : BufTy).Contents (Elt F)),
    StableHlo.unary main_arg6 main_v45 (broadcastInDim S1x32 ![1] bcast_S32_S1x32_1 : (⟨S32, .f32⟩ : BufTy).Contents (Elt F) → (⟨S1x32, .f32⟩ : BufTy).Contents (Elt F)),
    StableHlo.unary main_v45 main_v46 (broadcastInDim S4096x32 ![0, 1] bcast_S1x32_S4096x32_0_1 : (⟨S1x32, .f32⟩ : BufTy).Contents (Elt F) → (⟨S4096x32, .f32⟩ : BufTy).Contents (Elt F)),
    StableHlo.binary main_v44 main_v46 main_v47 (addf : (⟨S4096x32, .f32⟩ : BufTy).Contents (Elt F) → (⟨S4096x32, .f32⟩ : BufTy).Contents (Elt F) → (⟨S4096x32, .f32⟩ : BufTy).Contents (Elt F)),
    StableHlo.unary main_v47 main_v48 ((transpose S32x4096 [1, 0] · transposes_S4096x32_S32x4096_1_0) : (⟨S4096x32, .f32⟩ : BufTy).Contents (Elt F) → (⟨S32x4096, .f32⟩ : BufTy).Contents (Elt F)),
    StableHlo.binary main_v47 main_v48 main_v49 ((fun l r => Host.dotGeneral dot_S4096x32_S32x4096_S4096x4096_1_0_0_1_n_n none l r) : (⟨S4096x32, .f32⟩ : BufTy).Contents (Elt F) → (⟨S32x4096, .f32⟩ : BufTy).Contents (Elt F) → (⟨S4096x4096, .f32⟩ : BufTy).Contents (Elt F)) ]

-- eighty-nine binds re-associated: the rewrite under the chain recurses once per statement
set_option maxRecDepth 4096 in
set_option maxHeartbeats 4000000 in
/-- @main is that straight line: the functions' definitions unfolded at their calls and the records at their
    fields, both sides are one chain of steps once sequencing is re-associated. -/
theorem main_eq (c : Dev nD) : main (F := F) c = seq ops := by
  simp only [main, main_part0, main_part1, fn_leaky_relu.body, fn_where.body, fn_relu.body, fn_var.body, fn_where_0.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., unary_bufs_sub .., binary_bufs_sub .., unary_bufs_sub .., binary_bufs_sub .., unary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    unary_bufs_sub .., nullary_bufs_sub .., unary_bufs_sub .., binary_bufs_sub .., ternary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub .., binary_bufs_sub .., binary_bufs_sub .., nullary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., binary_bufs_sub ..⟩

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-- On the device, for any float values, from any memory with zero counters: every weakly fair execution of
    @main terminates with every buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 4000000 in
/-- At the result buffer the fold is `refTerm` of the argument buffers' contents: each operation's result read at
    its own buffer is its function of its operands' contents, at any other buffer what was there, and the typed
    references' transports are the identity at these literal references. -/
theorem out_eq (V : Valuation τ sig (Elt Ideal)) :
    after ops V (main_v49 : DevRef τ sig) = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

/-- On the device, at the ideal instance, from any memory with zero counters: every weakly fair execution of @main
    terminates with the result buffer at `refTerm` of the arguments' launch contents and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v49) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v49).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_main m ρ)

end Cert.ReferenceIdeal.RefValue

end
-- ==== Proof.Frames.lean ====
/-
  The three frame claims and the idealization claim.

  Each kernel program — the word-level one and the idealized one, the same text read at two float instances — runs to
  the end from any memory with zero semaphore counters, faults nowhere and leaves its seven argument arrays as they
  were: the run of the host stretch and the three regions, its result dropped. The reference is a host program with no
  kernel: its frame is its run, its result dropped. The ideal pass rewrote no operation of the kernel, so the
  idealization claim has no conjunct.
-/
import proofs.«177283_g481036337857_cont_8to1_c_51_7_alg».proof.Defs
import proofs.«177283_g481036337857_cont_8to1_c_51_7_alg».proof.Proof.Gen.Pre_finite_inputs
import proofs.«177283_g481036337857_cont_8to1_c_51_7_alg».proof.Proof.KernelRun
import proofs.«177283_g481036337857_cont_8to1_c_51_7_alg».proof.Proof.WordKernelRun
import proofs.«177283_g481036337857_cont_8to1_c_51_7_alg».proof.Proof.RefRun

noncomputable section

namespace Cert.Proof.Frames

open Idealize.ShloMosaic Idealize.ShloMosaic.TcCoe Idealize.SL.Sem

/-- The word-level kernel program's frame. -/
theorem frame_kernel : Cert.frame_Kernel := fun m ρ _ =>
  (θ_run (Cert.Kernel.defs (F := Bits)) _ _).mono (fun _ h c => (h c).2) (Cert.Kernel.Hand.kernelRun (F := Bits) m ρ)

/-- The idealized kernel program's frame. -/
theorem frame_kernelIdeal : Cert.frame_KernelIdeal := fun m ρ _ =>
  (θ_run (Cert.KernelIdeal.defs (F := Ideal)) _ _).mono (fun _ h c => (h c).2) (Cert.KernelIdeal.Hand.kernelRun (F := Ideal) m ρ)

/-- The idealized reference's frame. -/
theorem frame_reference : Cert.frame_ReferenceIdeal := fun m ρ _ =>
  (θ_run (Cert.ReferenceIdeal.defs (F := Ideal)) _ _).mono (fun _ h c => (h c).2) (Cert.ReferenceIdeal.RefValue.run m ρ)

/-- The ideal pass applied no rewrite. -/
theorem preserves : Cert.preserves_Kernel_KernelIdeal := trivial

end Cert.Proof.Frames

end
-- ==== Proof.Spec.lean ====
/-
  The mathematics both programs compute, index by index over the extended reals, in three stages.

  From node features x (4096 × 16), a dense adjacency adj (4096 × 4096), an attention weight W (16 × 16), an attention
  vector a (32, its two halves scoring the source and the target row), a graph-convolution weight Wgc (16 × 32) and
  batch-normalisation parameters gamma, beta (32):

    stage 1   Wh        = x · W
              logit i j = Σ_k Wh i k · a k  +  Σ_k Wh j k · a (16 + k)
              masked    = leaky-ReLU(0.2) of the logit where adj i j > 0, the fill value −9·10¹⁵ elsewhere
              att i j   = exp (masked i j − max_j masked i j) / Σ_j exp (masked i j − max_j masked i j)     (row softmax)
              support   = (att · Wh) · Wgc
    stage 2   agg       = max (adj · support) 0
    stage 3   mean c    = (Σ_i agg i c) / 4096,  cen = agg − mean,  var c = (Σ_i cen i c · cen i c) / 4096
              norm      = batch normalisation of agg, written two ways (below)
              rec i j   = Σ_k norm i k · norm j k

  Each stage is a function of the matrix the stage before it produced, so that a program which computes the stages one
  after the other can be read one stage at a time.

  The two programs differ in ONE place: one scales the centred value by (1/√(var + ε) · gamma), the other divides it by
  √(var + ε) and then multiplies by gamma. On the extended reals division by a nonzero s is multiplication by s⁻¹ and
  1/√v is (√v)⁻¹ for v > 0, so the two are one value by associativity of multiplication as soon as var + ε > 0 — and it
  always is: a square is nonnegative on the extended reals, a sum of nonnegatives is nonnegative, and ε > 0.
-/
import Idealize.ShloMosaic.PureOps.Ideal
import Idealize.ShloMosaic.Lib.ValueIdx

noncomputable section

namespace Cert.Spec

open Idealize.ShloMosaic

/-- A matrix of extended reals with literal extents. -/
abbrev Mat (a b : Nat) : Type := Fin a → Fin b → EReal

/-- The extended real a 32-bit float word denotes. -/
abbrev lit (w : BitVec 32) : EReal := Ideal.ofBits .f32 w

/-! ## Stage 1: attention and the graph convolution's support -/

section Stage1

variable (x : Mat 4096 16) (adj : Mat 4096 4096) (W : Mat 16 16) (a : Fin 32 → EReal) (Wgc : Mat 16 32)

/-- Projected features: x · W. -/
def Wh : Mat 4096 16 := fun i k => ∑ j : Fin 16, x i j * W j k

/-- The source-row score: Wh i · (first half of a). -/
def srcScore (i : Fin 4096) : EReal := ∑ k : Fin 16, Wh x W i k * a ⟨k.val, by omega⟩

/-- The target-row score: Wh j · (second half of a). -/
def dstScore (j : Fin 4096) : EReal := ∑ k : Fin 16, Wh x W j k * a ⟨16 + k.val, by omega⟩

/-- Leaky ReLU with slope 0.2 (the float word 0x3E4CCCCD). -/
def leaky (z : EReal) : EReal :=
  Scalar.select (Ideal.cmp .oge z (lit 0x00000000#32)) z (lit 0x3E4CCCCD#32 * z)

/-- The attention logit where there is an edge, the finite fill −9·10¹⁵ (word 0xD9FFCB9E) where there is none. -/
def masked (i j : Fin 4096) : EReal :=
  Scalar.select (Ideal.cmp .ogt (adj i j) (lit 0x00000000#32)) (leaky (srcScore x W a i + dstScore x W a j)) (lit 0xD9FFCB9E#32)

/-- The largest masked logit of row i. -/
def rowMax (i : Fin 4096) : EReal := Finset.univ.sup fun j : Fin 4096 => masked x adj W a i j

/-- exp (masked − row maximum). -/
def expShift (i j : Fin 4096) : EReal := Ideal.exp (masked x adj W a i j - rowMax x adj W a i)

/-- The softmax denominator of row i. -/
def rowSum (i : Fin 4096) : EReal := ∑ j : Fin 4096, expShift x adj W a i j

/-- Attention weights: the row softmax of the masked logits. -/
def att (i j : Fin 4096) : EReal := Ideal.div (expShift x adj W a i j) (rowSum x adj W a i)

/-- Attended features: att · Wh. -/
def attended : Mat 4096 16 := fun i k => ∑ j : Fin 4096, att x adj W a i j * Wh x W j k

/-- The graph convolution's support: attended · Wgc. -/
def support : Mat 4096 32 := fun i c => ∑ k : Fin 16, attended x adj W a i k * Wgc k c

end Stage1

/-! ## Stage 2: aggregation over neighbours -/

/-- max (adj · s) 0, for any support matrix s. -/
def agg (adj : Mat 4096 4096) (s : Mat 4096 32) : Mat 4096 32 :=
  fun i c => max (∑ j : Fin 4096, adj i j * s j c) (lit 0x00000000#32)

/-! ## Stage 3: batch normalisation and the inner-product reconstruction, for any matrix o -/

section Stage3

variable (o : Mat 4096 32) (gamma beta : Fin 32 → EReal)

/-- Column mean over the 4096 rows (4096 is the float word 0x45800000). -/
def mean (c : Fin 32) : EReal := Ideal.div (∑ i : Fin 4096, o i c) (lit 0x45800000#32)

/-- The centred value. -/
def cen (i : Fin 4096) (c : Fin 32) : EReal := o i c - mean o c

/-- The (biased) column variance. -/
def var (c : Fin 32) : EReal := Ideal.div (∑ i : Fin 4096, cen o i c * cen o i c) (lit 0x45800000#32)

/-- Variance plus ε (ε is the float word 0x3727C5AC, about 10⁻⁵). -/
def varEps (c : Fin 32) : EReal := var o c + lit 0x3727C5AC#32

/-- Batch normalisation, scaling by (1/√(var + ε) · gamma). -/
def normScaled (i : Fin 4096) (c : Fin 32) : EReal :=
  cen o i c * (Ideal.rsqrt (varEps o c) * gamma c) + beta c

/-- Batch normalisation, dividing by √(var + ε) and then multiplying by gamma. -/
def normDivided (i : Fin 4096) (c : Fin 32) : EReal :=
  Ideal.div (cen o i c) (Ideal.sqrt (varEps o c)) * gamma c + beta c

/-- The inner-product reconstruction over the scaled normalisation. -/
def recScaled : Mat 4096 4096 := fun i j => ∑ k : Fin 32, normScaled o gamma beta i k * normScaled o gamma beta j k

/-- The inner-product reconstruction over the divided normalisation. -/
def recDivided : Mat 4096 4096 := fun i j => ∑ k : Fin 32, normDivided o gamma beta i k * normDivided o gamma beta j k

end Stage3

/-! ## The whole map, on arrays as the programs hold them -/

/-- A two-axis and a one-axis array of extended reals, indexed as a buffer's contents are. -/
abbrev Arr2 (a b : Nat) : Type := (⟨2, ![a, b]⟩ : Shape).Idx → EReal
abbrev Arr1 (a : Nat) : Type := (⟨1, ![a]⟩ : Shape).Idx → EReal

/-- An array read as a matrix, a vector, and a one-column array as a vector. -/
def mat {a b : Nat} (f : Arr2 a b) : Mat a b := fun i j => f (ValueIdx.ix2 i j)
def vec {a : Nat} (f : Arr1 a) : Fin a → EReal := fun i => f (ValueIdx.ix1 i)
def col {a : Nat} (f : Arr2 a 1) : Fin a → EReal := fun i => f (ValueIdx.ix2 i 0)
/-- A matrix as an array. -/
def arr {a b : Nat} (f : Mat a b) : Arr2 a b := fun idx => f (idx 0) (idx 1)

/-- Stages 1 and 2 of the argument arrays: the rectified aggregation. -/
def aggOf (x : Arr2 4096 16) (adj : Arr2 4096 4096) (W : Arr2 16 16) (a : Arr2 32 1) (Wgc : Arr2 16 32) : Mat 4096 32 :=
  agg (mat adj) (support (mat x) (mat adj) (mat W) (col a) (mat Wgc))

/-- The whole map with the scaled normalisation, -/
def wholeScaled (x : Arr2 4096 16) (adj : Arr2 4096 4096) (W : Arr2 16 16) (a : Arr2 32 1) (Wgc : Arr2 16 32) (gamma beta : Arr1 32) :
    Arr2 4096 4096 :=
  arr (recScaled (aggOf x adj W a Wgc) (vec gamma) (vec beta))

/-- and with the divided one. -/
def wholeDivided (x : Arr2 4096 16) (adj : Arr2 4096 4096) (W : Arr2 16 16) (a : Arr2 32 1) (Wgc : Arr2 16 32) (gamma beta : Arr1 32) :
    Arr2 4096 4096 :=
  arr (recDivided (aggOf x adj W a Wgc) (vec gamma) (vec beta))

end Cert.Spec

end
-- ==== Proof.LibDotRead.lean ====
/-
  A matrix product into a zero accumulator, read at an entry.

  A contraction with no batch axis, one free axis on each side and one contracted axis is, at result entry (r, c),
  the sum over the contracted coordinate j of the two operands' entries. Two layouts occur:

    plain           [m, k] · [k, n]          entry (r, c) = Σ_j  lhs (r, j) * rhs (j, c)
    transposed rhs  [m, k] · [n, k]ᵀ         entry (r, c) = Σ_j  lhs (r, j) * rhs (c, j)

  The index maps of a contraction are stated for any dimension numbers; the facts needed are that on the one
  contracted axis an operand index is the contraction coordinate, and on the one free axis it is the result's row
  (left operand) or column (right operand) coordinate.
-/
import Idealize.ShloMosaic.PureOps.Ideal.Laws
import Idealize.ShloMosaic.Lib.ValueIdx

noncomputable section

namespace Cert.Pay

open Idealize.ShloMosaic Idealize.ShloMosaic.ValueIdx

section Free

variable {sl sr so : Shape} (d : DotDims sl sr so)

/-- No batch axis and one free left axis: on it, the left operand's index is the result index's first coordinate. -/
theorem lhsIdx_val_of_free {a : Fin sl.rank} (hb : d.lhsBatch = []) (hn : d.lhsNonContracting = [a]) (j : so.Idx)
    (k : d.contr.Idx) :
    (d.lhsIdx j k a).val = (j ⟨0, by rw [d.rank_out, hb, hn]; simp⟩).val := by
  have hnb : a ∉ d.lhsBatch := by rw [hb]; simp
  have hmem : a ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- No batch axis, one free axis on each side: on the right operand's free axis, its index is the result index's
    second coordinate. -/
theorem rhsIdx_val_of_free {a' : Fin sl.rank} {a : Fin sr.rank} (hlb : d.lhsBatch = []) (hrb : d.rhsBatch = [])
    (hln : d.lhsNonContracting = [a']) (hrn : d.rhsNonContracting = [a]) (j : so.Idx) (k : d.contr.Idx) :
    (d.rhsIdx j k a).val = (j ⟨1, by rw [d.rank_out, hlb, hln, hrn]; simp⟩).val := by
  have hnb : a ∉ d.rhsBatch := by rw [hrb]; simp
  have hmem : a ∈ d.rhsNonContracting := by rw [hrn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

end Free

/-- [m, k] · [k, n] into zero, at (r, c): Σ_j lhs (r, j) * rhs (j, c). -/
theorem matmul_plain_apply {m k n : ℕ} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![m, k]⟩ .f32) (rhs : FVec Ideal ⟨2, ![k, n]⟩ .f32)
    (r : Fin m) (c : Fin n) :
    FloatOps.matmul d prec lhs rhs (constant (F := Ideal) ⟨2, ![m, n]⟩ .f32 0x00000000#32) (ix2 r c)
      = ∑ j : Fin k, lhs (ix2 r j) * rhs (ix2 j c) := by
  have hr : d.contr.rank = 1 := by rw [d.rank_contr, hlc]; rfl
  have hs : d.contr.size ⟨0, by omega⟩ = k :=
    (d.size_contr 0 (by rw [hlc]; exact Nat.one_pos)).trans (by simp [hlc])
  rw [Ideal.matmul_constant_zero_apply, ← Equiv.sum_comp (contrEquiv1 d k hr hs).symm]
  refine Finset.sum_congr rfl fun j _ => ?_
  have e1 : d.lhsIdx (ix2 r c) ((contrEquiv1 d k hr hs).symm j) = ix2 r j := funext fun a => Fin.ext (by
    match a with
    | ⟨0, _⟩ => exact lhsIdx_val_of_free d hlb hln _ _
    | ⟨1, _⟩ => exact (d.lhsIdx_val_of_single hlc _ _).trans (contrEquiv1_symm_val d k hr hs j))
  have e2 : d.rhsIdx (ix2 r c) ((contrEquiv1 d k hr hs).symm j) = ix2 j c := funext fun a => Fin.ext (by
    match a with
    | ⟨0, _⟩ => exact (d.rhsIdx_val_of_single hrc _ _).trans (contrEquiv1_symm_val d k hr hs j)
    | ⟨1, _⟩ => exact rhsIdx_val_of_free d hlb hrb hln hrn _ _)
  rw [e1, e2]

/-- [m, k] · [n, k]ᵀ into zero, at (r, c): Σ_j lhs (r, j) * rhs (c, j). -/
theorem matmul_transposedRhs_apply {m k n : ℕ} (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![m, k]⟩ .f32) (rhs : FVec Ideal ⟨2, ![n, k]⟩ .f32)
    (r : Fin m) (c : Fin n) :
    FloatOps.matmul d prec lhs rhs (constant (F := Ideal) ⟨2, ![m, n]⟩ .f32 0x00000000#32) (ix2 r c)
      = ∑ j : Fin k, lhs (ix2 r j) * rhs (ix2 c j) := by
  have hr : d.contr.rank = 1 := by rw [d.rank_contr, hlc]; rfl
  have hs : d.contr.size ⟨0, by omega⟩ = k :=
    (d.size_contr 0 (by rw [hlc]; exact Nat.one_pos)).trans (by simp [hlc])
  rw [Ideal.matmul_constant_zero_apply, ← Equiv.sum_comp (contrEquiv1 d k hr hs).symm]
  refine Finset.sum_congr rfl fun j _ => ?_
  have e1 : d.lhsIdx (ix2 r c) ((contrEquiv1 d k hr hs).symm j) = ix2 r j := funext fun a => Fin.ext (by
    match a with
    | ⟨0, _⟩ => exact lhsIdx_val_of_free d hlb hln _ _
    | ⟨1, _⟩ => exact (d.lhsIdx_val_of_single hlc _ _).trans (contrEquiv1_symm_val d k hr hs j))
  have e2 : d.rhsIdx (ix2 r c) ((contrEquiv1 d k hr hs).symm j) = ix2 c j := funext fun a => Fin.ext (by
    match a with
    | ⟨0, _⟩ => exact rhsIdx_val_of_free d hlb hrb hln hrn _ _
    | ⟨1, _⟩ => exact (d.rhsIdx_val_of_single hrc _ _).trans (contrEquiv1_symm_val d k hr hs j))
  rw [e1, e2]

end Cert.Pay

end
-- ==== Proof.PayAggregate.lean ====
/-
  The aggregation payload read at an entry.

  The payload is the product of a 256-row block of the adjacency with the whole 4096 × 32 support matrix, accumulated
  into zero, followed by a pointwise maximum with zero. At entry (r, c) the product is Σ_j adjb (r, j) * sup (j, c)
  (a matrix product into a zero accumulator read at an entry), the reshape in front of it is to the same shape and
  so is the identity, and the maximum is pointwise.
-/
import proofs.«177283_g481036337857_cont_8to1_c_51_7_alg».proof.Proof.Gen.KernelIdeal.Skeleton
import proofs.«177283_g481036337857_cont_8to1_c_51_7_alg».proof.Proof.Spec
import proofs.«177283_g481036337857_cont_8to1_c_51_7_alg».proof.Proof.LibDotRead
import Idealize.ShloMosaic.Lib.Pipeline.Value
import Idealize.ShloMosaic.Lib.ValueLayout

noncomputable section

namespace Cert.Pay

open Idealize.ShloMosaic Idealize.ShloMosaic.ValueIdx

theorem aggregate_apply (adjb : Vec Ideal Cert.KernelIdeal.S256x4096 .f32) (sup : Vec Ideal Cert.KernelIdeal.S4096x32 .f32)
    (r : Fin 256) (c : Fin 32) :
    Cert.KernelIdeal.Gen.k1_pay1 (F := Ideal) adjb sup (ValueIdx.ix2 r c)
      = max (∑ j : Fin 4096, adjb (ValueIdx.ix2 r j) * sup (ValueIdx.ix2 j c)) (Cert.Spec.lit 0x00000000#32) := by
  unfold Cert.KernelIdeal.Gen.k1_pay1
  rw [shapeCast_self]
  exact congrArg (fun z => max z (Cert.Spec.lit 0x00000000#32))
    (matmul_plain_apply Cert.KernelIdeal.dot_S256x4096_S4096x32_S256x32_1_0_0_1_n_n rfl rfl rfl rfl rfl rfl none adjb sup r c)

end Cert.Pay

end
-- ==== Proof.ValueAggregate.lean ====
/-
  What the aggregation region leaves in its output array: max (adj · s) 0 of the adjacency and the support matrix as
  the region finds them.

  Grid point t holds rows 256 t … 256 t + 255 of the adjacency (window 0), the whole support matrix (window 1), and
  writes back rows 256 t … 256 t + 255 of the output (window 2). The body's one store is the aggregation payload of the
  two loaded blocks; read at block entry (r, c) it is max (Σ_j adj (256 t + r, j) · s (j, c)) 0, which is entry
  (256 t + r, c) of the whole-array function. Row i of the output lies in the block of point i / 256, so the sixteen
  blocks cover the array and the array ends holding the function everywhere.
-/
import proofs.«177283_g481036337857_cont_8to1_c_51_7_alg».proof.Proof.RegionAggregateData
import proofs.«177283_g481036337857_cont_8to1_c_51_7_alg».proof.Proof.PayAggregate
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The offsets of a whole-block access are zero on both axes. -/
theorem aggZero : (![0, 0] : Fin 2 → Nat) = fun _ => 0 := funext fun a => by fin_cases a <;> rfl

/-- The three windows' block indices at every grid point: the adjacency block and the output block are at row block t,
    the support matrix is one block. -/
theorem aggIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0)

/-- The payload of a block of adjacency rows and the whole support matrix, at a block entry, is the whole-array
    function at the array entry over it. -/
theorem aggPoint (x0 : Vec Ideal S256x4096 .f32) (x1 : Vec Ideal S4096x32 .f32) (ADJ : Cert.Spec.Arr2 4096 4096)
    (SUP : Cert.Spec.Arr2 4096 32) (tv : ℕ) (htv : tv < 16)
    (h0 : ∀ (r : Fin 256) (j : Fin 4096), x0 (ix2 r j) = ADJ (ix2 ⟨256 * tv + r.val, by omega⟩ j))
    (h1 : ∀ (j : Fin 4096) (cc : Fin 32), x1 (ix2 j cc) = SUP (ix2 j cc))
    (y : S256x32.Idx) (i : S4096x32.Idx) (hi0 : (i 0).val = 256 * tv + (y 0).val) (hi1 : (i 1).val = (y 1).val) :
    k1_pay1 (F := Ideal) x0 x1 y = Cert.Spec.arr (Cert.Spec.agg (Cert.Spec.mat ADJ) (Cert.Spec.mat SUP)) i := by
  obtain ⟨r, cc, rfl⟩ : ∃ (r : Fin 256) (cc : Fin 32), y = ix2 r cc := ⟨y 0, y 1, eq_ix2 y⟩
  have hlt : 256 * tv + r.val < 4096 := by have := r.isLt; omega
  obtain ⟨p, q, rfl⟩ : ∃ (p : Fin 4096) (q : Fin 32), i = ix2 p q := ⟨i 0, i 1, eq_ix2 i⟩
  have hp : p = ⟨256 * tv + r.val, hlt⟩ := Fin.ext hi0
  have hq : q = cc := Fin.ext hi1
  subst hp hq
  rw [Cert.Pay.aggregate_apply]
  simp only [h0, h1]
  rfl

variable (V : (c : Dev nD) → (b : Ref sig .tc) → Buf (Elt Ideal) ((c : Thread nD τ).loc b))

/-- The whole-array function of the region's two input arrays. -/
abbrev aggG (c : Dev nD) : Cert.Spec.Arr2 4096 32 :=
  Cert.Spec.arr (Cert.Spec.agg (Cert.Spec.mat (a := 4096) (b := 4096) (V c main_arg1)) (Cert.Spec.mat (a := 4096) (b := 32) (V c main_v6)))

/-- What grid point t writes back is its block of the whole-array function. -/
theorem aggFlushed (c : Dev nD) (t : Fin cfg1.N) :
    (aggDat (F := Ideal) V c).flushed 2 t = ((cfg1.win 2).blk t).view.read (Elt Ideal) (aggG V c) := by
  show (cfg1.win 2).cut (grid1.coords t) ((aggDat V c).after 2 t) = _
  rw [aggAfter2]
  unfold aggOut
  rw [View.canon_unit_zero aggZero]
  simp only [View.ld_unit_zero (S := S256x4096) aggZero, View.ld_unit_zero (S := S4096x32) aggZero]
  obtain ⟨e00, e01, e10, e11, e20, e21⟩ := aggIdx t
  have ht : t.val < 16 := lt_of_lt_of_eq t.isLt N_1
  funext j
  show k1_pay1 (aggBlk V c 0 t) (aggBlk V c 1 t) ((cfg1.win 2).xinj (grid1.coords t) j) = aggG V c (((cfg1.win 2).blk t).view.emb j)
  refine aggPoint _ _ (V c main_arg1) (V c main_v6) t.val ht (fun r j' => ?_) (fun j' cc => ?_) _ _ ?_ ?_
  · show V c main_arg1 (((cfg1.win 0).blk t).view.emb (ix2 r j')) = _
    refine congrArg (V c main_arg1) (funext fun a => Fin.ext ?_)
    match a with
    | ⟨0, _⟩ => show win1_0.index t (0 : Fin 2) * 256 + 1 * r.val = 256 * t.val + r.val; rw [e00]; omega
    | ⟨1, _⟩ => show win1_0.index t (1 : Fin 2) * 4096 + 1 * j'.val = j'.val; rw [e01]; omega
  · show V c main_v6 (((cfg1.win 1).blk t).view.emb (ix2 j' cc)) = _
    refine congrArg (V c main_v6) (funext fun a => Fin.ext ?_)
    match a with
    | ⟨0, _⟩ => show win1_1.index t (0 : Fin 2) * 4096 + 1 * j'.val = j'.val; rw [e10]; omega
    | ⟨1, _⟩ => show win1_1.index t (1 : Fin 2) * 32 + 1 * cc.val = cc.val; rw [e11]; omega
  · show win1_2.index t (0 : Fin 2) * 256 + 1 * (j 0).val = 256 * t.val + (j 0).val; rw [e20]; omega
  · show win1_2.index t (1 : Fin 2) * 32 + 1 * (j 1).val = (j 1).val; rw [e21]; omega

/-- An index of the output array is in point t's block iff each coordinate is in the block's range on its axis. -/
theorem aggMem (t : Fin cfg1.N) (i : S4096x32.Idx) :
    i ∈ ((cfg1.win 2).blk t).view.set ↔ ∀ a : Fin 2, win1_2.index t a * S256x32.size a ≤ (i a).val
      ∧ (i a).val < win1_2.index t a * S256x32.size a + S256x32.size a := by
  show i ∈ ((View.whole main_v7).slice (win1_2.rect t)).set ↔ _
  rw [View.set_slice_whole, Rect.mem_set_unit]
  exact Iff.rfl

/-- Row i of the output lies in the block of point i / 256: the sixteen blocks cover the array. -/
theorem aggCovered (i : S4096x32.Idx) : ∃ t : Fin cfg1.N, (cfg1.win 2).flush t = true ∧ i ∈ ((cfg1.win 2).blk t).view.set := by
  have hi0 : (i 0).val < 4096 := (i 0).isLt
  have hi1 : (i 1).val < 32 := (i 1).isLt
  obtain ⟨t, htv⟩ : ∃ t : Fin cfg1.N, t.val = (i 0).val / 256 := ⟨⟨(i 0).val / 256, by rw [show cfg1.N = 16 from N_1]; omega⟩, rfl⟩
  obtain ⟨-, -, -, -, e20, e21⟩ := aggIdx t
  refine ⟨t, flush1_2 t, ?_⟩
  rw [aggMem]
  intro a
  match a with
  | ⟨0, _⟩ =>
    show win1_2.index t (0 : Fin 2) * 256 ≤ (i 0).val ∧ (i 0).val < win1_2.index t (0 : Fin 2) * 256 + 256
    rw [e20, htv]; omega
  | ⟨1, _⟩ =>
    show win1_2.index t (1 : Fin 2) * 32 ≤ (i 1).val ∧ (i 1).val < win1_2.index t (1 : Fin 2) * 32 + 32
    rw [e21]; omega

/-- The output array after the region: max (adj · s) 0 of the two input arrays as the region found them. -/
theorem aggArr_eq (c : Dev nD) :
    (aggDat (F := Ideal) V c).arrAt 2 cfg1.N
      = Cert.Spec.arr (Cert.Spec.agg (Cert.Spec.mat (a := 4096) (b := 4096) (V c main_arg1))
          (Cert.Spec.mat (a := 4096) (b := 32) (V c main_v6))) :=
  (aggDat (F := Ideal) V c).arrAt_eq_of_cover 2 (aggG V c) (fun t _ => aggFlushed V c t) aggCovered

end Cert.KernelIdeal.Hand

end
-- ==== Proof.LibReduceRead.lean ====
/-
  Reductions of a matrix along one axis, and the column forms of reshape and broadcast, read at an entry.

  For a matrix src of extents [a, b]:

    sum over axis 0, at k          Σ_i src (i, k)                       (a column sum)
    sum over axis 1, at r          Σ_j src (r, j)                       (a row sum)
    maximum over axis 1, at r      sup_j src (r, j)                     (a row maximum: the fold of max from −∞,
                                                                          and −∞ is the bottom of the extended reals,
                                                                          so the fold is the finite supremum)

  The index of the matrix that lies over a reduced index with a given coordinate on the dropped axis is the pair of
  the two coordinates, in the matrix's order. A vector of extent a reshaped to the column [a, 1] reads its own entry,
  and a column [a, 1] broadcast to [a, b] reads the column's entry of the same row.
-/
import Idealize.ShloMosaic.PureOps.Ideal.Laws
import Idealize.ShloMosaic.Lib.ValueIdx
import Idealize.ShloMosaic.Lib.Pipeline.Value
import Idealize.ShloMosaic.Lib.ValueLayout

noncomputable section

namespace Cert.Pay

open Idealize.ShloMosaic Idealize.ShloMosaic.ValueIdx

/-- The float word 0xFF800000 (−∞) denotes the bottom of the extended reals. -/
theorem ofBits_neg_inf : Ideal.ofBits .f32 0xFF800000#32 = ⊥ := by
  simp [Ideal.ofBits, Ideal.ieee]

/-- Over the reduced index k of a reduction along axis 0, the matrix index with coordinate i on that axis is (i, k). -/
theorem lift_axis0 {a b : ℕ} (h : (⟨2, ![a, b]⟩ : Shape).Reduces [0] ⟨1, ![b]⟩) (k : Fin b) (i : Fin a) :
    h.lift (ix1 k) i = ix2 i k :=
  funext fun c => Fin.ext (by match c with | ⟨0, _⟩ => rfl | ⟨1, _⟩ => rfl)

/-- Over the reduced index r of a reduction along axis 1, the matrix index with coordinate j on that axis is (r, j). -/
theorem lift_axis1 {a b : ℕ} (h : (⟨2, ![a, b]⟩ : Shape).Reduces [1] ⟨1, ![a]⟩) (r : Fin a) (j : Fin b) :
    h.lift (ix1 r) j = ix2 r j :=
  funext fun c => Fin.ext (by match c with | ⟨0, _⟩ => rfl | ⟨1, _⟩ => rfl)

/-- A sum over the rows of a matrix, at column k. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (k : Fin b) :
    multiReduction (F := Ideal) .add [0] ⟨1, ![b]⟩ src 0x00000000#32 h hφ hacc (ix1 k) = ∑ i : Fin a, src (ix2 i k) :=
  (Ideal.multiReduction_add_single src 0x00000000#32 h hφ hacc (ix1 k)).trans
    (Finset.sum_congr rfl fun i _ => congrArg src (lift_axis0 h k i))

/-- A sum along the rows of a matrix, at row r. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ j : Fin b, src (ix2 r j) :=
  (Ideal.multiReduction_add_single src 0x00000000#32 h hφ hacc (ix1 r)).trans
    (Finset.sum_congr rfl fun j _ => congrArg src (lift_axis1 h r j))

/-- The fold of max from the bottom over a finite index set is the finite supremum. -/
theorem fold_max_bot_eq_sup {ι : Type} [Fintype ι] (g : ι → EReal) :
    (Finset.univ : Finset ι).fold max ⊥ g = Finset.univ.sup g := rfl

/-- A maximum along the rows of a matrix from −∞, at row r. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction (F := Ideal) .maximumf [1] ⟨1, ![a]⟩ src 0xFF800000#32 h hφ hacc (ix1 r)
      = Finset.univ.sup fun j : Fin b => src (ix2 r j) := by
  have e : (fun j : Fin b => src (h.lift (ix1 r) j)) = fun j : Fin b => src (ix2 r j) :=
    funext fun j => congrArg src (lift_axis1 h r j)
  exact (Ideal.multiReduction_maximumf_single src 0xFF800000#32 h hφ hacc (ix1 r)).trans
    ((congrArg₂ (fun z (g : Fin b → EReal) => (Finset.univ : Finset (Fin b)).fold max z g) ofBits_neg_inf e).trans
      (fold_max_bot_eq_sup _))

variable {α : Type}

/-- A vector of extent a reshaped to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Pay

end
-- ==== Proof.PayNormRec.lean ====
/-
  The batch-normalisation and reconstruction payload read at an entry.

  The payload takes the whole aggregated matrix o (4096 × 32), the scale and shift rows g, b (1 × 32) and the point's
  own 256-row block ob of o. It computes, per column k, the mean (Σ_i o (i, k)) / 4096 and the variance
  (Σ_i (o (i, k) − mean k)²) / 4096 as 1 × 32 rows, the scale row 1/√(var + ε) · g, then normalises BOTH the whole
  matrix and the block (centre, scale, shift), and multiplies the normalised block by the transpose of the normalised
  whole matrix into a zero accumulator. So entry (r, j) is Σ_k norm (block row r) k · norm (row j) k, and block row r
  of grid point t is row 256 t + r of o: the reconstruction over the scaled normalisation, at (256 t + r, j).

  Every step but three is pointwise. The three are: a column sum read at a column (the sum over the rows), a one-row
  array broadcast down the rows (reads the row), and the product with a transposed right operand read at an entry.
-/
import proofs.«177283_g481036337857_cont_8to1_c_51_7_alg».proof.Proof.Gen.KernelIdeal.Skeleton
import proofs.«177283_g481036337857_cont_8to1_c_51_7_alg».proof.Proof.Spec
import proofs.«177283_g481036337857_cont_8to1_c_51_7_alg».proof.Proof.LibDotRead
import proofs.«177283_g481036337857_cont_8to1_c_51_7_alg».proof.Proof.LibReduceRead

noncomputable section

namespace Cert.Pay

open Idealize.ShloMosaic Idealize.ShloMosaic.ValueIdx

section
variable {s : Shape} {φ : FTy}
/-- 1/√ of a vector, at an index. -/
theorem rsqrt_apply (a : FVec Ideal s φ) (i : s.Idx) : rsqrt a i = Ideal.rsqrt (a i) := rfl
end

open Cert.KernelIdeal in
theorem normRec_apply (o : Vec Ideal Cert.KernelIdeal.S4096x32 .f32) (g b : Vec Ideal Cert.KernelIdeal.S1x32 .f32)
    (ob : Vec Ideal Cert.KernelIdeal.S256x32 .f32) (t : Fin 16)
    (hob : ∀ (r : Fin 256) (c : Fin 32), ob (ValueIdx.ix2 r c) = o (ValueIdx.ix2 ⟨256 * t.val + r.val, by omega⟩ c))
    (r : Fin 256) (j : Fin 4096) :
    Cert.KernelIdeal.Gen.k2_pay1 (F := Ideal) o g b ob (ValueIdx.ix2 r j)
      = Cert.Spec.recScaled (Cert.Spec.mat o) (fun c => g (ValueIdx.ix2 0 c)) (fun c => b (ValueIdx.ix2 0 c))
          ⟨256 * t.val + r.val, by omega⟩ j := by
  unfold Cert.KernelIdeal.Gen.k2_pay1
  refine (matmul_transposedRhs_apply dot_S256x32_S4096x32_S256x4096_1_1_0_0_n_n rfl rfl rfl rfl rfl rfl none _ _ r j).trans ?_
  unfold Cert.Spec.recScaled
  refine Finset.sum_congr rfl fun k _ => ?_
  simp only [addf_apply, mulf_apply, subf_apply, divf_apply, rsqrt_apply, broadcast_apply, broadcastTo_1b_ab_apply,
    shapeCast_self, shapeCast_a_1a_apply, colSum_apply (a := 4096) (b := 32), hob]
  rfl

end Cert.Pay

end
-- ==== Proof.ValueNormRec.lean ====
/-
  What the last region leaves in its output array: the inner-product reconstruction over the scaled batch
  normalisation of the aggregated matrix as the region finds it.

  Grid point t holds the whole aggregated matrix (window 0), its rows 256 t … 256 t + 255 again as a block (window 1),
  the scale and shift rows (windows 2 and 3), and writes back rows 256 t … 256 t + 255 of the 4096 × 4096 output
  (window 4). The body's one store is the normalisation-and-reconstruction payload of the loaded blocks; read at block
  entry (r, j) it is the reconstruction at (256 t + r, j). Row i of the output lies in the block of point i / 256, so the
  sixteen blocks cover the array.
-/
import proofs.«177283_g481036337857_cont_8to1_c_51_7_alg».proof.Proof.RegionNormRecData
import proofs.«177283_g481036337857_cont_8to1_c_51_7_alg».proof.Proof.PayNormRec
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The offsets of a whole-block access are zero on both axes. -/
theorem recZero : (![0, 0] : Fin 2 → Nat) = fun _ => 0 := funext fun a => by fin_cases a <;> rfl

/-- The five windows' block indices at every grid point: the block of rows and the output block are at row block t,
    the other three windows are one block. -/
theorem recIdx : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0)

/-- The payload of the whole matrix, its block of rows and the two parameter rows, at a block entry, is the
    reconstruction at the array entry over it. -/
theorem recPoint (x0 : Vec Ideal S4096x32 .f32) (x1 : Vec Ideal S256x32 .f32) (x2 x3 : Vec Ideal S1x32 .f32)
    (O : Cert.Spec.Arr2 4096 32) (Gm Bt : Cert.Spec.Arr2 1 32) (tv : ℕ) (htv : tv < 16)
    (h0 : ∀ (p : Fin 4096) (k : Fin 32), x0 (ix2 p k) = O (ix2 p k))
    (h1 : ∀ (r : Fin 256) (k : Fin 32), x1 (ix2 r k) = O (ix2 ⟨256 * tv + r.val, by omega⟩ k))
    (h2 : ∀ k : Fin 32, x2 (ix2 0 k) = Gm (ix2 0 k)) (h3 : ∀ k : Fin 32, x3 (ix2 0 k) = Bt (ix2 0 k))
    (y : S256x4096.Idx) (i : S4096x4096.Idx) (hi0 : (i 0).val = 256 * tv + (y 0).val) (hi1 : (i 1).val = (y 1).val) :
    k2_pay1 (F := Ideal) x0 x2 x3 x1 y
      = Cert.Spec.arr (Cert.Spec.recScaled (Cert.Spec.mat O) (fun k => Gm (ix2 0 k)) (fun k => Bt (ix2 0 k))) i := by
  obtain ⟨r, j, rfl⟩ : ∃ (r : Fin 256) (j : Fin 4096), y = ix2 r j := ⟨y 0, y 1, eq_ix2 y⟩
  have hlt : 256 * tv + r.val < 4096 := by have := r.isLt; omega
  obtain ⟨p, q, rfl⟩ : ∃ (p : Fin 4096) (q : Fin 4096), i = ix2 p q := ⟨i 0, i 1, eq_ix2 i⟩
  have hp : p = ⟨256 * tv + r.val, hlt⟩ := Fin.ext hi0
  have hq : q = j := Fin.ext hi1
  subst hp hq
  obtain rfl : x0 = O := funext fun idx => by rw [eq_ix2 idx]; exact h0 _ _
  rw [Cert.Pay.normRec_apply x0 x2 x3 x1 ⟨tv, htv⟩ h1 r q]
  simp only [h2, h3]
  rfl

variable (V : (c : Dev nD) → (b : Ref sig .tc) → Buf (Elt Ideal) ((c : Thread nD τ).loc b))

/-- The whole-array function of the region's three input arrays. -/
abbrev recG (c : Dev nD) : Cert.Spec.Arr2 4096 4096 :=
  Cert.Spec.arr (Cert.Spec.recScaled (Cert.Spec.mat (a := 4096) (b := 32) (V c main_v7))
    (fun k => (V c main_v4 : Cert.Spec.Arr2 1 32) (ix2 0 k)) (fun k => (V c main_v5 : Cert.Spec.Arr2 1 32) (ix2 0 k)))

/-- What grid point t writes back is its block of the whole-array function. -/
theorem recFlushed (c : Dev nD) (t : Fin cfg2.N) :
    (recDat (F := Ideal) V c).flushed 4 t = ((cfg2.win 4).blk t).view.read (Elt Ideal) (recG V c) := by
  show (cfg2.win 4).cut (grid2.coords t) ((recDat V c).after 4 t) = _
  rw [recAfter4]
  unfold recOut
  rw [View.canon_unit_zero recZero]
  simp only [View.ld_unit_zero (S := S4096x32) recZero, View.ld_unit_zero (S := S256x32) recZero,
    View.ld_unit_zero (S := S1x32) recZero]
  obtain ⟨e00, e01, e10, e11, e20, e21, e30, e31, e40, e41⟩ := recIdx t
  have ht : t.val < 16 := lt_of_lt_of_eq t.isLt N_2
  funext j
  show k2_pay1 (recBlk V c 0 t) (recBlk V c 2 t) (recBlk V c 3 t) (recBlk V c 1 t) ((cfg2.win 4).xinj (grid2.coords t) j)
    = recG V c (((cfg2.win 4).blk t).view.emb j)
  refine recPoint _ _ _ _ (V c main_v7) (V c main_v4) (V c main_v5) t.val ht (fun p k => ?_) (fun r k => ?_) (fun k => ?_)
    (fun k => ?_) _ _ ?_ ?_
  · show V c main_v7 (((cfg2.win 0).blk t).view.emb (ix2 p k)) = _
    refine congrArg (V c main_v7) (funext fun a => Fin.ext ?_)
    match a with
    | ⟨0, _⟩ => show win2_0.index t (0 : Fin 2) * 4096 + 1 * p.val = p.val; rw [e00]; omega
    | ⟨1, _⟩ => show win2_0.index t (1 : Fin 2) * 32 + 1 * k.val = k.val; rw [e01]; omega
  · show V c main_v7 (((cfg2.win 1).blk t).view.emb (ix2 r k)) = _
    refine congrArg (V c main_v7) (funext fun a => Fin.ext ?_)
    match a with
    | ⟨0, _⟩ => show win2_1.index t (0 : Fin 2) * 256 + 1 * r.val = 256 * t.val + r.val; rw [e10]; omega
    | ⟨1, _⟩ => show win2_1.index t (1 : Fin 2) * 32 + 1 * k.val = k.val; rw [e11]; omega
  · show V c main_v4 (((cfg2.win 2).blk t).view.emb (ix2 0 k)) = _
    refine congrArg (V c main_v4) (funext fun a => Fin.ext ?_)
    match a with
    | ⟨0, _⟩ => show win2_2.index t (0 : Fin 2) * 1 + 1 * 0 = 0; rw [e20]
    | ⟨1, _⟩ => show win2_2.index t (1 : Fin 2) * 32 + 1 * k.val = k.val; rw [e21]; omega
  · show V c main_v5 (((cfg2.win 3).blk t).view.emb (ix2 0 k)) = _
    refine congrArg (V c main_v5) (funext fun a => Fin.ext ?_)
    match a with
    | ⟨0, _⟩ => show win2_3.index t (0 : Fin 2) * 1 + 1 * 0 = 0; rw [e30]
    | ⟨1, _⟩ => show win2_3.index t (1 : Fin 2) * 32 + 1 * k.val = k.val; rw [e31]; omega
  · show win2_4.index t (0 : Fin 2) * 256 + 1 * (j 0).val = 256 * t.val + (j 0).val; rw [e40]; omega
  · show win2_4.index t (1 : Fin 2) * 4096 + 1 * (j 1).val = (j 1).val; rw [e41]; omega

/-- An index of the output array is in point t's block iff each coordinate is in the block's range on its axis. -/
theorem recMem (t : Fin cfg2.N) (i : S4096x4096.Idx) :
    i ∈ ((cfg2.win 4).blk t).view.set ↔ ∀ a : Fin 2, win2_4.index t a * S256x4096.size a ≤ (i a).val
      ∧ (i a).val < win2_4.index t a * S256x4096.size a + S256x4096.size a := by
  show i ∈ ((View.whole main_v8).slice (win2_4.rect t)).set ↔ _
  rw [View.set_slice_whole, Rect.mem_set_unit]
  exact Iff.rfl

/-- Row i of the output lies in the block of point i / 256: the sixteen blocks cover the array. -/
theorem recCovered (i : S4096x4096.Idx) : ∃ t : Fin cfg2.N, (cfg2.win 4).flush t = true ∧ i ∈ ((cfg2.win 4).blk t).view.set := by
  have hi0 : (i 0).val < 4096 := (i 0).isLt
  have hi1 : (i 1).val < 4096 := (i 1).isLt
  obtain ⟨t, htv⟩ : ∃ t : Fin cfg2.N, t.val = (i 0).val / 256 := ⟨⟨(i 0).val / 256, by rw [show cfg2.N = 16 from N_2]; omega⟩, rfl⟩
  obtain ⟨-, -, -, -, -, -, -, -, e40, e41⟩ := recIdx t
  refine ⟨t, flush2_4 t, ?_⟩
  rw [recMem]
  intro a
  match a with
  | ⟨0, _⟩ =>
    show win2_4.index t (0 : Fin 2) * 256 ≤ (i 0).val ∧ (i 0).val < win2_4.index t (0 : Fin 2) * 256 + 256
    rw [e40, htv]; omega
  | ⟨1, _⟩ =>
    show win2_4.index t (1 : Fin 2) * 4096 ≤ (i 1).val ∧ (i 1).val < win2_4.index t (1 : Fin 2) * 4096 + 4096
    rw [e41]; omega

/-- The output array after the region: the reconstruction over the scaled normalisation of the aggregated matrix and
    the two parameter rows as the region found them. -/
theorem recArr_eq (c : Dev nD) :
    (recDat (F := Ideal) V c).arrAt 4 cfg2.N
      = Cert.Spec.arr (Cert.Spec.recScaled (Cert.Spec.mat (a := 4096) (b := 32) (V c main_v7))
          (fun k => (V c main_v4 : Cert.Spec.Arr2 1 32) (ValueIdx.ix2 0 k)) (fun k => (V c main_v5 : Cert.Spec.Arr2 1 32) (ValueIdx.ix2 0 k))) :=
  (recDat (F := Ideal) V c).arrAt_eq_of_cover 4 (recG V c) (fun t _ => recFlushed V c t) recCovered

end Cert.KernelIdeal.Hand

end
-- ==== Proof.PayAttention.lean ====
/-
  The attention payload read at an entry.

  At grid point t the payload takes the whole feature matrix X (4096 × 16), its own 256-row block Xb, the attention
  weight Wm (16 × 16), the two halves a1, a2 of the attention vector as 1 × 16 rows, its 256 rows adjb of the
  adjacency, and the graph-convolution weight Wg (16 × 32). Write i = 256 t + r for the array row of block row r.

    Wh        = X · Wm, and the block's own projection Xb · Wm is rows 256 t … of it
    source    = (Xb · Wm) · a1ᵀ, a 256 × 1 column: at r it is Σ_k Wh i k · a k
    target    = a2 · Whᵀ, a 1 × 4096 row: at j it is Σ_k a (16 + k) · Wh j k, the operands in the other order, which
                is the specification's Σ_k Wh j k · a (16 + k) by commutativity of the product
    logit     = source broadcast along the row + target broadcast down the rows, then leaky ReLU by a comparison and a
                select, then the edge mask by a comparison of the adjacency with zero and a select against the fill value
    softmax   = the row maximum from −∞ (the finite supremum), the exponential of the difference, the row sum, the quotient
    support   = (softmax · Wh) · Wg, two products into zero accumulators

  Each step is read at an entry: the pointwise ones by definition, a product by the sum over the contracted
  coordinate, a reduction along the row by the sum or supremum over the row, a column or row broadcast by the entry
  it copies.
-/
import proofs.«177283_g481036337857_cont_8to1_c_51_7_alg».proof.Proof.Gen.KernelIdeal.Skeleton
import proofs.«177283_g481036337857_cont_8to1_c_51_7_alg».proof.Proof.Spec
import proofs.«177283_g481036337857_cont_8to1_c_51_7_alg».proof.Proof.LibDotRead
import proofs.«177283_g481036337857_cont_8to1_c_51_7_alg».proof.Proof.LibReduceRead

noncomputable section

namespace Cert.Pay

open Idealize.ShloMosaic Idealize.ShloMosaic.ValueIdx

section
variable {s : Shape} {φ : FTy}
/-- The exponential of a vector, at an index. -/
theorem exp_apply (a : FVec Ideal s φ) (i : s.Idx) : exp a i = Ideal.exp (a i) := rfl
end

open Cert.KernelIdeal

/-- The projected features X · Wm at an entry. -/
theorem proj_apply (X : Vec Ideal S4096x16 .f32) (Wm : Vec Ideal S16x16 .f32) (j : Fin 4096) (k : Fin 16) :
    Gen.k0_pay2 (F := Ideal) X Wm (ix2 j k) = Cert.Spec.Wh (Cert.Spec.mat X) (Cert.Spec.mat Wm) j k := by
  unfold Gen.k0_pay2
  exact matmul_plain_apply dot_S4096x16_S16x16_S4096x16_1_0_0_1_n_n rfl rfl rfl rfl rfl rfl none X Wm j k

/-- The row softmax of a 256 × 4096 block at an entry: the row maximum is the supremum over the row, the denominator
    the sum over the row. -/
theorem softmax_apply (m : FVec Ideal S256x4096 .f32) (hr : S256x4096.Reduces [1] S256) (hφ : FKind.Formats .f32)
    (hmax : (0xFF800000#32 : BitVec 32) = 0xFF800000#32) (hadd : (0x00000000#32 : BitVec 32) = 0x00000000#32)
    (hc : S256.ShapeCasts S256x1) (hb : S256x1.Broadcasts S256x4096) (r : Fin 256) (j : Fin 4096) :
    divf
        (exp (subf m (broadcastTo S256x4096
          (shapeCast S256x1 (multiReduction (F := Ideal) .maximumf [1] S256 m 0xFF800000#32 hr hφ hmax) hc) hb)))
        (broadcastTo S256x4096 (shapeCast S256x1 (multiReduction (F := Ideal) .add [1] S256
          (exp (subf m (broadcastTo S256x4096
            (shapeCast S256x1 (multiReduction (F := Ideal) .maximumf [1] S256 m 0xFF800000#32 hr hφ hmax) hc) hb)))
          0x00000000#32 hr hφ hadd) hc) hb) (ix2 r j)
      = Ideal.div (Ideal.exp (m (ix2 r j) - Finset.univ.sup fun j' : Fin 4096 => m (ix2 r j')))
          (∑ j' : Fin 4096, Ideal.exp (m (ix2 r j') - Finset.univ.sup fun j'' : Fin 4096 => m (ix2 r j''))) := by
  simp only [divf_apply, exp_apply, subf_apply, broadcastTo_a1_ab_apply, shapeCast_a_a1_apply,
    rowSum_apply (a := 256) (b := 4096), rowMax_apply (a := 256) (b := 4096)]

/-- The masked logits at an entry, from the source column s8 and the target row d11. -/
theorem masked_apply (s8 : FVec Ideal S256x1 .f32) (d11 : FVec Ideal S1x4096 .f32) (adjb : FVec Ideal S256x4096 .f32)
    (hb1 : S256x1.Broadcasts S256x4096) (hb2 : S1x4096.Broadcasts S256x4096) (r : Fin 256) (j : Fin 4096) :
    select (cmpf .ogt adjb (broadcast S256x4096 (Scalar.ofBits (F := Ideal) .f32 0x00000000#32)))
        (select
          (cmpf .oge (addf (broadcastTo S256x4096 s8 hb1) (broadcastTo S256x4096 d11 hb2))
            (broadcast S256x4096 (Scalar.ofBits (F := Ideal) .f32 0x00000000#32)))
          (addf (broadcastTo S256x4096 s8 hb1) (broadcastTo S256x4096 d11 hb2))
          (mulf (broadcast S256x4096 (Scalar.ofBits (F := Ideal) .f32 0x3E4CCCCD#32))
            (addf (broadcastTo S256x4096 s8 hb1) (broadcastTo S256x4096 d11 hb2))))
        (broadcast S256x4096 (Scalar.ofBits (F := Ideal) .f32 0xD9FFCB9E#32)) (ix2 r j)
      = Scalar.select (Ideal.cmp .ogt (adjb (ix2 r j)) (Cert.Spec.lit 0x00000000#32))
          (Cert.Spec.leaky (s8 (ix2 r (0 : Fin 1)) + d11 (ix2 (0 : Fin 1) j))) (Cert.Spec.lit 0xD9FFCB9E#32) := by
  simp only [select_apply, cmpf_apply, addf_apply, mulf_apply, broadcast_apply, broadcastTo_a1_ab_apply,
    broadcastTo_1b_ab_apply]
  rfl

/-- The source score column at row r: Σ_k (Xb · Wm) (r, k) · a1 (0, k). -/
theorem src_apply (V5 : FVec Ideal S256x16 .f32) (a1 : FVec Ideal S1x16 .f32) (r : Fin 256) (u : Fin 1) :
    FloatOps.matmul dot_S256x16_S1x16_S256x1_1_1_0_0_n_n none V5 a1 (constant (F := Ideal) S256x1 .f32 0x00000000#32) (ix2 r u)
      = ∑ k : Fin 16, V5 (ix2 r k) * a1 (ix2 u k) :=
  matmul_transposedRhs_apply dot_S256x16_S1x16_S256x1_1_1_0_0_n_n rfl rfl rfl rfl rfl rfl none V5 a1 r u

/-- The target score row at column j, with the factors in the specification's order. -/
theorem dst_apply (a2 : FVec Ideal S1x16 .f32) (W2 : FVec Ideal S4096x16 .f32) (u : Fin 1) (j : Fin 4096) :
    FloatOps.matmul dot_S1x16_S4096x16_S1x4096_1_1_0_0_n_n none a2 W2 (constant (F := Ideal) S1x4096 .f32 0x00000000#32) (ix2 u j)
      = ∑ k : Fin 16, W2 (ix2 j k) * a2 (ix2 u k) :=
  (matmul_transposedRhs_apply dot_S1x16_S4096x16_S1x4096_1_1_0_0_n_n rfl rfl rfl rfl rfl rfl none a2 W2 u j).trans
    (Finset.sum_congr rfl fun k _ => mul_comm _ _)

/-- The block's own projection Xb · Wm is the projection of the rows of X it holds. -/
theorem projBlk_apply (X : Vec Ideal S4096x16 .f32) (Wm : Vec Ideal S16x16 .f32) (Xb : Vec Ideal S256x16 .f32) (t : Fin 16)
    (hXb : ∀ (r : Fin 256) (k : Fin 16), Xb (ix2 r k) = X (ix2 ⟨256 * t.val + r.val, by omega⟩ k)) (r : Fin 256) (k : Fin 16) :
    FloatOps.matmul (φ₁ := .f32) (φ₂ := .f32) dot_S256x16_S16x16_S256x16_1_0_0_1_n_n none Xb Wm
        (constant (F := Ideal) S256x16 .f32 0x00000000#32) (ix2 r k)
      = Cert.Spec.Wh (Cert.Spec.mat X) (Cert.Spec.mat Wm) ⟨256 * t.val + r.val, by omega⟩ k :=
  (matmul_plain_apply dot_S256x16_S16x16_S256x16_1_0_0_1_n_n rfl rfl rfl rfl rfl rfl none Xb Wm r k).trans
    (Finset.sum_congr rfl fun l _ => by rw [hXb]; rfl)

/-- The attention weights of the block at an entry. -/
theorem att_apply (X : Vec Ideal S4096x16 .f32) (Wm : Vec Ideal S16x16 .f32) (Xb : Vec Ideal S256x16 .f32)
    (a1 a2 : Vec Ideal S1x16 .f32) (adjb : Vec Ideal S256x4096 .f32)
    (ADJ : Cert.Spec.Arr2 4096 4096) (A : Cert.Spec.Arr2 32 1) (t : Fin 16)
    (hXb : ∀ (r : Fin 256) (k : Fin 16), Xb (ix2 r k) = X (ix2 ⟨256 * t.val + r.val, by omega⟩ k))
    (hadj : ∀ (r : Fin 256) (j : Fin 4096), adjb (ix2 r j) = ADJ (ix2 ⟨256 * t.val + r.val, by omega⟩ j))
    (ha1 : ∀ k : Fin 16, a1 (ix2 0 k) = A (ix2 ⟨k.val, by omega⟩ 0))
    (ha2 : ∀ k : Fin 16, a2 (ix2 0 k) = A (ix2 ⟨16 + k.val, by omega⟩ 0)) (r : Fin 256) (j : Fin 4096) :
    Gen.k0_pay3 (F := Ideal) X Wm Xb Wm a1 a2 adjb (ix2 r j)
      = Cert.Spec.att (Cert.Spec.mat X) (Cert.Spec.mat ADJ) (Cert.Spec.mat Wm) (Cert.Spec.col A)
          ⟨256 * t.val + r.val, by omega⟩ j := by
  unfold Gen.k0_pay3
  refine (softmax_apply _ _ _ _ _ _ _ r j).trans ?_
  simp only [masked_apply, shapeCast_self, matmul, src_apply, dst_apply, projBlk_apply X Wm Xb t hXb, proj_apply, hadj, ha1, ha2]
  rfl

theorem attention_apply (X : Vec Ideal Cert.KernelIdeal.S4096x16 .f32) (Wm : Vec Ideal Cert.KernelIdeal.S16x16 .f32)
    (Xb : Vec Ideal Cert.KernelIdeal.S256x16 .f32) (a1 a2 : Vec Ideal Cert.KernelIdeal.S1x16 .f32)
    (adjb : Vec Ideal Cert.KernelIdeal.S256x4096 .f32) (Wg : Vec Ideal Cert.KernelIdeal.S16x32 .f32)
    (ADJ : Cert.Spec.Arr2 4096 4096) (A : Cert.Spec.Arr2 32 1) (t : Fin 16)
    (hXb : ∀ (r : Fin 256) (k : Fin 16), Xb (ValueIdx.ix2 r k) = X (ValueIdx.ix2 ⟨256 * t.val + r.val, by omega⟩ k))
    (hadj : ∀ (r : Fin 256) (j : Fin 4096), adjb (ValueIdx.ix2 r j) = ADJ (ValueIdx.ix2 ⟨256 * t.val + r.val, by omega⟩ j))
    (ha1 : ∀ k : Fin 16, a1 (ValueIdx.ix2 0 k) = A (ValueIdx.ix2 ⟨k.val, by omega⟩ 0))
    (ha2 : ∀ k : Fin 16, a2 (ValueIdx.ix2 0 k) = A (ValueIdx.ix2 ⟨16 + k.val, by omega⟩ 0)) (r : Fin 256) (c : Fin 32) :
    Cert.KernelIdeal.Gen.k0_pay1 (F := Ideal) (Cert.KernelIdeal.Gen.k0_pay2 X Wm)
        (Cert.KernelIdeal.Gen.k0_pay3 X Wm Xb Wm a1 a2 adjb)
        (constant Cert.KernelIdeal.S256x16 .f32 0x00000000#32) Wg (ValueIdx.ix2 r c)
      = Cert.Spec.support (Cert.Spec.mat X) (Cert.Spec.mat ADJ) (Cert.Spec.mat Wm) (Cert.Spec.col A) (Cert.Spec.mat Wg)
          ⟨256 * t.val + r.val, by omega⟩ c := by
  unfold Gen.k0_pay1
  refine (matmul_plain_apply dot_S256x16_S16x32_S256x32_1_0_0_1_n_n rfl rfl rfl rfl rfl rfl none _ Wg r c).trans ?_
  refine Finset.sum_congr rfl fun k _ => ?_
  refine congrArg (fun z => z * Wg (ix2 k c)) ?_
  refine (matmul_plain_apply dot_S256x4096_S4096x16_S256x16_1_0_0_1_n_n rfl rfl rfl rfl rfl rfl none _ _ r k).trans ?_
  refine Finset.sum_congr rfl fun j _ => ?_
  rw [att_apply X Wm Xb a1 a2 adjb ADJ A t hXb hadj ha1 ha2 r j, proj_apply]

end Cert.Pay

end
-- ==== Proof.ValueAttention.lean ====
/-
  What the attention region leaves in its output array: the graph convolution's support matrix of the features, the
  adjacency, the two weights and the attention vector as the region finds them.

  Grid point t holds the whole feature matrix (window 0), its rows 256 t … 256 t + 255 again as a block (window 1),
  rows 256 t … 256 t + 255 of the adjacency (window 2), the attention weight (window 3), the two halves of the
  attention vector as 1 × 16 rows (windows 4 and 5), the graph-convolution weight (window 6), and writes back rows
  256 t … 256 t + 255 of the 4096 × 32 output (window 7). The body's one store is the attention payload of the loaded
  blocks; read at block entry (r, c) it is the support at (256 t + r, c). Row i of the output lies in the block of
  point i / 256, so the sixteen blocks cover the array.
-/
import proofs.«177283_g481036337857_cont_8to1_c_51_7_alg».proof.Proof.RegionAttentionData
import proofs.«177283_g481036337857_cont_8to1_c_51_7_alg».proof.Proof.PayAttention
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The offsets of a whole-block access are zero on both axes. -/
theorem attZero : (![0, 0] : Fin 2 → Nat) = fun _ => 0 := funext fun a => by fin_cases a <;> rfl

/-- The eight windows' block indices at every grid point: the two row blocks and the output block are at row block
    t, the other five windows are one block. -/
theorem attIdx : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0)

/-- The payload of the loaded blocks, at a block entry, is the support at the array entry over it. -/
theorem attPoint (x0 : Vec Ideal S4096x16 .f32) (x1 : Vec Ideal S256x16 .f32) (x2 : Vec Ideal S256x4096 .f32)
    (x3 : Vec Ideal S16x16 .f32) (x4 x5 : Vec Ideal S1x16 .f32) (x6 : Vec Ideal S16x32 .f32)
    (X : Cert.Spec.Arr2 4096 16) (ADJ : Cert.Spec.Arr2 4096 4096) (Wm : Cert.Spec.Arr2 16 16) (A : Cert.Spec.Arr2 32 1)
    (Wg : Cert.Spec.Arr2 16 32) (tv : ℕ) (htv : tv < 16)
    (h0 : ∀ (p : Fin 4096) (k : Fin 16), x0 (ix2 p k) = X (ix2 p k))
    (h1 : ∀ (r : Fin 256) (k : Fin 16), x1 (ix2 r k) = X (ix2 ⟨256 * tv + r.val, by omega⟩ k))
    (h2 : ∀ (r : Fin 256) (j : Fin 4096), x2 (ix2 r j) = ADJ (ix2 ⟨256 * tv + r.val, by omega⟩ j))
    (h3 : ∀ (l k : Fin 16), x3 (ix2 l k) = Wm (ix2 l k))
    (h4 : ∀ k : Fin 16, x4 (ix2 0 k) = A (ix2 ⟨k.val, by omega⟩ 0))
    (h5 : ∀ k : Fin 16, x5 (ix2 0 k) = A (ix2 ⟨16 + k.val, by omega⟩ 0))
    (h6 : ∀ (k : Fin 16) (cc : Fin 32), x6 (ix2 k cc) = Wg (ix2 k cc))
    (y : S256x32.Idx) (i : S4096x32.Idx) (hi0 : (i 0).val = 256 * tv + (y 0).val) (hi1 : (i 1).val = (y 1).val) :
    k0_pay1 (F := Ideal) (k0_pay2 x0 x3) (k0_pay3 x0 x3 x1 x3 x4 x5 x2) (constant S256x16 .f32 0x00000000#32) x6 y
      = Cert.Spec.arr (Cert.Spec.support (Cert.Spec.mat X) (Cert.Spec.mat ADJ) (Cert.Spec.mat Wm) (Cert.Spec.col A)
          (Cert.Spec.mat Wg)) i := by
  obtain ⟨r, cc, rfl⟩ : ∃ (r : Fin 256) (cc : Fin 32), y = ix2 r cc := ⟨y 0, y 1, eq_ix2 y⟩
  have hlt : 256 * tv + r.val < 4096 := by have := r.isLt; omega
  obtain ⟨p, q, rfl⟩ : ∃ (p : Fin 4096) (q : Fin 32), i = ix2 p q := ⟨i 0, i 1, eq_ix2 i⟩
  have hp : p = ⟨256 * tv + r.val, hlt⟩ := Fin.ext hi0
  have hq : q = cc := Fin.ext hi1
  subst hp hq
  obtain rfl : x0 = X := funext fun idx => by rw [eq_ix2 idx]; exact h0 _ _
  obtain rfl : x3 = Wm := funext fun idx => by rw [eq_ix2 idx]; exact h3 _ _
  obtain rfl : x6 = Wg := funext fun idx => by rw [eq_ix2 idx]; exact h6 _ _
  rw [Cert.Pay.attention_apply x0 x3 x1 x4 x5 x2 x6 ADJ A ⟨tv, htv⟩ h1 h2 h4 h5 r q]
  rfl

variable (V : (c : Dev nD) → (b : Ref sig .tc) → Buf (Elt Ideal) ((c : Thread nD τ).loc b))

/-- The whole-array function of the region's input arrays, for an attention vector A whose two halves the region finds
    as the two 1 × 16 rows. -/
abbrev attG (c : Dev nD) (A : Cert.Spec.Arr2 32 1) : Cert.Spec.Arr2 4096 32 :=
  Cert.Spec.arr (Cert.Spec.support (Cert.Spec.mat (a := 4096) (b := 16) (V c main_arg0))
    (Cert.Spec.mat (a := 4096) (b := 4096) (V c main_arg1)) (Cert.Spec.mat (a := 16) (b := 16) (V c main_arg2)) (Cert.Spec.col A)
    (Cert.Spec.mat (a := 16) (b := 32) (V c main_arg4)))

/-- What grid point t writes back is its block of the whole-array function. -/
theorem attFlushed (c : Dev nD) (A : Cert.Spec.Arr2 32 1)
    (ha1 : ∀ k : Fin 16, (V c main_v1 : Cert.Spec.Arr2 1 16) (ix2 0 k) = A (ix2 ⟨k.val, by omega⟩ 0))
    (ha2 : ∀ k : Fin 16, (V c main_v3 : Cert.Spec.Arr2 1 16) (ix2 0 k) = A (ix2 ⟨16 + k.val, by omega⟩ 0)) (t : Fin cfg0.N) :
    (attDat (F := Ideal) V c).flushed 7 t = ((cfg0.win 7).blk t).view.read (Elt Ideal) (attG V c A) := by
  show (cfg0.win 7).cut (grid0.coords t) ((attDat V c).after 7 t) = _
  rw [attAfter7]
  unfold attOut
  rw [View.canon_unit_zero attZero]
  simp only [View.ld_unit_zero (S := S4096x16) attZero, View.ld_unit_zero (S := S256x16) attZero,
    View.ld_unit_zero (S := S256x4096) attZero, View.ld_unit_zero (S := S16x16) attZero,
    View.ld_unit_zero (S := S1x16) attZero, View.ld_unit_zero (S := S16x32) attZero]
  obtain ⟨e00, e01, e10, e11, e20, e21, e30, e31, e40, e41, e50, e51, e60, e61, e70, e71⟩ := attIdx t
  have ht : t.val < 16 := lt_of_lt_of_eq t.isLt N_0
  funext j
  show k0_pay1 (k0_pay2 (attBlk V c 0 t) (attBlk V c 3 t))
      (k0_pay3 (attBlk V c 0 t) (attBlk V c 3 t) (attBlk V c 1 t) (attBlk V c 3 t) (attBlk V c 4 t) (attBlk V c 5 t) (attBlk V c 2 t))
      (constant S256x16 .f32 0x00000000#32) (attBlk V c 6 t) ((cfg0.win 7).xinj (grid0.coords t) j)
    = attG V c A (((cfg0.win 7).blk t).view.emb j)
  refine attPoint _ _ _ _ _ _ _ (V c main_arg0) (V c main_arg1) (V c main_arg2) A (V c main_arg4) t.val ht
    (fun p k => ?_) (fun r k => ?_) (fun r j' => ?_) (fun l k => ?_) (fun k => ?_) (fun k => ?_) (fun k cc => ?_) _ _ ?_ ?_
  · show V c main_arg0 (((cfg0.win 0).blk t).view.emb (ix2 p k)) = _
    refine congrArg (V c main_arg0) (funext fun a => Fin.ext ?_)
    match a with
    | ⟨0, _⟩ => show win0_0.index t (0 : Fin 2) * 4096 + 1 * p.val = p.val; rw [e00]; omega
    | ⟨1, _⟩ => show win0_0.index t (1 : Fin 2) * 16 + 1 * k.val = k.val; rw [e01]; omega
  · show V c main_arg0 (((cfg0.win 1).blk t).view.emb (ix2 r k)) = _
    refine congrArg (V c main_arg0) (funext fun a => Fin.ext ?_)
    match a with
    | ⟨0, _⟩ => show win0_1.index t (0 : Fin 2) * 256 + 1 * r.val = 256 * t.val + r.val; rw [e10]; omega
    | ⟨1, _⟩ => show win0_1.index t (1 : Fin 2) * 16 + 1 * k.val = k.val; rw [e11]; omega
  · show V c main_arg1 (((cfg0.win 2).blk t).view.emb (ix2 r j')) = _
    refine congrArg (V c main_arg1) (funext fun a => Fin.ext ?_)
    match a with
    | ⟨0, _⟩ => show win0_2.index t (0 : Fin 2) * 256 + 1 * r.val = 256 * t.val + r.val; rw [e20]; omega
    | ⟨1, _⟩ => show win0_2.index t (1 : Fin 2) * 4096 + 1 * j'.val = j'.val; rw [e21]; omega
  · show V c main_arg2 (((cfg0.win 3).blk t).view.emb (ix2 l k)) = _
    refine congrArg (V c main_arg2) (funext fun a => Fin.ext ?_)
    match a with
    | ⟨0, _⟩ => show win0_3.index t (0 : Fin 2) * 16 + 1 * l.val = l.val; rw [e30]; omega
    | ⟨1, _⟩ => show win0_3.index t (1 : Fin 2) * 16 + 1 * k.val = k.val; rw [e31]; omega
  · refine Eq.trans ?_ (ha1 k)
    show V c main_v1 (((cfg0.win 4).blk t).view.emb (ix2 0 k)) = _
    refine congrArg (V c main_v1) (funext fun a => Fin.ext ?_)
    match a with
    | ⟨0, _⟩ => show win0_4.index t (0 : Fin 2) * 1 + 1 * 0 = 0; rw [e40]
    | ⟨1, _⟩ => show win0_4.index t (1 : Fin 2) * 16 + 1 * k.val = k.val; rw [e41]; omega
  · refine Eq.trans ?_ (ha2 k)
    show V c main_v3 (((cfg0.win 5).blk t).view.emb (ix2 0 k)) = _
    refine congrArg (V c main_v3) (funext fun a => Fin.ext ?_)
    match a with
    | ⟨0, _⟩ => show win0_5.index t (0 : Fin 2) * 1 + 1 * 0 = 0; rw [e50]
    | ⟨1, _⟩ => show win0_5.index t (1 : Fin 2) * 16 + 1 * k.val = k.val; rw [e51]; omega
  · show V c main_arg4 (((cfg0.win 6).blk t).view.emb (ix2 k cc)) = _
    refine congrArg (V c main_arg4) (funext fun a => Fin.ext ?_)
    match a with
    | ⟨0, _⟩ => show win0_6.index t (0 : Fin 2) * 16 + 1 * k.val = k.val; rw [e60]; omega
    | ⟨1, _⟩ => show win0_6.index t (1 : Fin 2) * 32 + 1 * cc.val = cc.val; rw [e61]; omega
  · show win0_7.index t (0 : Fin 2) * 256 + 1 * (j 0).val = 256 * t.val + (j 0).val; rw [e70]; omega
  · show win0_7.index t (1 : Fin 2) * 32 + 1 * (j 1).val = (j 1).val; rw [e71]; omega

/-- An index of the output array is in point t's block iff each coordinate is in the block's range on its axis. -/
theorem attMem (t : Fin cfg0.N) (i : S4096x32.Idx) :
    i ∈ ((cfg0.win 7).blk t).view.set ↔ ∀ a : Fin 2, win0_7.index t a * S256x32.size a ≤ (i a).val
      ∧ (i a).val < win0_7.index t a * S256x32.size a + S256x32.size a := by
  show i ∈ ((View.whole main_v6).slice (win0_7.rect t)).set ↔ _
  rw [View.set_slice_whole, Rect.mem_set_unit]
  exact Iff.rfl

/-- Row i of the output lies in the block of point i / 256: the sixteen blocks cover the array. -/
theorem attCovered (i : S4096x32.Idx) : ∃ t : Fin cfg0.N, (cfg0.win 7).flush t = true ∧ i ∈ ((cfg0.win 7).blk t).view.set := by
  have hi0 : (i 0).val < 4096 := (i 0).isLt
  have hi1 : (i 1).val < 32 := (i 1).isLt
  obtain ⟨t, htv⟩ : ∃ t : Fin cfg0.N, t.val = (i 0).val / 256 := ⟨⟨(i 0).val / 256, by rw [show cfg0.N = 16 from N_0]; omega⟩, rfl⟩
  obtain ⟨-, -, -, -, -, -, -, -, -, -, -, -, -, -, e70, e71⟩ := attIdx t
  refine ⟨t, flush0_7 t, ?_⟩
  rw [attMem]
  intro a
  match a with
  | ⟨0, _⟩ =>
    show win0_7.index t (0 : Fin 2) * 256 ≤ (i 0).val ∧ (i 0).val < win0_7.index t (0 : Fin 2) * 256 + 256
    rw [e70, htv]; omega
  | ⟨1, _⟩ =>
    show win0_7.index t (1 : Fin 2) * 32 ≤ (i 1).val ∧ (i 1).val < win0_7.index t (1 : Fin 2) * 32 + 32
    rw [e71]; omega

/-- The output array after the region: the support matrix of the input arrays as the region found them. -/
theorem attArr_eq (c : Dev nD) (A : Cert.Spec.Arr2 32 1)
    (ha1 : ∀ k : Fin 16, (V c main_v1 : Cert.Spec.Arr2 1 16) (ValueIdx.ix2 0 k) = A (ValueIdx.ix2 ⟨k.val, by omega⟩ 0))
    (ha2 : ∀ k : Fin 16, (V c main_v3 : Cert.Spec.Arr2 1 16) (ValueIdx.ix2 0 k) = A (ValueIdx.ix2 ⟨16 + k.val, by omega⟩ 0)) :
    (attDat (F := Ideal) V c).arrAt 7 cfg0.N
      = Cert.Spec.arr (Cert.Spec.support (Cert.Spec.mat (a := 4096) (b := 16) (V c main_arg0))
          (Cert.Spec.mat (a := 4096) (b := 4096) (V c main_arg1)) (Cert.Spec.mat (a := 16) (b := 16) (V c main_arg2))
          (Cert.Spec.col A) (Cert.Spec.mat (a := 16) (b := 32) (V c main_arg4))) :=
  (attDat (F := Ideal) V c).arrAt_eq_of_cover 7 (attG V c A) (fun t _ => attFlushed V c A ha1 ha2 t) attCovered

end Cert.KernelIdeal.Hand

end
-- ==== Proof.ValueHost.lean ====
/-
  What the kernel program's host stretch leaves in the buffers the regions read: the arguments it does not write
  keep their launch contents; the two halves of the attention vector, sliced out of the 32 × 1 column and recast as
  rows of 16, read at (0, k) the column at row k and at row 16 + k; the scale and the shift, recast from vectors of
  32 to rows, read at (0, k) the vector at k.
-/
import proofs.«177283_g481036337857_cont_8to1_c_51_7_alg».proof.Proof.Records
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (c : Dev nD)

/-! ## The arguments the host stretch does not write -/

theorem W1_arg0 : W1 m c main_arg0 = m ((c : Thread nD τ).loc main_arg0) := (V1_of m c main_arg0 (by decide)).trans rfl
theorem W1_arg1 : W1 m c main_arg1 = m ((c : Thread nD τ).loc main_arg1) := (V1_of m c main_arg1 (by decide)).trans rfl
theorem W1_arg2 : W1 m c main_arg2 = m ((c : Thread nD τ).loc main_arg2) := (V1_of m c main_arg2 (by decide)).trans rfl
theorem W1_arg4 : W1 m c main_arg4 = m ((c : Thread nD τ).loc main_arg4) := (V1_of m c main_arg4 (by decide)).trans rfl

/-! ## The halves of the attention vector, as rows -/

/-- The first half: the slice of rows 0 … 15, recast 16 × 1 → 1 × 16. -/
theorem W1_v1 (k : Fin 16) :
    W1 m c main_v1 (ix2 (0 : Fin 1) k) = m ((c : Thread nD τ).loc main_arg3) (ix2 (⟨k.val, by omega⟩ : Fin 32) (0 : Fin 1)) := by
  have e : (V1 m c main_v1 : S1x16.Idx → EReal)
      = shapeCast S1x16 (extractStridedSlice S16x1 ![0, 0] (m ((c : Thread nD τ).loc main_arg3)) slices_S32x1_S16x1_0_0)
          shapeCasts_S16x1_S1x16 := by
    dsimp only [V1, V0, hostOps0]
    after_results
    rfl
  show (V1 m c main_v1 : S1x16.Idx → EReal) (ix2 (0 : Fin 1) k) = _
  rw [e, shapeCast_apply _ shapeCasts_S16x1_S1x16 (ix2 (0 : Fin 1) k) (ix2 k (0 : Fin 1)) (by
    rw [Shape.rowMajor_val_two, Shape.rowMajor_val_two]
    show k.val * 1 + 0 = 0 * 16 + k.val
    omega)]
  exact extractStridedSlice_apply ![0, 0] _ slices_S32x1_S16x1_0_0 (ix2 k (0 : Fin 1)) (ix2 (⟨k.val, by omega⟩ : Fin 32) (0 : Fin 1))
    (fun b => match b with
      | ⟨0, _⟩ => by show k.val = 0 + k.val; omega
      | ⟨1, _⟩ => by show 0 = 0 + 0; rfl)

/-- The second half: the slice of rows 16 … 31, recast 16 × 1 → 1 × 16. -/
theorem W1_v3 (k : Fin 16) :
    W1 m c main_v3 (ix2 (0 : Fin 1) k) = m ((c : Thread nD τ).loc main_arg3) (ix2 (⟨16 + k.val, by omega⟩ : Fin 32) (0 : Fin 1)) := by
  have e : (V1 m c main_v3 : S1x16.Idx → EReal)
      = shapeCast S1x16 (extractStridedSlice S16x1 ![16, 0] (m ((c : Thread nD τ).loc main_arg3)) slices_S32x1_S16x1_16_0)
          shapeCasts_S16x1_S1x16 := by
    dsimp only [V1, V0, hostOps0]
    after_results
    rfl
  show (V1 m c main_v3 : S1x16.Idx → EReal) (ix2 (0 : Fin 1) k) = _
  rw [e, shapeCast_apply _ shapeCasts_S16x1_S1x16 (ix2 (0 : Fin 1) k) (ix2 k (0 : Fin 1)) (by
    rw [Shape.rowMajor_val_two, Shape.rowMajor_val_two]
    show k.val * 1 + 0 = 0 * 16 + k.val
    omega)]
  exact extractStridedSlice_apply ![16, 0] _ slices_S32x1_S16x1_16_0 (ix2 k (0 : Fin 1)) (ix2 (⟨16 + k.val, by omega⟩ : Fin 32) (0 : Fin 1))
    (fun b => match b with
      | ⟨0, _⟩ => by show 16 + k.val = 16 + k.val; rfl
      | ⟨1, _⟩ => by show 0 = 0 + 0; rfl)

/-! ## The scale and the shift, as rows -/

/-- The scale: the vector of 32 recast 32 → 1 × 32. -/
theorem W1_v4 (k : Fin 32) :
    W1 m c main_v4 (ix2 (0 : Fin 1) k) = m ((c : Thread nD τ).loc main_arg5) (ix1 k) := by
  have e : (V1 m c main_v4 : S1x32.Idx → EReal) = shapeCast S1x32 (m ((c : Thread nD τ).loc main_arg5)) shapeCasts_S32_S1x32 := by
    dsimp only [V1, V0, hostOps0]
    after_results
    rfl
  show (V1 m c main_v4 : S1x32.Idx → EReal) (ix2 (0 : Fin 1) k) = _
  rw [e]
  exact shapeCast_a_1a_apply _ shapeCasts_S32_S1x32 (0 : Fin 1) k

/-- The shift: the vector of 32 recast 32 → 1 × 32. -/
theorem W1_v5 (k : Fin 32) :
    W1 m c main_v5 (ix2 (0 : Fin 1) k) = m ((c : Thread nD τ).loc main_arg6) (ix1 k) := by
  have e : (V1 m c main_v5 : S1x32.Idx → EReal) = shapeCast S1x32 (m ((c : Thread nD τ).loc main_arg6)) shapeCasts_S32_S1x32 := by
    dsimp only [V1, V0, hostOps0]
    after_results
    rfl
  show (V1 m c main_v5 : S1x32.Idx → EReal) (ix2 (0 : Fin 1) k) = _
  rw [e]
  exact shapeCast_a_1a_apply _ shapeCasts_S32_S1x32 (0 : Fin 1) k

end Cert.KernelIdeal.Hand

end
-- ==== Proof.ValueWhole.lean ====
/-
  The whole kernel program's value: what the last region leaves in the reconstruction's buffer is the specification's
  whole map, with the scaled normalisation, of the seven argument arrays.

  The three regions run one after the other, each entered from the contents the one before left. The attention region
  leaves the support matrix of the features, the adjacency, the two weights and the attention vector; the aggregation
  region finds that matrix and the adjacency and leaves their rectified aggregation; the last region finds the aggregated
  matrix and the scale and shift rows and leaves the reconstruction over its scaled normalisation. Between the regions
  every other buffer keeps its contents, so the adjacency the second region reads is the argument, and the rows the
  third reads are what the host stretch left. The host stretch leaves the arguments as they were, the two halves of the
  attention vector as 1 × 16 rows, and the scale and shift as 1 × 32 rows.

  A matrix written as an array and read back as a matrix is the matrix, so the three whole-array functions compose to
  the specification's map.
-/
import proofs.«177283_g481036337857_cont_8to1_c_51_7_alg».proof.Proof.ValueAggregate
import proofs.«177283_g481036337857_cont_8to1_c_51_7_alg».proof.Proof.ValueNormRec
import proofs.«177283_g481036337857_cont_8to1_c_51_7_alg».proof.Proof.ValueAttention
import proofs.«177283_g481036337857_cont_8to1_c_51_7_alg».proof.Proof.Records
import proofs.«177283_g481036337857_cont_8to1_c_51_7_alg».proof.Proof.RecordAttention
import proofs.«177283_g481036337857_cont_8to1_c_51_7_alg».proof.Proof.ValueHost

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- A matrix written as an array and read back as a matrix is the matrix. -/
theorem mat_arr {a b : ℕ} (f : Cert.Spec.Mat a b) : Cert.Spec.mat (Cert.Spec.arr f) = f := rfl

variable (m : (ℓ : Loc nD τ sig) → Buf (Elt Ideal) ℓ)

/-- The chain of the three regions, from the host stretch's facts: the arguments unchanged, the attention vector's
    halves and the scale and shift as rows. -/
theorem recBuf_eq_of_host (c : Dev nD)
    (h0 : W1 m c main_arg0 = m ((c : Thread nD τ).loc main_arg0)) (h1 : W1 m c main_arg1 = m ((c : Thread nD τ).loc main_arg1))
    (h2 : W1 m c main_arg2 = m ((c : Thread nD τ).loc main_arg2)) (h4 : W1 m c main_arg4 = m ((c : Thread nD τ).loc main_arg4))
    (hv1 : ∀ k : Fin 16, (W1 m c main_v1 : Cert.Spec.Arr2 1 16) (ix2 0 k)
      = (m ((c : Thread nD τ).loc main_arg3) : Cert.Spec.Arr2 32 1) (ix2 ⟨k.val, by omega⟩ 0))
    (hv3 : ∀ k : Fin 16, (W1 m c main_v3 : Cert.Spec.Arr2 1 16) (ix2 0 k)
      = (m ((c : Thread nD τ).loc main_arg3) : Cert.Spec.Arr2 32 1) (ix2 ⟨16 + k.val, by omega⟩ 0))
    (hv4 : ∀ k : Fin 32, (W1 m c main_v4 : Cert.Spec.Arr2 1 32) (ix2 0 k) = (m ((c : Thread nD τ).loc main_arg5) : Cert.Spec.Arr1 32) (ix1 k))
    (hv5 : ∀ k : Fin 32, (W1 m c main_v5 : Cert.Spec.Arr2 1 32) (ix2 0 k) = (m ((c : Thread nD τ).loc main_arg6) : Cert.Spec.Arr1 32) (ix1 k)) :
    recBuf (F := Ideal) m c
      = Cert.Spec.wholeScaled (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  -- the support matrix the attention region leaves
  have hsup : supBuf m c = Cert.Spec.arr (Cert.Spec.support
      (Cert.Spec.mat (a := 4096) (b := 16) (m ((c : Thread nD τ).loc main_arg0)))
      (Cert.Spec.mat (a := 4096) (b := 4096) (m ((c : Thread nD τ).loc main_arg1)))
      (Cert.Spec.mat (a := 16) (b := 16) (m ((c : Thread nD τ).loc main_arg2)))
      (Cert.Spec.col (m ((c : Thread nD τ).loc main_arg3) : Cert.Spec.Arr2 32 1))
      (Cert.Spec.mat (a := 16) (b := 32) (m ((c : Thread nD τ).loc main_arg4)))) := by
    unfold supBuf
    rw [attArr_eq (atRefs (W1 m)) c (m ((c : Thread nD τ).loc main_arg3)) hv1 hv3]
    show Cert.Spec.arr (Cert.Spec.support (Cert.Spec.mat (W1 m c main_arg0)) (Cert.Spec.mat (W1 m c main_arg1))
      (Cert.Spec.mat (W1 m c main_arg2)) _ (Cert.Spec.mat (W1 m c main_arg4))) = _
    rw [h0, h1, h2, h4]
  -- the aggregated matrix the aggregation region leaves
  have hagg : aggBuf m c = Cert.Spec.arr (Cert.Spec.aggOf (m ((c : Thread nD τ).loc main_arg0)) (m ((c : Thread nD τ).loc main_arg1))
      (m ((c : Thread nD τ).loc main_arg2)) (m ((c : Thread nD τ).loc main_arg3)) (m ((c : Thread nD τ).loc main_arg4))) := by
    unfold aggBuf
    rw [aggArr_eq (atRefs (W2 m)) c]
    show Cert.Spec.arr (Cert.Spec.agg (Cert.Spec.mat (W2 m c main_arg1)) (Cert.Spec.mat (W2 m c main_v6))) = _
    rw [W2_of_ne m c main_arg1 (by decide), W2_self, h1, hsup]
    rfl
  unfold recBuf
  rw [recArr_eq (atRefs (W3 m)) c]
  show Cert.Spec.arr (Cert.Spec.recScaled (Cert.Spec.mat (W3 m c main_v7))
    (fun k => (W3 m c main_v4 : Cert.Spec.Arr2 1 32) (ix2 0 k)) (fun k => (W3 m c main_v5 : Cert.Spec.Arr2 1 32) (ix2 0 k))) = _
  rw [W3_self, W3_of_ne m c main_v4 (by decide), W3_of_ne m c main_v5 (by decide), W2_of_ne m c main_v4 (by decide),
    W2_of_ne m c main_v5 (by decide), hagg]
  simp only [hv4, hv5]
  rfl

/-- What the last region leaves in the reconstruction's buffer is the specification's whole map of the seven
    argument arrays. -/
theorem recBuf_eq (m : (ℓ : Loc nD τ sig) → Buf (Elt Ideal) ℓ) (c : Dev nD) :
    recBuf (F := Ideal) m c
      = Cert.Spec.wholeScaled (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) :=
  recBuf_eq_of_host m c (W1_arg0 m c) (W1_arg1 m c) (W1_arg2 m c) (W1_arg4 m c) (W1_v1 m c) (W1_v3 m c) (W1_v4 m c) (W1_v5 m c)

end Cert.KernelIdeal.Hand

end
-- ==== Proof.RefReadDot.lean ====
/-
  Each matrix product of the reference program read at an index: a contraction over one axis is the sum, over that
  axis's coordinate k, of the left operand at (i, k) times the right operand at (k, j).
-/
import proofs.«177283_g481036337857_cont_8to1_c_51_7_alg».proof.Proof.Gen.ReferenceIdeal
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx

/-- Left operand coordinates of the contraction 4096 × 16 by 16 × 16: the free axis takes the result's row, the contracted axis the
    contraction index. -/
theorem dot_x_W_lhs0 (i : S4096x16.Idx) (q : dot_S4096x16_S16x16_S4096x16_1_0_0_1_n_n.contr.Idx) : (dot_S4096x16_S16x16_S4096x16_1_0_0_1_n_n.lhsIdx i q 0).val = (i 0).val := by
  unfold DotDims.lhsIdx
  rw [dif_neg (show ¬(0 : Fin S4096x16.rank) ∈ dot_S4096x16_S16x16_S4096x16_1_0_0_1_n_n.lhsBatch by decide), dif_pos (show (0 : Fin S4096x16.rank) ∈ dot_S4096x16_S16x16_S4096x16_1_0_0_1_n_n.lhsNonContracting by decide)]
  rfl
theorem dot_x_W_lhs1 (i : S4096x16.Idx) (q : dot_S4096x16_S16x16_S4096x16_1_0_0_1_n_n.contr.Idx) : (dot_S4096x16_S16x16_S4096x16_1_0_0_1_n_n.lhsIdx i q 1).val = (q ⟨0, by decide⟩).val :=
  dot_S4096x16_S16x16_S4096x16_1_0_0_1_n_n.lhsIdx_val_of_single rfl i q
/-- Right operand coordinates: the contracted axis takes the contraction index, the free axis the result's column. -/
theorem dot_x_W_rhs0 (i : S4096x16.Idx) (q : dot_S4096x16_S16x16_S4096x16_1_0_0_1_n_n.contr.Idx) : (dot_S4096x16_S16x16_S4096x16_1_0_0_1_n_n.rhsIdx i q 0).val = (q ⟨0, by decide⟩).val :=
  dot_S4096x16_S16x16_S4096x16_1_0_0_1_n_n.rhsIdx_val_of_single rfl i q
theorem dot_x_W_rhs1 (i : S4096x16.Idx) (q : dot_S4096x16_S16x16_S4096x16_1_0_0_1_n_n.contr.Idx) : (dot_S4096x16_S16x16_S4096x16_1_0_0_1_n_n.rhsIdx i q 1).val = (i 1).val := by
  unfold DotDims.rhsIdx
  rw [dif_neg (show ¬(1 : Fin S16x16.rank) ∈ dot_S4096x16_S16x16_S4096x16_1_0_0_1_n_n.rhsBatch by decide), dif_pos (show (1 : Fin S16x16.rank) ∈ dot_S4096x16_S16x16_S4096x16_1_0_0_1_n_n.rhsNonContracting by decide)]
  rfl

/-- The product of a 4096 × 16 and a 16 × 16 matrix at (i, j) is the sum over k of left (i, k) times right (k, j). -/
theorem dot_x_W_apply (l : FVec Ideal S4096x16 .f32) (r : FVec Ideal S16x16 .f32) (i : Fin 4096) (j : Fin 16) :
    Host.dotGeneral (F := Ideal) dot_S4096x16_S16x16_S4096x16_1_0_0_1_n_n none l r (ix2 i j) = ∑ k : Fin 16, l (ix2 i k) * r (ix2 k j) := by
  simp only [Host.dotGeneral]
  rw [Ideal.dotGeneral_apply, ← Equiv.sum_comp (ValueIdx.contrEquiv1 dot_S4096x16_S16x16_S4096x16_1_0_0_1_n_n 16 rfl rfl).symm]
  refine Finset.sum_congr rfl fun k _ => ?_
  have hk := ValueIdx.contrEquiv1_symm_val dot_S4096x16_S16x16_S4096x16_1_0_0_1_n_n 16 rfl rfl k
  have el : dot_S4096x16_S16x16_S4096x16_1_0_0_1_n_n.lhsIdx (ix2 i j) ((ValueIdx.contrEquiv1 dot_S4096x16_S16x16_S4096x16_1_0_0_1_n_n 16 rfl rfl).symm k) = ix2 i k := funext fun a => Fin.ext (by
    match a with
    | ⟨0, _⟩ => exact dot_x_W_lhs0 _ _
    | ⟨1, _⟩ => exact (dot_x_W_lhs1 _ _).trans hk)
  have er : dot_S4096x16_S16x16_S4096x16_1_0_0_1_n_n.rhsIdx (ix2 i j) ((ValueIdx.contrEquiv1 dot_S4096x16_S16x16_S4096x16_1_0_0_1_n_n 16 rfl rfl).symm k) = ix2 k j := funext fun a => Fin.ext (by
    match a with
    | ⟨0, _⟩ => exact (dot_x_W_rhs0 _ _).trans hk
    | ⟨1, _⟩ => exact dot_x_W_rhs1 _ _)
  rw [el, er]

/-- Left operand coordinates of the contraction 4096 × 16 by 16 × 1: the free axis takes the result's row, the contracted axis the
    contraction index. -/
theorem dot_h_col_lhs0 (i : S4096x1.Idx) (q : dot_S4096x16_S16x1_S4096x1_1_0_0_1_n_n.contr.Idx) : (dot_S4096x16_S16x1_S4096x1_1_0_0_1_n_n.lhsIdx i q 0).val = (i 0).val := by
  unfold DotDims.lhsIdx
  rw [dif_neg (show ¬(0 : Fin S4096x16.rank) ∈ dot_S4096x16_S16x1_S4096x1_1_0_0_1_n_n.lhsBatch by decide), dif_pos (show (0 : Fin S4096x16.rank) ∈ dot_S4096x16_S16x1_S4096x1_1_0_0_1_n_n.lhsNonContracting by decide)]
  rfl
theorem dot_h_col_lhs1 (i : S4096x1.Idx) (q : dot_S4096x16_S16x1_S4096x1_1_0_0_1_n_n.contr.Idx) : (dot_S4096x16_S16x1_S4096x1_1_0_0_1_n_n.lhsIdx i q 1).val = (q ⟨0, by decide⟩).val :=
  dot_S4096x16_S16x1_S4096x1_1_0_0_1_n_n.lhsIdx_val_of_single rfl i q
/-- Right operand coordinates: the contracted axis takes the contraction index, the free axis the result's column. -/
theorem dot_h_col_rhs0 (i : S4096x1.Idx) (q : dot_S4096x16_S16x1_S4096x1_1_0_0_1_n_n.contr.Idx) : (dot_S4096x16_S16x1_S4096x1_1_0_0_1_n_n.rhsIdx i q 0).val = (q ⟨0, by decide⟩).val :=
  dot_S4096x16_S16x1_S4096x1_1_0_0_1_n_n.rhsIdx_val_of_single rfl i q
theorem dot_h_col_rhs1 (i : S4096x1.Idx) (q : dot_S4096x16_S16x1_S4096x1_1_0_0_1_n_n.contr.Idx) : (dot_S4096x16_S16x1_S4096x1_1_0_0_1_n_n.rhsIdx i q 1).val = (i 1).val := by
  unfold DotDims.rhsIdx
  rw [dif_neg (show ¬(1 : Fin S16x1.rank) ∈ dot_S4096x16_S16x1_S4096x1_1_0_0_1_n_n.rhsBatch by decide), dif_pos (show (1 : Fin S16x1.rank) ∈ dot_S4096x16_S16x1_S4096x1_1_0_0_1_n_n.rhsNonContracting by decide)]
  rfl

/-- The product of a 4096 × 16 and a 16 × 1 matrix at (i, j) is the sum over k of left (i, k) times right (k, j). -/
theorem dot_h_col_apply (l : FVec Ideal S4096x16 .f32) (r : FVec Ideal S16x1 .f32) (i : Fin 4096) (j : Fin 1) :
    Host.dotGeneral (F := Ideal) dot_S4096x16_S16x1_S4096x1_1_0_0_1_n_n none l r (ix2 i j) = ∑ k : Fin 16, l (ix2 i k) * r (ix2 k j) := by
  simp only [Host.dotGeneral]
  rw [Ideal.dotGeneral_apply, ← Equiv.sum_comp (ValueIdx.contrEquiv1 dot_S4096x16_S16x1_S4096x1_1_0_0_1_n_n 16 rfl rfl).symm]
  refine Finset.sum_congr rfl fun k _ => ?_
  have hk := ValueIdx.contrEquiv1_symm_val dot_S4096x16_S16x1_S4096x1_1_0_0_1_n_n 16 rfl rfl k
  have el : dot_S4096x16_S16x1_S4096x1_1_0_0_1_n_n.lhsIdx (ix2 i j) ((ValueIdx.contrEquiv1 dot_S4096x16_S16x1_S4096x1_1_0_0_1_n_n 16 rfl rfl).symm k) = ix2 i k := funext fun a => Fin.ext (by
    match a with
    | ⟨0, _⟩ => exact dot_h_col_lhs0 _ _
    | ⟨1, _⟩ => exact (dot_h_col_lhs1 _ _).trans hk)
  have er : dot_S4096x16_S16x1_S4096x1_1_0_0_1_n_n.rhsIdx (ix2 i j) ((ValueIdx.contrEquiv1 dot_S4096x16_S16x1_S4096x1_1_0_0_1_n_n 16 rfl rfl).symm k) = ix2 k j := funext fun a => Fin.ext (by
    match a with
    | ⟨0, _⟩ => exact (dot_h_col_rhs0 _ _).trans hk
    | ⟨1, _⟩ => exact dot_h_col_rhs1 _ _)
  rw [el, er]

/-- Left operand coordinates of the contraction 4096 × 4096 by 4096 × 16: the free axis takes the result's row, the contracted axis the
    contraction index. -/
theorem dot_att_h_lhs0 (i : S4096x16.Idx) (q : dot_S4096x4096_S4096x16_S4096x16_1_0_0_1_n_n.contr.Idx) : (dot_S4096x4096_S4096x16_S4096x16_1_0_0_1_n_n.lhsIdx i q 0).val = (i 0).val := by
  unfold DotDims.lhsIdx
  rw [dif_neg (show ¬(0 : Fin S4096x4096.rank) ∈ dot_S4096x4096_S4096x16_S4096x16_1_0_0_1_n_n.lhsBatch by decide), dif_pos (show (0 : Fin S4096x4096.rank) ∈ dot_S4096x4096_S4096x16_S4096x16_1_0_0_1_n_n.lhsNonContracting by decide)]
  rfl
theorem dot_att_h_lhs1 (i : S4096x16.Idx) (q : dot_S4096x4096_S4096x16_S4096x16_1_0_0_1_n_n.contr.Idx) : (dot_S4096x4096_S4096x16_S4096x16_1_0_0_1_n_n.lhsIdx i q 1).val = (q ⟨0, by decide⟩).val :=
  dot_S4096x4096_S4096x16_S4096x16_1_0_0_1_n_n.lhsIdx_val_of_single rfl i q
/-- Right operand coordinates: the contracted axis takes the contraction index, the free axis the result's column. -/
theorem dot_att_h_rhs0 (i : S4096x16.Idx) (q : dot_S4096x4096_S4096x16_S4096x16_1_0_0_1_n_n.contr.Idx) : (dot_S4096x4096_S4096x16_S4096x16_1_0_0_1_n_n.rhsIdx i q 0).val = (q ⟨0, by decide⟩).val :=
  dot_S4096x4096_S4096x16_S4096x16_1_0_0_1_n_n.rhsIdx_val_of_single rfl i q
theorem dot_att_h_rhs1 (i : S4096x16.Idx) (q : dot_S4096x4096_S4096x16_S4096x16_1_0_0_1_n_n.contr.Idx) : (dot_S4096x4096_S4096x16_S4096x16_1_0_0_1_n_n.rhsIdx i q 1).val = (i 1).val := by
  unfold DotDims.rhsIdx
  rw [dif_neg (show ¬(1 : Fin S4096x16.rank) ∈ dot_S4096x4096_S4096x16_S4096x16_1_0_0_1_n_n.rhsBatch by decide), dif_pos (show (1 : Fin S4096x16.rank) ∈ dot_S4096x4096_S4096x16_S4096x16_1_0_0_1_n_n.rhsNonContracting by decide)]
  rfl

/-- The product of a 4096 × 4096 and a 4096 × 16 matrix at (i, j) is the sum over k of left (i, k) times right (k, j). -/
theorem dot_att_h_apply (l : FVec Ideal S4096x4096 .f32) (r : FVec Ideal S4096x16 .f32) (i : Fin 4096) (j : Fin 16) :
    Host.dotGeneral (F := Ideal) dot_S4096x4096_S4096x16_S4096x16_1_0_0_1_n_n none l r (ix2 i j) = ∑ k : Fin 4096, l (ix2 i k) * r (ix2 k j) := by
  simp only [Host.dotGeneral]
  rw [Ideal.dotGeneral_apply, ← Equiv.sum_comp (ValueIdx.contrEquiv1 dot_S4096x4096_S4096x16_S4096x16_1_0_0_1_n_n 4096 rfl rfl).symm]
  refine Finset.sum_congr rfl fun k _ => ?_
  have hk := ValueIdx.contrEquiv1_symm_val dot_S4096x4096_S4096x16_S4096x16_1_0_0_1_n_n 4096 rfl rfl k
  have el : dot_S4096x4096_S4096x16_S4096x16_1_0_0_1_n_n.lhsIdx (ix2 i j) ((ValueIdx.contrEquiv1 dot_S4096x4096_S4096x16_S4096x16_1_0_0_1_n_n 4096 rfl rfl).symm k) = ix2 i k := funext fun a => Fin.ext (by
    match a with
    | ⟨0, _⟩ => exact dot_att_h_lhs0 _ _
    | ⟨1, _⟩ => exact (dot_att_h_lhs1 _ _).trans hk)
  have er : dot_S4096x4096_S4096x16_S4096x16_1_0_0_1_n_n.rhsIdx (ix2 i j) ((ValueIdx.contrEquiv1 dot_S4096x4096_S4096x16_S4096x16_1_0_0_1_n_n 4096 rfl rfl).symm k) = ix2 k j := funext fun a => Fin.ext (by
    match a with
    | ⟨0, _⟩ => exact (dot_att_h_rhs0 _ _).trans hk
    | ⟨1, _⟩ => exact dot_att_h_rhs1 _ _)
  rw [el, er]

/-- Left operand coordinates of the contraction 4096 × 16 by 16 × 32: the free axis takes the result's row, the contracted axis the
    contraction index. -/
theorem dot_h_Wgc_lhs0 (i : S4096x32.Idx) (q : dot_S4096x16_S16x32_S4096x32_1_0_0_1_n_n.contr.Idx) : (dot_S4096x16_S16x32_S4096x32_1_0_0_1_n_n.lhsIdx i q 0).val = (i 0).val := by
  unfold DotDims.lhsIdx
  rw [dif_neg (show ¬(0 : Fin S4096x16.rank) ∈ dot_S4096x16_S16x32_S4096x32_1_0_0_1_n_n.lhsBatch by decide), dif_pos (show (0 : Fin S4096x16.rank) ∈ dot_S4096x16_S16x32_S4096x32_1_0_0_1_n_n.lhsNonContracting by decide)]
  rfl
theorem dot_h_Wgc_lhs1 (i : S4096x32.Idx) (q : dot_S4096x16_S16x32_S4096x32_1_0_0_1_n_n.contr.Idx) : (dot_S4096x16_S16x32_S4096x32_1_0_0_1_n_n.lhsIdx i q 1).val = (q ⟨0, by decide⟩).val :=
  dot_S4096x16_S16x32_S4096x32_1_0_0_1_n_n.lhsIdx_val_of_single rfl i q
/-- Right operand coordinates: the contracted axis takes the contraction index, the free axis the result's column. -/
theorem dot_h_Wgc_rhs0 (i : S4096x32.Idx) (q : dot_S4096x16_S16x32_S4096x32_1_0_0_1_n_n.contr.Idx) : (dot_S4096x16_S16x32_S4096x32_1_0_0_1_n_n.rhsIdx i q 0).val = (q ⟨0, by decide⟩).val :=
  dot_S4096x16_S16x32_S4096x32_1_0_0_1_n_n.rhsIdx_val_of_single rfl i q
theorem dot_h_Wgc_rhs1 (i : S4096x32.Idx) (q : dot_S4096x16_S16x32_S4096x32_1_0_0_1_n_n.contr.Idx) : (dot_S4096x16_S16x32_S4096x32_1_0_0_1_n_n.rhsIdx i q 1).val = (i 1).val := by
  unfold DotDims.rhsIdx
  rw [dif_neg (show ¬(1 : Fin S16x32.rank) ∈ dot_S4096x16_S16x32_S4096x32_1_0_0_1_n_n.rhsBatch by decide), dif_pos (show (1 : Fin S16x32.rank) ∈ dot_S4096x16_S16x32_S4096x32_1_0_0_1_n_n.rhsNonContracting by decide)]
  rfl

/-- The product of a 4096 × 16 and a 16 × 32 matrix at (i, j) is the sum over k of left (i, k) times right (k, j). -/
theorem dot_h_Wgc_apply (l : FVec Ideal S4096x16 .f32) (r : FVec Ideal S16x32 .f32) (i : Fin 4096) (j : Fin 32) :
    Host.dotGeneral (F := Ideal) dot_S4096x16_S16x32_S4096x32_1_0_0_1_n_n none l r (ix2 i j) = ∑ k : Fin 16, l (ix2 i k) * r (ix2 k j) := by
  simp only [Host.dotGeneral]
  rw [Ideal.dotGeneral_apply, ← Equiv.sum_comp (ValueIdx.contrEquiv1 dot_S4096x16_S16x32_S4096x32_1_0_0_1_n_n 16 rfl rfl).symm]
  refine Finset.sum_congr rfl fun k _ => ?_
  have hk := ValueIdx.contrEquiv1_symm_val dot_S4096x16_S16x32_S4096x32_1_0_0_1_n_n 16 rfl rfl k
  have el : dot_S4096x16_S16x32_S4096x32_1_0_0_1_n_n.lhsIdx (ix2 i j) ((ValueIdx.contrEquiv1 dot_S4096x16_S16x32_S4096x32_1_0_0_1_n_n 16 rfl rfl).symm k) = ix2 i k := funext fun a => Fin.ext (by
    match a with
    | ⟨0, _⟩ => exact dot_h_Wgc_lhs0 _ _
    | ⟨1, _⟩ => exact (dot_h_Wgc_lhs1 _ _).trans hk)
  have er : dot_S4096x16_S16x32_S4096x32_1_0_0_1_n_n.rhsIdx (ix2 i j) ((ValueIdx.contrEquiv1 dot_S4096x16_S16x32_S4096x32_1_0_0_1_n_n 16 rfl rfl).symm k) = ix2 k j := funext fun a => Fin.ext (by
    match a with
    | ⟨0, _⟩ => exact (dot_h_Wgc_rhs0 _ _).trans hk
    | ⟨1, _⟩ => exact dot_h_Wgc_rhs1 _ _)
  rw [el, er]

/-- Left operand coordinates of the contraction 4096 × 4096 by 4096 × 32: the free axis takes the result's row, the contracted axis the
    contraction index. -/
theorem dot_adj_s_lhs0 (i : S4096x32.Idx) (q : dot_S4096x4096_S4096x32_S4096x32_1_0_0_1_n_n.contr.Idx) : (dot_S4096x4096_S4096x32_S4096x32_1_0_0_1_n_n.lhsIdx i q 0).val = (i 0).val := by
  unfold DotDims.lhsIdx
  rw [dif_neg (show ¬(0 : Fin S4096x4096.rank) ∈ dot_S4096x4096_S4096x32_S4096x32_1_0_0_1_n_n.lhsBatch by decide), dif_pos (show (0 : Fin S4096x4096.rank) ∈ dot_S4096x4096_S4096x32_S4096x32_1_0_0_1_n_n.lhsNonContracting by decide)]
  rfl
theorem dot_adj_s_lhs1 (i : S4096x32.Idx) (q : dot_S4096x4096_S4096x32_S4096x32_1_0_0_1_n_n.contr.Idx) : (dot_S4096x4096_S4096x32_S4096x32_1_0_0_1_n_n.lhsIdx i q 1).val = (q ⟨0, by decide⟩).val :=
  dot_S4096x4096_S4096x32_S4096x32_1_0_0_1_n_n.lhsIdx_val_of_single rfl i q
/-- Right operand coordinates: the contracted axis takes the contraction index, the free axis the result's column. -/
theorem dot_adj_s_rhs0 (i : S4096x32.Idx) (q : dot_S4096x4096_S4096x32_S4096x32_1_0_0_1_n_n.contr.Idx) : (dot_S4096x4096_S4096x32_S4096x32_1_0_0_1_n_n.rhsIdx i q 0).val = (q ⟨0, by decide⟩).val :=
  dot_S4096x4096_S4096x32_S4096x32_1_0_0_1_n_n.rhsIdx_val_of_single rfl i q
theorem dot_adj_s_rhs1 (i : S4096x32.Idx) (q : dot_S4096x4096_S4096x32_S4096x32_1_0_0_1_n_n.contr.Idx) : (dot_S4096x4096_S4096x32_S4096x32_1_0_0_1_n_n.rhsIdx i q 1).val = (i 1).val := by
  unfold DotDims.rhsIdx
  rw [dif_neg (show ¬(1 : Fin S4096x32.rank) ∈ dot_S4096x4096_S4096x32_S4096x32_1_0_0_1_n_n.rhsBatch by decide), dif_pos (show (1 : Fin S4096x32.rank) ∈ dot_S4096x4096_S4096x32_S4096x32_1_0_0_1_n_n.rhsNonContracting by decide)]
  rfl

/-- The product of a 4096 × 4096 and a 4096 × 32 matrix at (i, j) is the sum over k of left (i, k) times right (k, j). -/
theorem dot_adj_s_apply (l : FVec Ideal S4096x4096 .f32) (r : FVec Ideal S4096x32 .f32) (i : Fin 4096) (j : Fin 32) :
    Host.dotGeneral (F := Ideal) dot_S4096x4096_S4096x32_S4096x32_1_0_0_1_n_n none l r (ix2 i j) = ∑ k : Fin 4096, l (ix2 i k) * r (ix2 k j) := by
  simp only [Host.dotGeneral]
  rw [Ideal.dotGeneral_apply, ← Equiv.sum_comp (ValueIdx.contrEquiv1 dot_S4096x4096_S4096x32_S4096x32_1_0_0_1_n_n 4096 rfl rfl).symm]
  refine Finset.sum_congr rfl fun k _ => ?_
  have hk := ValueIdx.contrEquiv1_symm_val dot_S4096x4096_S4096x32_S4096x32_1_0_0_1_n_n 4096 rfl rfl k
  have el : dot_S4096x4096_S4096x32_S4096x32_1_0_0_1_n_n.lhsIdx (ix2 i j) ((ValueIdx.contrEquiv1 dot_S4096x4096_S4096x32_S4096x32_1_0_0_1_n_n 4096 rfl rfl).symm k) = ix2 i k := funext fun a => Fin.ext (by
    match a with
    | ⟨0, _⟩ => exact dot_adj_s_lhs0 _ _
    | ⟨1, _⟩ => exact (dot_adj_s_lhs1 _ _).trans hk)
  have er : dot_S4096x4096_S4096x32_S4096x32_1_0_0_1_n_n.rhsIdx (ix2 i j) ((ValueIdx.contrEquiv1 dot_S4096x4096_S4096x32_S4096x32_1_0_0_1_n_n 4096 rfl rfl).symm k) = ix2 k j := funext fun a => Fin.ext (by
    match a with
    | ⟨0, _⟩ => exact (dot_adj_s_rhs0 _ _).trans hk
    | ⟨1, _⟩ => exact dot_adj_s_rhs1 _ _)
  rw [el, er]

/-- Left operand coordinates of the contraction 4096 × 32 by 32 × 4096: the free axis takes the result's row, the contracted axis the
    contraction index. -/
theorem dot_n_nT_lhs0 (i : S4096x4096.Idx) (q : dot_S4096x32_S32x4096_S4096x4096_1_0_0_1_n_n.contr.Idx) : (dot_S4096x32_S32x4096_S4096x4096_1_0_0_1_n_n.lhsIdx i q 0).val = (i 0).val := by
  unfold DotDims.lhsIdx
  rw [dif_neg (show ¬(0 : Fin S4096x32.rank) ∈ dot_S4096x32_S32x4096_S4096x4096_1_0_0_1_n_n.lhsBatch by decide), dif_pos (show (0 : Fin S4096x32.rank) ∈ dot_S4096x32_S32x4096_S4096x4096_1_0_0_1_n_n.lhsNonContracting by decide)]
  rfl
theorem dot_n_nT_lhs1 (i : S4096x4096.Idx) (q : dot_S4096x32_S32x4096_S4096x4096_1_0_0_1_n_n.contr.Idx) : (dot_S4096x32_S32x4096_S4096x4096_1_0_0_1_n_n.lhsIdx i q 1).val = (q ⟨0, by decide⟩).val :=
  dot_S4096x32_S32x4096_S4096x4096_1_0_0_1_n_n.lhsIdx_val_of_single rfl i q
/-- Right operand coordinates: the contracted axis takes the contraction index, the free axis the result's column. -/
theorem dot_n_nT_rhs0 (i : S4096x4096.Idx) (q : dot_S4096x32_S32x4096_S4096x4096_1_0_0_1_n_n.contr.Idx) : (dot_S4096x32_S32x4096_S4096x4096_1_0_0_1_n_n.rhsIdx i q 0).val = (q ⟨0, by decide⟩).val :=
  dot_S4096x32_S32x4096_S4096x4096_1_0_0_1_n_n.rhsIdx_val_of_single rfl i q
theorem dot_n_nT_rhs1 (i : S4096x4096.Idx) (q : dot_S4096x32_S32x4096_S4096x4096_1_0_0_1_n_n.contr.Idx) : (dot_S4096x32_S32x4096_S4096x4096_1_0_0_1_n_n.rhsIdx i q 1).val = (i 1).val := by
  unfold DotDims.rhsIdx
  rw [dif_neg (show ¬(1 : Fin S32x4096.rank) ∈ dot_S4096x32_S32x4096_S4096x4096_1_0_0_1_n_n.rhsBatch by decide), dif_pos (show (1 : Fin S32x4096.rank) ∈ dot_S4096x32_S32x4096_S4096x4096_1_0_0_1_n_n.rhsNonContracting by decide)]
  rfl

/-- The product of a 4096 × 32 and a 32 × 4096 matrix at (i, j) is the sum over k of left (i, k) times right (k, j). -/
theorem dot_n_nT_apply (l : FVec Ideal S4096x32 .f32) (r : FVec Ideal S32x4096 .f32) (i : Fin 4096) (j : Fin 4096) :
    Host.dotGeneral (F := Ideal) dot_S4096x32_S32x4096_S4096x4096_1_0_0_1_n_n none l r (ix2 i j) = ∑ k : Fin 32, l (ix2 i k) * r (ix2 k j) := by
  simp only [Host.dotGeneral]
  rw [Ideal.dotGeneral_apply, ← Equiv.sum_comp (ValueIdx.contrEquiv1 dot_S4096x32_S32x4096_S4096x4096_1_0_0_1_n_n 32 rfl rfl).symm]
  refine Finset.sum_congr rfl fun k _ => ?_
  have hk := ValueIdx.contrEquiv1_symm_val dot_S4096x32_S32x4096_S4096x4096_1_0_0_1_n_n 32 rfl rfl k
  have el : dot_S4096x32_S32x4096_S4096x4096_1_0_0_1_n_n.lhsIdx (ix2 i j) ((ValueIdx.contrEquiv1 dot_S4096x32_S32x4096_S4096x4096_1_0_0_1_n_n 32 rfl rfl).symm k) = ix2 i k := funext fun a => Fin.ext (by
    match a with
    | ⟨0, _⟩ => exact dot_n_nT_lhs0 _ _
    | ⟨1, _⟩ => exact (dot_n_nT_lhs1 _ _).trans hk)
  have er : dot_S4096x32_S32x4096_S4096x4096_1_0_0_1_n_n.rhsIdx (ix2 i j) ((ValueIdx.contrEquiv1 dot_S4096x32_S32x4096_S4096x4096_1_0_0_1_n_n 32 rfl rfl).symm k) = ix2 k j := funext fun a => Fin.ext (by
    match a with
    | ⟨0, _⟩ => exact (dot_n_nT_rhs0 _ _).trans hk
    | ⟨1, _⟩ => exact dot_n_nT_rhs1 _ _)
  rw [el, er]

end Cert.ReferenceIdeal.RefValue

end
-- ==== Proof.RefReadLayout.lean ====
/-
  The layout operations and the reductions of the reference program read at an index: a broadcast reads its
  operand at the coordinates it keeps (0 on an axis of extent one), a transpose at the swapped coordinates, a slice
  at the shifted ones; a sum-reduce along one axis from the zero word is the sum over that axis's coordinate; a
  maximum-reduce along one axis from −∞ is the supremum over that axis's coordinate.
-/
import proofs.«177283_g481036337857_cont_8to1_c_51_7_alg».proof.Proof.Gen.ReferenceIdeal
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

variable {α : Type}

/-! ## Broadcasts -/

/-- A column repeated along the second axis. -/
theorem bcCol_apply (v : S4096x1.Idx → α) (i j : Fin 4096) :
    broadcastInDim S4096x4096 ![0, 1] bcast_S4096x1_S4096x4096_0_1 v (ix2 i j) = v (ix2 i (0 : Fin 1)) :=
  broadcastInDim_apply _ bcast_S4096x1_S4096x4096_0_1 v (ix2 i j) (ix2 i (0 : Fin 1)) (fun a => match a with
    | ⟨0, _⟩ => by show i.val = if (4096 : Nat) = 1 then 0 else i.val; rw [if_neg (by decide)]
    | ⟨1, _⟩ => by show 0 = if (1 : Nat) = 1 then 0 else j.val; rw [if_pos rfl])

/-- A row repeated along the first axis. -/
theorem bcRow_apply (v : S1x4096.Idx → α) (i j : Fin 4096) :
    broadcastInDim S4096x4096 ![0, 1] bcast_S1x4096_S4096x4096_0_1 v (ix2 i j) = v (ix2 (0 : Fin 1) j) :=
  broadcastInDim_apply _ bcast_S1x4096_S4096x4096_0_1 v (ix2 i j) (ix2 (0 : Fin 1) j) (fun a => match a with
    | ⟨0, _⟩ => by show 0 = if (1 : Nat) = 1 then 0 else i.val; rw [if_pos rfl]
    | ⟨1, _⟩ => by show j.val = if (4096 : Nat) = 1 then 0 else j.val; rw [if_neg (by decide)])

/-- A vector of 4096 as a column. -/
theorem bcVecCol_apply (v : S4096.Idx → α) (i : Fin 4096) :
    broadcastInDim S4096x1 ![0] bcast_S4096_S4096x1_0 v (ix2 i (0 : Fin 1)) = v (ix1 i) :=
  broadcastInDim_apply _ bcast_S4096_S4096x1_0 v (ix2 i (0 : Fin 1)) (ix1 i) (fun a => match a with
    | ⟨0, _⟩ => by show i.val = if (4096 : Nat) = 1 then 0 else i.val; rw [if_neg (by decide)])

/-- A vector of 32 as a row. -/
theorem bcVecRow_apply (v : S32.Idx → α) (c : Fin 32) :
    broadcastInDim S1x32 ![1] bcast_S32_S1x32_1 v (ix2 (0 : Fin 1) c) = v (ix1 c) :=
  broadcastInDim_apply _ bcast_S32_S1x32_1 v (ix2 (0 : Fin 1) c) (ix1 c) (fun a => match a with
    | ⟨0, _⟩ => by show c.val = if (32 : Nat) = 1 then 0 else c.val; rw [if_neg (by decide)])

/-- A row of 32 repeated along the first axis. -/
theorem bcRow32_apply (v : S1x32.Idx → α) (i : Fin 4096) (c : Fin 32) :
    broadcastInDim S4096x32 ![0, 1] bcast_S1x32_S4096x32_0_1 v (ix2 i c) = v (ix2 (0 : Fin 1) c) :=
  broadcastInDim_apply _ bcast_S1x32_S4096x32_0_1 v (ix2 i c) (ix2 (0 : Fin 1) c) (fun a => match a with
    | ⟨0, _⟩ => by show 0 = if (1 : Nat) = 1 then 0 else i.val; rw [if_pos rfl]
    | ⟨1, _⟩ => by show c.val = if (32 : Nat) = 1 then 0 else c.val; rw [if_neg (by decide)])

/-! ## Transposes -/

/-- A column transposed into a row. -/
theorem trCol_apply (v : S4096x1.Idx → α) (j : Fin 4096) :
    transpose S1x4096 [1, 0] v transposes_S4096x1_S1x4096_1_0 (ix2 (0 : Fin 1) j) = v (ix2 j (0 : Fin 1)) :=
  transpose_apply [1, 0] v transposes_S4096x1_S1x4096_1_0 (ix2 (0 : Fin 1) j) (ix2 j (0 : Fin 1)) (fun b => match b with
    | ⟨0, _⟩ => rfl
    | ⟨1, _⟩ => rfl)

/-- The 4096 × 32 matrix transposed. -/
theorem trMat_apply (v : S4096x32.Idx → α) (k : Fin 32) (j : Fin 4096) :
    transpose S32x4096 [1, 0] v transposes_S4096x32_S32x4096_1_0 (ix2 k j) = v (ix2 j k) :=
  transpose_apply [1, 0] v transposes_S4096x32_S32x4096_1_0 (ix2 k j) (ix2 j k) (fun b => match b with
    | ⟨0, _⟩ => rfl
    | ⟨1, _⟩ => rfl)

/-! ## Slices -/

/-- Rows 0 … 15 of a 32 × 1 column. -/
theorem sliceLo_apply (a : S32x1.Idx → α) (k : Fin 16) :
    extractStridedSlice S16x1 ![0, 0] a slices_S32x1_S16x1_0_0 (ix2 k (0 : Fin 1))
      = a (ix2 (⟨k.val, by omega⟩ : Fin 32) (0 : Fin 1)) :=
  extractStridedSlice_apply ![0, 0] a slices_S32x1_S16x1_0_0 (ix2 k (0 : Fin 1)) (ix2 (⟨k.val, by omega⟩ : Fin 32) (0 : Fin 1))
    (fun b => match b with
      | ⟨0, _⟩ => by show k.val = 0 + k.val; omega
      | ⟨1, _⟩ => by show 0 = 0 + 0; rfl)

/-- Rows 16 … 31 of a 32 × 1 column. -/
theorem sliceHi_apply (a : S32x1.Idx → α) (k : Fin 16) :
    extractStridedSlice S16x1 ![16, 0] a slices_S32x1_S16x1_16_0 (ix2 k (0 : Fin 1))
      = a (ix2 (⟨16 + k.val, by omega⟩ : Fin 32) (0 : Fin 1)) :=
  extractStridedSlice_apply ![16, 0] a slices_S32x1_S16x1_16_0 (ix2 k (0 : Fin 1)) (ix2 (⟨16 + k.val, by omega⟩ : Fin 32) (0 : Fin 1))
    (fun b => match b with
      | ⟨0, _⟩ => by show 16 + k.val = 16 + k.val; rfl
      | ⟨1, _⟩ => by show 0 = 0 + 0; rfl)

/-! ## Words -/

/-- The word 0xFF800000 is −∞. -/
theorem lit_negInf : Ideal.ofBits .f32 0xFF800000#32 = ⊥ := by simp [Ideal.ofBits, Ideal.ieee]

/-! ## Reductions -/

/-- The sum along the second axis of a 4096 × 4096 matrix, from the zero word. -/
theorem rowSumReduce_apply (e : FVec Ideal S4096x4096 .f32) (i : Fin 4096) :
    Host.reduceAdd (F := Ideal) e (constant (F := Ideal) S_ .f32 0x00000000#32) reducesTo_S4096x4096_S4096_d1 h_S_ (ix1 i)
      = ∑ k : Fin 4096, e (ix2 i k) := by
  simp only [Host.reduceAdd, Ideal.hostReduceAdd_def]
  rw [Ideal.hostReduceAdd_single reducesTo_S4096x4096_S4096_d1 (by decide)]
  show Ideal.ofBits .f32 0x00000000#32 + _ = _
  rw [Ideal.ofBits_zero_f32, zero_add]
  refine Finset.sum_congr rfl fun k _ => ?_
  exact congrArg e (funext fun a => Fin.ext (by match a with | ⟨0, _⟩ => rfl | ⟨1, _⟩ => rfl))

/-- The sum along the first axis of a 4096 × 32 matrix, from the zero word. -/
theorem colSumReduce_apply (o : FVec Ideal S4096x32 .f32) (c : Fin 32) :
    Host.reduceAdd (F := Ideal) o (constant (F := Ideal) S_ .f32 0x00000000#32) reducesTo_S4096x32_S32_d0 h_S_ (ix1 c)
      = ∑ i : Fin 4096, o (ix2 i c) := by
  simp only [Host.reduceAdd, Ideal.hostReduceAdd_def]
  rw [Ideal.hostReduceAdd_single reducesTo_S4096x32_S32_d0 (by decide)]
  show Ideal.ofBits .f32 0x00000000#32 + _ = _
  rw [Ideal.ofBits_zero_f32, zero_add]
  refine Finset.sum_congr rfl fun k _ => ?_
  exact congrArg o (funext fun a => Fin.ext (by match a with | ⟨0, _⟩ => rfl | ⟨1, _⟩ => rfl))

/-- The maximum along the second axis of a 4096 × 4096 matrix, from −∞: the supremum of the row. -/
theorem rowMaxReduce_apply (s : FVec Ideal S4096x4096 .f32) (i : Fin 4096) :
    Host.reduce FloatOps.maximumf s (constant (F := Ideal) S_ .f32 0xFF800000#32) reducesTo_S4096x4096_S4096_d1 h_S_ (ix1 i)
      = Finset.univ.sup fun k : Fin 4096 => s (ix2 i k) := by
  have h : S4096x4096.Reduces [1] S4096 := by decide
  rw [Host.reduce_eq_fold_single FloatOps.maximumf s _ reducesTo_S4096x4096_S4096_d1 h h_S_]
  have hf : (s ∘ h.lift (ix1 i)) = fun k : Fin 4096 => s (ix2 i k) :=
    funext fun k => congrArg s (funext fun a => Fin.ext (by match a with | ⟨0, _⟩ => rfl | ⟨1, _⟩ => rfl))
  rw [hf]
  show Finset.fold max (Ideal.ofBits .f32 0xFF800000#32) _ _ = _
  rw [lit_negInf]
  rfl

end Cert.ReferenceIdeal.RefValue

end
-- ==== Proof.RefReadStage1.lean ====
/-
  Stage 1 of the reference program read at an index: the projected features, the two attention scores, the masked
  leaky-ReLU logits, the row softmax and the graph convolution's support are, entry by entry, the specification's
  functions of the argument arrays read as matrices.
-/
import proofs.«177283_g481036337857_cont_8to1_c_51_7_alg».proof.Proof.RefTerm
import proofs.«177283_g481036337857_cont_8to1_c_51_7_alg».proof.Proof.Spec
import proofs.«177283_g481036337857_cont_8to1_c_51_7_alg».proof.Proof.RefReadDot
import proofs.«177283_g481036337857_cont_8to1_c_51_7_alg».proof.Proof.RefReadLayout

noncomputable section

namespace Cert.ReferenceIdeal.RefValue

open Cert Cert.ReferenceIdeal Cert.ReferenceIdeal.Gen Idealize.ShloMosaic Idealize.ShloMosaic.ValueIdx

variable (x : FVec Ideal S4096x16 .f32) (adj : FVec Ideal S4096x4096 .f32) (W : FVec Ideal S16x16 .f32)
  (a : FVec Ideal S32x1 .f32) (Wgc : FVec Ideal S16x32 .f32)

/-- The projected features at (i, k): the sum over j of x (i, j) · W (j, k). -/
theorem proj_apply (i : Fin 4096) (k : Fin 16) :
    proj x W (ix2 i k) = Spec.Wh (Spec.mat x) (Spec.mat W) i k := by
  unfold proj
  rw [dot_x_W_apply]
  rfl

/-- The source score of row i: the features of row i against rows 0 … 15 of a. -/
theorem srcCol_apply (h : FVec Ideal S4096x16 .f32) (i : Fin 4096) :
    srcCol h a (ix2 i (0 : Fin 1)) = ∑ k : Fin 16, h (ix2 i k) * a (ix2 (⟨k.val, by omega⟩ : Fin 32) (0 : Fin 1)) := by
  unfold srcCol
  rw [dot_h_col_apply]
  exact Finset.sum_congr rfl fun k _ => by rw [sliceLo_apply]

/-- The target score of row j: the features of row j against rows 16 … 31 of a. -/
theorem dstCol_apply (h : FVec Ideal S4096x16 .f32) (j : Fin 4096) :
    dstCol h a (ix2 j (0 : Fin 1)) = ∑ k : Fin 16, h (ix2 j k) * a (ix2 (⟨16 + k.val, by omega⟩ : Fin 32) (0 : Fin 1)) := by
  unfold dstCol
  rw [dot_h_col_apply]
  exact Finset.sum_congr rfl fun k _ => by rw [sliceHi_apply]

theorem src_eq (i : Fin 4096) :
    srcCol (proj x W) a (ix2 i (0 : Fin 1)) = Spec.srcScore (Spec.mat x) (Spec.mat W) (Spec.col a) i := by
  rw [srcCol_apply]
  exact Finset.sum_congr rfl fun k _ => by rw [proj_apply]; rfl

theorem dst_eq (j : Fin 4096) :
    dstCol (proj x W) a (ix2 j (0 : Fin 1)) = Spec.dstScore (Spec.mat x) (Spec.mat W) (Spec.col a) j := by
  rw [dstCol_apply]
  exact Finset.sum_congr rfl fun k _ => by rw [proj_apply]; rfl

/-- The logit at (i, j): the source score of row i plus the target score of row j. -/
theorem logit_apply (h : FVec Ideal S4096x16 .f32) (i j : Fin 4096) :
    logit h a (ix2 i j) = srcCol h a (ix2 i (0 : Fin 1)) + dstCol h a (ix2 j (0 : Fin 1)) := by
  unfold logit
  rw [addf_apply, bcCol_apply, bcRow_apply, trCol_apply]

/-- The leaky ReLU entry by entry. -/
theorem leakyT_apply (z : FVec Ideal S4096x4096 .f32) (idx : S4096x4096.Idx) : leakyT z idx = Spec.leaky (z idx) := rfl

/-- The mask entry by entry. -/
theorem maskedT_apply (z : FVec Ideal S4096x4096 .f32) (idx : S4096x4096.Idx) :
    maskedT adj z idx
      = Scalar.select (Ideal.cmp .ogt (adj idx) (Spec.lit 0x00000000#32)) (Spec.leaky (z idx)) (Spec.lit 0xD9FFCB9E#32) := rfl

theorem masked_eq (i j : Fin 4096) :
    maskedT adj (logit (proj x W) a) (ix2 i j) = Spec.masked (Spec.mat x) (Spec.mat adj) (Spec.mat W) (Spec.col a) i j := by
  rw [maskedT_apply, logit_apply, src_eq, dst_eq]
  rfl

/-- The row maximum: the maximum against −∞ of the supremum of the row is the supremum. -/
theorem rowMaxT_apply (s : FVec Ideal S4096x4096 .f32) (i : Fin 4096) :
    rowMaxT s (ix1 i) = Finset.univ.sup fun k : Fin 4096 => s (ix2 i k) := by
  unfold rowMaxT
  rw [maximumf_apply, rowMaxReduce_apply]
  show max (Ideal.ofBits .f32 0xFF800000#32) _ = _
  rw [lit_negInf]
  exact max_bot_left _

theorem expT_apply (s : FVec Ideal S4096x4096 .f32) (i j : Fin 4096) :
    expT s (ix2 i j) = Ideal.exp (s (ix2 i j) - rowMaxT s (ix1 i)) := by
  unfold expT
  show FloatOps.hostUnary .exp (subf s _ (ix2 i j)) = _
  rw [Ideal.hostUnary_exp_def, subf_apply, bcCol_apply, bcVecCol_apply]

theorem rowSumT_apply (e : FVec Ideal S4096x4096 .f32) (i : Fin 4096) :
    rowSumT e (ix1 i) = ∑ k : Fin 4096, e (ix2 i k) :=
  rowSumReduce_apply e i

theorem attT_apply (s : FVec Ideal S4096x4096 .f32) (i j : Fin 4096) :
    attT s (ix2 i j) = Ideal.div (expT s (ix2 i j)) (rowSumT (expT s) (ix1 i)) := by
  unfold attT
  show FloatOps.hostDivf (expT s (ix2 i j)) (broadcastInDim _ _ _ _ (ix2 i j)) = _
  rw [Ideal.hostDivf_def, bcCol_apply, bcVecCol_apply]

theorem rowMax_eq (i : Fin 4096) :
    rowMaxT (maskedT adj (logit (proj x W) a)) (ix1 i) = Spec.rowMax (Spec.mat x) (Spec.mat adj) (Spec.mat W) (Spec.col a) i := by
  rw [rowMaxT_apply]
  exact congrArg (Finset.sup Finset.univ) (funext fun k => masked_eq x adj W a i k)

theorem expShift_eq (i j : Fin 4096) :
    expT (maskedT adj (logit (proj x W) a)) (ix2 i j)
      = Spec.expShift (Spec.mat x) (Spec.mat adj) (Spec.mat W) (Spec.col a) i j := by
  rw [expT_apply, masked_eq, rowMax_eq]
  rfl

theorem rowSum_eq (i : Fin 4096) :
    rowSumT (expT (maskedT adj (logit (proj x W) a))) (ix1 i)
      = Spec.rowSum (Spec.mat x) (Spec.mat adj) (Spec.mat W) (Spec.col a) i := by
  rw [rowSumT_apply]
  exact Finset.sum_congr rfl fun k _ => expShift_eq x adj W a i k

theorem att_eq (i j : Fin 4096) :
    attT (maskedT adj (logit (proj x W) a)) (ix2 i j) = Spec.att (Spec.mat x) (Spec.mat adj) (Spec.mat W) (Spec.col a) i j := by
  rw [attT_apply, expShift_eq, rowSum_eq]
  rfl

/-- Stage 1: the support is the specification's, as an array. -/
theorem supportT_eq :
    supportT x adj W a Wgc
      = Spec.arr (Spec.support (Spec.mat x) (Spec.mat adj) (Spec.mat W) (Spec.col a) (Spec.mat Wgc)) := by
  funext idx
  obtain ⟨i, c, rfl⟩ : ∃ (i : Fin 4096) (c : Fin 32), idx = ix2 i c := ⟨idx 0, idx 1, eq_ix2 idx⟩
  unfold supportT
  rw [dot_h_Wgc_apply]
  show _ = Spec.support _ _ _ _ _ i c
  refine Finset.sum_congr rfl fun k _ => ?_
  rw [dot_att_h_apply]
  refine congrArg (· * Wgc (ix2 k c)) (Finset.sum_congr rfl fun j _ => ?_)
  rw [att_eq, proj_apply]

end Cert.ReferenceIdeal.RefValue

end
-- ==== Proof.RefReadStage2.lean ====
/-
  Stage 2 of the reference program read at an index: the rectified aggregation over neighbours, max (adj · s) 0.
-/
import proofs.«177283_g481036337857_cont_8to1_c_51_7_alg».proof.Proof.RefTerm
import proofs.«177283_g481036337857_cont_8to1_c_51_7_alg».proof.Proof.Spec
import proofs.«177283_g481036337857_cont_8to1_c_51_7_alg».proof.Proof.RefReadDot
import proofs.«177283_g481036337857_cont_8to1_c_51_7_alg».proof.Proof.RefReadLayout

noncomputable section

namespace Cert.ReferenceIdeal.RefValue

open Cert Cert.ReferenceIdeal Cert.ReferenceIdeal.Gen Idealize.ShloMosaic Idealize.ShloMosaic.ValueIdx

/-- The aggregation at (i, c): the maximum of the sum over j of adj (i, j) · s (j, c) and zero. -/
theorem aggT_apply (adj : FVec Ideal S4096x4096 .f32) (s : FVec Ideal S4096x32 .f32) (i : Fin 4096) (c : Fin 32) :
    aggT adj s (ix2 i c) = max (∑ j : Fin 4096, adj (ix2 i j) * s (ix2 j c)) (Spec.lit 0x00000000#32) := by
  unfold aggT
  rw [maximumf_apply, dot_adj_s_apply]
  rfl

/-- Stage 2: of a support given as a matrix, the aggregation is the specification's, as an array. -/
theorem aggT_eq (adj : FVec Ideal S4096x4096 .f32) (S : Spec.Mat 4096 32) :
    aggT adj (Spec.arr S) = Spec.arr (Spec.agg (Spec.mat adj) S) := by
  funext idx
  obtain ⟨i, c, rfl⟩ : ∃ (i : Fin 4096) (c : Fin 32), idx = ix2 i c := ⟨idx 0, idx 1, eq_ix2 idx⟩
  rw [aggT_apply]
  rfl

end Cert.ReferenceIdeal.RefValue

end
-- ==== Proof.RefReadStage3.lean ====
/-
  Stage 3 of the reference program read at an index: the column mean, the biased column variance, the batch
  normalisation that divides by √(var + ε) and then multiplies by gamma, and the inner-product reconstruction. The
  variance's divisor is 4096 − 0 = 4096, which is positive, so its guard always takes the quotient; the mean the
  variance recomputes as a row is the column mean.
-/
import proofs.«177283_g481036337857_cont_8to1_c_51_7_alg».proof.Proof.RefTerm
import proofs.«177283_g481036337857_cont_8to1_c_51_7_alg».proof.Proof.Spec
import proofs.«177283_g481036337857_cont_8to1_c_51_7_alg».proof.Proof.RefReadDot
import proofs.«177283_g481036337857_cont_8to1_c_51_7_alg».proof.Proof.RefReadLayout

noncomputable section

namespace Cert.ReferenceIdeal.RefValue

open Cert Cert.ReferenceIdeal Cert.ReferenceIdeal.Gen Idealize.ShloMosaic Idealize.ShloMosaic.ValueIdx

variable (o : FVec Ideal S4096x32 .f32) (gamma beta : FVec Ideal S32 .f32)

/-- The word 0x45800000 is 4096. -/
theorem lit_4096 : Ideal.ofBits .f32 0x45800000#32 = ((4096 : ℝ) : EReal) := by
  simp [Ideal.ofBits, Ideal.ieee]
  rw [← EReal.coe_mul]
  norm_num

theorem colSumT_apply (c : Fin 32) : colSumT o (ix1 c) = ∑ i : Fin 4096, o (ix2 i c) :=
  colSumReduce_apply o c

theorem meanT_apply (c : Fin 32) : meanT o (ix1 c) = Spec.mean (Spec.mat o) c := by
  unfold meanT
  show FloatOps.hostDivf (colSumT o (ix1 c)) (Ideal.ofBits .f32 0x45800000#32) = _
  rw [Ideal.hostDivf_def, colSumT_apply]
  rfl

/-- The mean as the variance recomputes it, a row: the same column mean. -/
theorem meanRowT_apply (c : Fin 32) : meanRowT o (ix2 (0 : Fin 1) c) = Spec.mean (Spec.mat o) c := by
  unfold meanRowT
  show FloatOps.hostDivf (broadcastInDim S1x32 ![1] bcast_S32_S1x32_1 (colSumT o) (ix2 (0 : Fin 1) c))
    (Ideal.ofBits .f32 0x45800000#32) = _
  rw [Ideal.hostDivf_def, bcVecRow_apply, colSumT_apply]
  rfl

theorem cenVarT_apply (i : Fin 4096) (c : Fin 32) : cenVarT o (ix2 i c) = Spec.cen (Spec.mat o) i c := by
  unfold cenVarT
  rw [subf_apply, bcRow32_apply, meanRowT_apply]
  rfl

/-- The variance's divisor: 4096 minus the integer 0 converted, that is 4096. -/
theorem countT_apply (k : S_.Idx) : countT k = Ideal.ofBits .f32 0x45800000#32 := by
  show Ideal.ofBits .f32 0x45800000#32 - (((0#32 : BitVec 32).toInt : ℝ) : EReal) = _
  simp

/-- The column variance: the divisor is positive, so the guard takes the quotient. -/
theorem varT_apply (c : Fin 32) : varT o (ix1 c) = Spec.var (Spec.mat o) c := by
  unfold varT
  rw [select_apply]
  have hc : broadcastInDim S32 ![] bcast_S_S32 (cmpf .ogt countT (constant (F := Ideal) S_ .f32 0x00000000#32)) (ix1 c) = 1#1 := by
    show Ideal.cmp .ogt (countT _) (Ideal.ofBits .f32 0x00000000#32) = 1#1
    rw [countT_apply, Ideal.ofBits_zero_f32, lit_4096]
    show BitVec.ofBool (decide ((0 : EReal) < ((4096 : ℝ) : EReal))) = 1#1
    have h : (0 : EReal) < ((4096 : ℝ) : EReal) := by exact_mod_cast (by norm_num : (0 : ℝ) < 4096)
    simp [h]
  rw [hc, select_one]
  show FloatOps.hostDivf (Host.reduceAdd (F := Ideal) _ _ reducesTo_S4096x32_S32_d0 h_S_ (ix1 c)) (countT _) = _
  rw [Ideal.hostDivf_def, colSumReduce_apply, countT_apply]
  refine congrArg (Ideal.div · _) (Finset.sum_congr rfl fun i _ => ?_)
  rw [mulf_apply, cenVarT_apply]

theorem sdT_apply (c : Fin 32) : sdT o (ix1 c) = Ideal.sqrt (Spec.varEps (Spec.mat o) c) := by
  unfold sdT
  show FloatOps.hostUnary .sqrt (addf (varT o) _ (ix1 c)) = _
  rw [Ideal.hostUnary_sqrt_def, addf_apply, varT_apply]
  rfl

/-- A vector of 32 laid along every row. -/
theorem rows_apply (v : FVec Ideal S32 .f32) (i : Fin 4096) (c : Fin 32) : rows v (ix2 i c) = v (ix1 c) := by
  unfold rows
  rw [bcRow32_apply, bcVecRow_apply]

theorem normT_apply (i : Fin 4096) (c : Fin 32) :
    normT o gamma beta (ix2 i c) = Spec.normDivided (Spec.mat o) (Spec.vec gamma) (Spec.vec beta) i c := by
  unfold normT
  rw [addf_apply, mulf_apply]
  show FloatOps.hostDivf (subf o (rows (meanT o)) (ix2 i c)) (rows (sdT o) (ix2 i c)) * rows gamma (ix2 i c)
    + rows beta (ix2 i c) = _
  rw [Ideal.hostDivf_def, subf_apply, rows_apply, rows_apply, rows_apply, rows_apply, meanT_apply, sdT_apply]
  rfl

/-- The reconstruction at (i, j): the sum over k of n (i, k) · n (j, k). -/
theorem recT_apply (n : FVec Ideal S4096x32 .f32) (i j : Fin 4096) :
    recT n (ix2 i j) = ∑ k : Fin 32, n (ix2 i k) * n (ix2 j k) := by
  unfold recT
  rw [dot_n_nT_apply]
  exact Finset.sum_congr rfl fun k _ => by rw [trMat_apply]

/-- Stage 3: the reconstruction over the normalised matrix is the specification's, as an array. -/
theorem rec_eq :
    recT (normT o gamma beta) = Spec.arr (Spec.recDivided (Spec.mat o) (Spec.vec gamma) (Spec.vec beta)) := by
  funext idx
  obtain ⟨i, j, rfl⟩ : ∃ (i : Fin 4096) (j : Fin 4096), idx = ix2 i j := ⟨idx 0, idx 1, eq_ix2 idx⟩
  rw [recT_apply]
  show _ = Spec.recDivided _ _ _ i j
  exact Finset.sum_congr rfl fun k _ => by rw [normT_apply, normT_apply]

end Cert.ReferenceIdeal.RefValue

end
-- ==== Proof.RefRead.lean ====
/-
  The reference program's result is the specification: its term is the three stages one after the other, each
  stage the specification's function of the matrix the stage before produced, and a matrix written as an array and
  read back as a matrix is itself.
-/
import proofs.«177283_g481036337857_cont_8to1_c_51_7_alg».proof.Proof.RefTerm
import proofs.«177283_g481036337857_cont_8to1_c_51_7_alg».proof.Proof.Spec
import proofs.«177283_g481036337857_cont_8to1_c_51_7_alg».proof.Proof.RefReadStage1
import proofs.«177283_g481036337857_cont_8to1_c_51_7_alg».proof.Proof.RefReadStage2
import proofs.«177283_g481036337857_cont_8to1_c_51_7_alg».proof.Proof.RefReadStage3

noncomputable section

namespace Cert.ReferenceIdeal.RefValue

open Cert Cert.ReferenceIdeal Cert.ReferenceIdeal.Gen Idealize.ShloMosaic Idealize.ShloMosaic.ValueIdx

/-- A matrix as an array, read back as a matrix. -/
theorem mat_arr {a b : Nat} (S : Spec.Mat a b) : Spec.mat (Spec.arr S) = S := rfl

/-- The reference program's term is the whole map with the divided normalisation. -/
theorem refTerm_eq (x : Cert.Spec.Arr2 4096 16) (adj : Cert.Spec.Arr2 4096 4096) (W : Cert.Spec.Arr2 16 16) (a : Cert.Spec.Arr2 32 1)
    (Wgc : Cert.Spec.Arr2 16 32) (gamma beta : Cert.Spec.Arr1 32) :
    refTerm x adj W a Wgc gamma beta = Cert.Spec.wholeDivided x adj W a Wgc gamma beta := by
  unfold refTerm Spec.wholeDivided Spec.aggOf
  rw [supportT_eq, aggT_eq, rec_eq, mat_arr]

end Cert.ReferenceIdeal.RefValue

end
-- ==== Proof.SpecLaw.lean ====
/-
  The one law that joins the two programs: the scaled and the divided batch normalisation are one value.

  On the extended reals a square x * x is nonnegative for EVERY x (⊥ * ⊥ = ⊤ * ⊤ = ⊤, and a real square is a real
  square), a finite sum of nonnegatives is nonnegative, and dividing a nonnegative by the real 4096 multiplies it by
  the positive real 1/4096. So the variance is nonnegative, and adding the positive real ε gives v = var + ε > 0:
  v is ⊤ or a positive real.

    v = ⊤        1/√v = 0 and z / √v = z * ⊤⁻¹ = z * 0 = 0, so both forms are 0 + beta.
    v = r > 0    1/√v = (√r)⁻¹ and z / √v = z * (√r)⁻¹ (division by a nonzero real is multiplication by its
                 reciprocal, at the infinities too), so the two forms differ by the association of a product.

  No finiteness of the matrix is used.
-/
import proofs.«177283_g481036337857_cont_8to1_c_51_7_alg».proof.Proof.Spec

noncomputable section

namespace Cert.Spec

open Idealize.ShloMosaic

/-- The float word 0x45800000 denotes the real 4096. -/
theorem lit_4096 : lit 0x45800000#32 = ((4096 : ℝ) : EReal) := by
  simp [Ideal.ofBits, Ideal.ieee, -EReal.coe_mul]; norm_num

/-- The float word 0x3727C5AC (ε) denotes a positive real. -/
theorem lit_eps_pos : 0 < lit 0x3727C5AC#32 := by
  simp [Ideal.ofBits, Ideal.ieee, -EReal.coe_mul]

/-- A square is nonnegative at every extended real, the infinities included. -/
theorem mul_self_nonneg' (x : EReal) : 0 ≤ x * x := by
  induction x using EReal.rec with
  | bot => simp
  | coe r => rw [← EReal.coe_mul]; exact EReal.coe_nonneg.mpr (mul_self_nonneg r)
  | top => simp

/-- Dividing a nonnegative extended real by 4096 leaves it nonnegative. -/
theorem div_4096_nonneg {s : EReal} (hs : 0 ≤ s) : 0 ≤ Ideal.div s (lit 0x45800000#32) := by
  rw [lit_4096, Ideal.div_coe (by norm_num : (4096 : ℝ) ≠ 0)]
  exact mul_nonneg hs (EReal.coe_nonneg.mpr (by norm_num))

theorem var_nonneg (o : Mat 4096 32) (c : Fin 32) : 0 ≤ var o c :=
  div_4096_nonneg (Finset.sum_nonneg fun i _ => mul_self_nonneg' (cen o i c))

theorem varEps_pos (o : Mat 4096 32) (c : Fin 32) : 0 < varEps o c :=
  lt_of_lt_of_le lit_eps_pos (le_add_of_nonneg_left (var_nonneg o c))

/-- For v > 0, scaling by 1/√v and then by g is dividing by √v and then scaling by g. -/
theorem scale_eq_divide {v : EReal} (hv : 0 < v) (z g : EReal) :
    z * (Ideal.rsqrt v * g) = Ideal.div z (Ideal.sqrt v) * g := by
  induction v using EReal.rec with
  | bot => exact absurd hv (by simp)
  | top =>
    rw [Ideal.rsqrt_top, Ideal.sqrt_top, Ideal.div, if_neg EReal.top_ne_zero, EReal.inv_top, zero_mul, mul_zero,
      zero_mul]
  | coe r =>
    have hr : 0 < r := EReal.coe_pos.mp hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div, mul_assoc]

theorem normScaled_eq_normDivided (o : Mat 4096 32) (gamma beta : Fin 32 → EReal) (i : Fin 4096) (c : Fin 32) :
    normScaled o gamma beta i c = normDivided o gamma beta i c := by
  unfold normScaled normDivided
  rw [scale_eq_divide (varEps_pos o c)]

theorem recScaled_eq_recDivided (o : Mat 4096 32) (gamma beta : Fin 32 → EReal) :
    recScaled o gamma beta = recDivided o gamma beta := by
  funext i j
  unfold recScaled recDivided
  exact Finset.sum_congr rfl fun k _ => by
    rw [normScaled_eq_normDivided, normScaled_eq_normDivided]

theorem wholeScaled_eq_wholeDivided (x : Arr2 4096 16) (adj : Arr2 4096 4096) (W : Arr2 16 16) (a : Arr2 32 1)
    (Wgc : Arr2 16 32) (gamma beta : Arr1 32) :
    wholeScaled x adj W a Wgc gamma beta = wholeDivided x adj W a Wgc gamma beta := by
  unfold wholeScaled wholeDivided
  rw [recScaled_eq_recDivided]

end Cert.Spec

end
-- ==== Proof.Algebraic.lean ====
/-
  The value claim: run from memories that agree on the seven arguments, the idealized kernel program and the idealized
  reference both end, their result arrays equal as extended reals, element by element.

  The kernel's result array ends at what its last region's sixteen write-backs leave, which read block by block through
  the three regions is the whole map of the specification with the SCALED batch normalisation. The reference's result is
  its operations' composed term of the arguments, which read one operation at a time is the whole map with the DIVIDED
  batch normalisation. The two maps are one: var + ε is positive at every extended real, so dividing by its square root
  is multiplying by its reciprocal square root, and the rest is associativity of multiplication.
-/
import proofs.«177283_g481036337857_cont_8to1_c_51_7_alg».proof.Defs
import proofs.«177283_g481036337857_cont_8to1_c_51_7_alg».proof.Proof.Gen.Pre_finite_inputs
import proofs.«177283_g481036337857_cont_8to1_c_51_7_alg».proof.Proof.KernelRun
import proofs.«177283_g481036337857_cont_8to1_c_51_7_alg».proof.Proof.ValueWhole
import proofs.«177283_g481036337857_cont_8to1_c_51_7_alg».proof.Proof.RefRun
import proofs.«177283_g481036337857_cont_8to1_c_51_7_alg».proof.Proof.RefRead
import proofs.«177283_g481036337857_cont_8to1_c_51_7_alg».proof.Proof.SpecLaw

noncomputable section

namespace Cert.Proof.Value

open Idealize.ShloMosaic Idealize.ShloMosaic.TcCoe Idealize.SL.Sem

theorem algebraic : Cert.algebraic_KernelIdeal_ReferenceIdeal := by
  intro m ρ m' ρ' _ hagree
  refine ⟨fun c => Cert.KernelIdeal.Hand.recBuf (F := Ideal) m c, Cert.KernelIdeal.Hand.kernelRun (F := Ideal) m ρ, ?_⟩
  refine (θ_run (Cert.ReferenceIdeal.defs (F := Ideal)) _ _).mono (fun _ h c => ⟨(h c).1.trans ?_, (h c).2⟩)
    (Cert.ReferenceIdeal.RefValue.run m' ρ')
  obtain ⟨h0, h1, h2, h3, h4, h5, h6⟩ := hagree c
  rw [h0, h1, h2, h3, h4, h5, h6]
  exact (Cert.ReferenceIdeal.RefValue.refTerm_eq _ _ _ _ _ _ _).trans
    ((Cert.Spec.wholeScaled_eq_wholeDivided _ _ _ _ _ _ _).symm.trans (Cert.KernelIdeal.Hand.recBuf_eq m c).symm)

end Cert.Proof.Value

end
-- ==== Proof.lean ====
/-
  The certificate of a three-stage graph kernel against its reference: dense graph attention with a masked row softmax
  and the graph convolution's support (stage 1), aggregation over neighbours with a rectifier (stage 2), batch
  normalisation over the 4096 rows and the inner-product reconstruction (stage 3).

  The kernel program is a short host stretch and three kernel regions, each a grid of sixteen blocks of 256 rows; the
  reference is sixty host operations. Both are read, index by index over the extended reals, as one specification
  (Proof/Spec.lean). The three frames and the idealization claim are in Proof/Frames.lean, the value claim in
  Proof/Algebraic.lean; this file conjoins them under the programs' stated side conditions.
-/
import proofs.«177283_g481036337857_cont_8to1_c_51_7_alg».proof.Defs
import proofs.«177283_g481036337857_cont_8to1_c_51_7_alg».proof.Proof.Gen.Kernel
import proofs.«177283_g481036337857_cont_8to1_c_51_7_alg».proof.Proof.Gen.KernelIdeal
import proofs.«177283_g481036337857_cont_8to1_c_51_7_alg».proof.Proof.Gen.ReferenceIdeal
import proofs.«177283_g481036337857_cont_8to1_c_51_7_alg».proof.Proof.Gen.Pre_finite_inputs
import proofs.«177283_g481036337857_cont_8to1_c_51_7_alg».proof.Proof.Frames
import proofs.«177283_g481036337857_cont_8to1_c_51_7_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Frames.frame_kernel, Cert.Proof.Frames.frame_kernelIdeal, Cert.Proof.Frames.frame_reference,
    Cert.Proof.Frames.preserves, Cert.Proof.Value.algebraic⟩

end Cert.Proof

end
